-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128 : Shape := ⟨2, ![256, 128]⟩
abbrev S256x2048x64 : Shape := ⟨3, ![256, 2048, 64]⟩
abbrev S256x6x2048 : Shape := ⟨3, ![256, 6, 2048]⟩
abbrev S12416x384 : Shape := ⟨2, ![12416, 384]⟩
abbrev S384 : Shape := ⟨1, ![384]⟩
abbrev S256x12288 : Shape := ⟨2, ![256, 12288]⟩
abbrev S256x12416 : Shape := ⟨2, ![256, 12416]⟩
abbrev S256x384 : Shape := ⟨2, ![256, 384]⟩
abbrev S1x384 : Shape := ⟨2, ![1, 384]⟩
abbrev S256x6x64 : Shape := ⟨3, ![256, 6, 64]⟩
abbrev S_ : Shape := ⟨0, ![]⟩
abbrev S256x2048 : Shape := ⟨2, ![256, 2048]⟩
abbrev S256x6 : Shape := ⟨2, ![256, 6]⟩

class Facts : Prop where
  shapeCasts_S256x6x2048_S256x12288 : S256x6x2048.ShapeCasts S256x12288
  concatenates_S256x12288_S256x128_S256x12416_d1 : Shape.Concatenates [S256x12288, S256x128] S256x12416 1
  bcast_S384_S1x384_1 : S384.BroadcastsInDim S1x384 (![1] : Fin 1 → Fin S1x384.rank)
  bcast_S1x384_S256x384_0_1 : S1x384.BroadcastsInDim S256x384 (![0, 1] : Fin 2 → Fin S256x384.rank)
  shapeCasts_S256x384_S256x6x64 : S256x384.ShapeCasts S256x6x64
  bcast_S_S256x128 : S_.BroadcastsInDim S256x128 (![] : Fin 0 → Fin S256x128.rank)
  reducesTo_S256x128_S_d0_1 : S256x128.ReducesTo [0, 1] S_
  h_S_ : 0 < S_.numel
  bcast_S_S256x2048x64 : S_.BroadcastsInDim S256x2048x64 (![] : Fin 0 → Fin S256x2048x64.rank)
  reducesTo_S256x2048x64_S_d0_1_2 : S256x2048x64.ReducesTo [0, 1, 2] S_
  bcast_S_S256x6x2048 : S_.BroadcastsInDim S256x6x2048 (![] : Fin 0 → Fin S256x6x2048.rank)
  reducesTo_S256x6x2048_S_d0_1_2 : S256x6x2048.ReducesTo [0, 1, 2] S_
  bcast_S_S12416x384 : S_.BroadcastsInDim S12416x384 (![] : Fin 0 → Fin S12416x384.rank)
  reducesTo_S12416x384_S_d0_1 : S12416x384.ReducesTo [0, 1] S_
  bcast_S_S384 : S_.BroadcastsInDim S384 (![] : Fin 0 → Fin S384.rank)
  reducesTo_S384_S_d0 : S384.ReducesTo [0] S_
  reducesTo_S256x2048x64_S256x2048_d2 : S256x2048x64.ReducesTo [2] S256x2048
  bcast_S_S256x2048 : S_.BroadcastsInDim S256x2048 (![] : Fin 0 → Fin S256x2048.rank)
  reducesTo_S256x2048_S_d0_1 : S256x2048.ReducesTo [0, 1] S_
  reducesTo_S256x6x64_S256x6_d2 : S256x6x64.ReducesTo [2] S256x6
  bcast_S_S256x6 : S_.BroadcastsInDim S256x6 (![] : Fin 0 → Fin S256x6.rank)
  reducesTo_S256x6_S_d0_1 : S256x6.ReducesTo [0, 1] S_
  dot_S256x12416_S12416x384_S256x384_1_0_0_1_n_n_wf : DotDims.WF S256x12416 S12416x384 S256x384 [1] [0] [0] [1] [] []

variable [Facts]

def dot_S256x12416_S12416x384_S256x384_1_0_0_1_n_n : DotDims S256x12416 S12416x384 S256x384 where
  lhsContracting := [1]
  rhsContracting := [0]
  lhsNonContracting := [0]
  rhsNonContracting := [1]
  lhsBatch := []
  rhsBatch := []
  wf := dot_S256x12416_S12416x384_S256x384_1_0_0_1_n_n_wf
def fn_part3 {F : FTy → Type} [FloatOps F] (main_v6 : FVec F S256x6x64 .f32) (main_v50 : IVec S_ 1) (main_v52 : FVec F S256x2048 .f32) : IVec S_ 1 :=
  let main_cst_17 : FVec F S_ .f32 := constant S_ .f32 0x00000000#32
  let main_v53 : FVec F S256x2048 .f32 := broadcastInDim S256x2048 ![] bcast_S_S256x2048 main_cst_17
  let main_v54 : IVec S256x2048 1 := cmpf .ogt main_v52 main_v53
  let main_c_18 : IVec S_ 1 := constantI S_ 1 1#1
  let main_v55 : IVec S_ 1 := (fun x v => Host.reduce IntOp.andi x v reducesTo_S256x2048_S_d0_1 h_S_) main_v54 main_c_18
  let main_v56 : IVec S_ 1 := andi main_v50 main_v55
  let main_v57 : FVec F S256x6x64 .f32 := mulf main_v6 main_v6
  let main_cst_19 : FVec F S_ .f32 := constant S_ .f32 0x00000000#32
  let main_v58 : FVec F S256x6 .f32 := (fun x v => Host.reduceAdd x v reducesTo_S256x6x64_S256x6_d2 h_S_) main_v57 main_cst_19
  let main_cst_20 : FVec F S_ .f32 := constant S_ .f32 0x00000000#32
  let main_v59 : FVec F S256x6 .f32 := broadcastInDim S256x6 ![] bcast_S_S256x6 main_cst_20
  let main_v60 : IVec S256x6 1 := cmpf .ogt main_v58 main_v59
  let main_c_21 : IVec S_ 1 := constantI S_ 1 1#1
  let main_v61 : IVec S_ 1 := (fun x v => Host.reduce IntOp.andi x v reducesTo_S256x6_S_d0_1 h_S_) main_v60 main_c_21
  let main_v62 : IVec S_ 1 := andi main_v56 main_v61
  main_v62

def fn_part2 {F : FTy → Type} [FloatOps F] (main_arg1 : FVec F S256x2048x64 .f32) (main_arg6 : FVec F S384 .f32) (main_arg7 : FVec F S12416x384 .f32) (main_arg8 : FVec F S384 .f32) (main_v6 : FVec F S256x6x64 .f32) (main_v35 : IVec S_ 1) : IVec S_ 1 :=
  let main_v36 : FVec F S384 .f32 := Host.absf main_arg6
  let main_cst_10 : FVec F S_ .f32 := constant S_ .f32 0x7F800000#32
  let main_v37 : FVec F S384 .f32 := broadcastInDim S384 ![] bcast_S_S384 main_cst_10
  let main_v38 : IVec S384 1 := cmpf .olt main_v36 main_v37
  let main_c_11 : IVec S_ 1 := constantI S_ 1 1#1
  let main_v39 : IVec S_ 1 := (fun x v => Host.reduce IntOp.andi x v reducesTo_S384_S_d0 h_S_) main_v38 main_c_11
  let main_v40 : IVec S_ 1 := andi main_v35 main_v39
  let main_v41 : FVec F S12416x384 .f32 := Host.absf main_arg7
  let main_cst_12 : FVec F S_ .f32 := constant S_ .f32 0x7F800000#32
  let main_v42 : FVec F S12416x384 .f32 := broadcastInDim S12416x384 ![] bcast_S_S12416x384 main_cst_12
  let main_v43 : IVec S12416x384 1 := cmpf .olt main_v41 main_v42
  let main_c_13 : IVec S_ 1 := constantI S_ 1 1#1
  let main_v44 : IVec S_ 1 := (fun x v => Host.reduce IntOp.andi x v reducesTo_S12416x384_S_d0_1 h_S_) main_v43 main_c_13
  let main_v45 : IVec S_ 1 := andi main_v40 main_v44
  let main_v46 : FVec F S384 .f32 := Host.absf main_arg8
  let main_cst_14 : FVec F S_ .f32 := constant S_ .f32 0x7F800000#32
  let main_v47 : FVec F S384 .f32 := broadcastInDim S384 ![] bcast_S_S384 main_cst_14
  let main_v48 : IVec S384 1 := cmpf .olt main_v46 main_v47
  let main_c_15 : IVec S_ 1 := constantI S_ 1 1#1
  let main_v49 : IVec S_ 1 := (fun x v => Host.reduce IntOp.andi x v reducesTo_S384_S_d0 h_S_) main_v48 main_c_15
  let main_v50 : IVec S_ 1 := andi main_v45 main_v49
  let main_v51 : FVec F S256x2048x64 .f32 := mulf main_arg1 main_arg1
  let main_cst_16 : FVec F S_ .f32 := constant S_ .f32 0x00000000#32
  let main_v52 : FVec F S256x2048 .f32 := (fun x v => Host.reduceAdd x v reducesTo_S256x2048x64_S256x2048_d2 h_S_) main_v51 main_cst_16
  fn_part3 (F := F) main_v6 main_v50 main_v52

def fn_part1 {F : FTy → Type} [FloatOps F] (main_arg1 : FVec F S256x2048x64 .f32) (main_arg3 : FVec F S12416x384 .f32) (main_arg4 : FVec F S384 .f32) (main_arg5 : FVec F S12416x384 .f32) (main_arg6 : FVec F S384 .f32) (main_arg7 : FVec F S12416x384 .f32) (main_arg8 : FVec F S384 .f32) (main_v6 : FVec F S256x6x64 .f32) (main_v15 : IVec S_ 1) (main_v18 : IVec S256x6x2048 1) : IVec S_ 1 :=
  let main_c_3 : IVec S_ 1 := constantI S_ 1 1#1
  let main_v19 : IVec S_ 1 := (fun x v => Host.reduce IntOp.andi x v reducesTo_S256x6x2048_S_d0_1_2 h_S_) main_v18 main_c_3
  let main_v20 : IVec S_ 1 := andi main_v15 main_v19
  let main_v21 : FVec F S12416x384 .f32 := Host.absf main_arg3
  let main_cst_4 : FVec F S_ .f32 := constant S_ .f32 0x7F800000#32
  let main_v22 : FVec F S12416x384 .f32 := broadcastInDim S12416x384 ![] bcast_S_S12416x384 main_cst_4
  let main_v23 : IVec S12416x384 1 := cmpf .olt main_v21 main_v22
  let main_c_5 : IVec S_ 1 := constantI S_ 1 1#1
  let main_v24 : IVec S_ 1 := (fun x v => Host.reduce IntOp.andi x v reducesTo_S12416x384_S_d0_1 h_S_) main_v23 main_c_5
  let main_v25 : IVec S_ 1 := andi main_v20 main_v24
  let main_v26 : FVec F S384 .f32 := Host.absf main_arg4
  let main_cst_6 : FVec F S_ .f32 := constant S_ .f32 0x7F800000#32
  let main_v27 : FVec F S384 .f32 := broadcastInDim S384 ![] bcast_S_S384 main_cst_6
  let main_v28 : IVec S384 1 := cmpf .olt main_v26 main_v27
  let main_c_7 : IVec S_ 1 := constantI S_ 1 1#1
  let main_v29 : IVec S_ 1 := (fun x v => Host.reduce IntOp.andi x v reducesTo_S384_S_d0 h_S_) main_v28 main_c_7
  let main_v30 : IVec S_ 1 := andi main_v25 main_v29
  let main_v31 : FVec F S12416x384 .f32 := Host.absf main_arg5
  let main_cst_8 : FVec F S_ .f32 := constant S_ .f32 0x7F800000#32
  let main_v32 : FVec F S12416x384 .f32 := broadcastInDim S12416x384 ![] bcast_S_S12416x384 main_cst_8
  let main_v33 : IVec S12416x384 1 := cmpf .olt main_v31 main_v32
  let main_c_9 : IVec S_ 1 := constantI S_ 1 1#1
  let main_v34 : IVec S_ 1 := (fun x v => Host.reduce IntOp.andi x v reducesTo_S12416x384_S_d0_1 h_S_) main_v33 main_c_9
  let main_v35 : IVec S_ 1 := andi main_v30 main_v34
  fn_part2 (F := F) main_arg1 main_arg6 main_arg7 main_arg8 main_v6 main_v35

def fn {F : FTy → Type} [FloatOps F] (main_arg0 : FVec F S256x128 .f32) (main_arg1 : FVec F S256x2048x64 .f32) (main_arg2 : FVec F S256x6x2048 .f32) (main_arg3 : FVec F S12416x384 .f32) (main_arg4 : FVec F S384 .f32) (main_arg5 : FVec F S12416x384 .f32) (main_arg6 : FVec F S384 .f32) (main_arg7 : FVec F S12416x384 .f32) (main_arg8 : FVec F S384 .f32) : IVec S_ 1 :=
  let main_v0 : FVec F S256x12288 .f32 := shapeCast S256x12288 main_arg2 shapeCasts_S256x6x2048_S256x12288
  let main_v1 : FVec F S256x12416 .f32 := (fun a b => concatenate S256x12416 1 [⟨S256x12288, a⟩, ⟨S256x128, b⟩] concatenates_S256x12288_S256x128_S256x12416_d1) main_v0 main_arg0
  let main_v2 : FVec F S256x384 .f32 := (fun l r => Host.dotGeneral dot_S256x12416_S12416x384_S256x384_1_0_0_1_n_n none l r) main_v1 main_arg3
  let main_v3 : FVec F S1x384 .f32 := broadcastInDim S1x384 ![1] bcast_S384_S1x384_1 main_arg4
  let main_v4 : FVec F S256x384 .f32 := broadcastInDim S256x384 ![0, 1] bcast_S1x384_S256x384_0_1 main_v3
  let main_v5 : FVec F S256x384 .f32 := addf main_v2 main_v4
  let main_v6 : FVec F S256x6x64 .f32 := shapeCast S256x6x64 main_v5 shapeCasts_S256x384_S256x6x64
  let main_v7 : FVec F S256x128 .f32 := Host.absf main_arg0
  let main_cst : FVec F S_ .f32 := constant S_ .f32 0x7F800000#32
  let main_v8 : FVec F S256x128 .f32 := broadcastInDim S256x128 ![] bcast_S_S256x128 main_cst
  let main_v9 : IVec S256x128 1 := cmpf .olt main_v7 main_v8
  let main_c : IVec S_ 1 := constantI S_ 1 1#1
  let main_v10 : IVec S_ 1 := (fun x v => Host.reduce IntOp.andi x v reducesTo_S256x128_S_d0_1 h_S_) main_v9 main_c
  let main_v11 : FVec F S256x2048x64 .f32 := Host.absf main_arg1
  let main_cst_0 : FVec F S_ .f32 := constant S_ .f32 0x7F800000#32
  let main_v12 : FVec F S256x2048x64 .f32 := broadcastInDim S256x2048x64 ![] bcast_S_S256x2048x64 main_cst_0
  let main_v13 : IVec S256x2048x64 1 := cmpf .olt main_v11 main_v12
  let main_c_1 : IVec S_ 1 := constantI S_ 1 1#1
  let main_v14 : IVec S_ 1 := (fun x v => Host.reduce IntOp.andi x v reducesTo_S256x2048x64_S_d0_1_2 h_S_) main_v13 main_c_1
  let main_v15 : IVec S_ 1 := andi main_v10 main_v14
  let main_v16 : FVec F S256x6x2048 .f32 := Host.absf main_arg2
  let main_cst_2 : FVec F S_ .f32 := constant S_ .f32 0x7F800000#32
  let main_v17 : FVec F S256x6x2048 .f32 := broadcastInDim S256x6x2048 ![] bcast_S_S256x6x2048 main_cst_2
  let main_v18 : IVec S256x6x2048 1 := cmpf .olt main_v16 main_v17
  fn_part1 (F := F) main_arg1 main_arg3 main_arg4 main_arg5 main_arg6 main_arg7 main_arg8 main_v6 main_v15 main_v18
-- ==== Kernel.lean ====
abbrev S256x128 : Shape := ⟨2, ![256, 128]⟩
abbrev S256x2048x64 : Shape := ⟨3, ![256, 2048, 64]⟩
abbrev S256x6x2048 : Shape := ⟨3, ![256, 6, 2048]⟩
abbrev S12416x384 : Shape := ⟨2, ![12416, 384]⟩
abbrev S384 : Shape := ⟨1, ![384]⟩
abbrev S256x12288 : Shape := ⟨2, ![256, 12288]⟩
abbrev S256x12416 : Shape := ⟨2, ![256, 12416]⟩
abbrev S12416x1152 : Shape := ⟨2, ![12416, 1152]⟩
abbrev S1152 : Shape := ⟨1, ![1152]⟩
abbrev S1x1152 : Shape := ⟨2, ![1, 1152]⟩
abbrev S256x1152 : Shape := ⟨2, ![256, 1152]⟩
abbrev S12416x128 : Shape := ⟨2, ![12416, 128]⟩
abbrev S1x128 : Shape := ⟨2, ![1, 128]⟩
abbrev S256x384 : Shape := ⟨2, ![256, 384]⟩
abbrev S256x6x64 : Shape := ⟨3, ![256, 6, 64]⟩
abbrev S_ : Shape := ⟨0, ![]⟩
abbrev S256x6 : Shape := ⟨2, ![256, 6]⟩
abbrev S256x6x1 : Shape := ⟨3, ![256, 6, 1]⟩
abbrev S256x1024x128 : Shape := ⟨3, ![256, 1024, 128]⟩
abbrev S256x6x1024 : Shape := ⟨3, ![256, 6, 1024]⟩
abbrev S4x6x64 : Shape := ⟨3, ![4, 6, 64]⟩
abbrev S4x1024x128 : Shape := ⟨3, ![4, 1024, 128]⟩
abbrev S4x6x1024 : Shape := ⟨3, ![4, 6, 1024]⟩
abbrev S1x1x128 : Shape := ⟨3, ![1, 1, 128]⟩
abbrev S4x1024 : Shape := ⟨2, ![4, 1024]⟩
abbrev S4x1024x1 : Shape := ⟨3, ![4, 1024, 1]⟩
abbrev S4x6x128 : Shape := ⟨3, ![4, 6, 128]⟩
abbrev S4x6 : Shape := ⟨2, ![4, 6]⟩
abbrev S4x6x1 : Shape := ⟨3, ![4, 6, 1]⟩
abbrev S256x6x1024x1 : Shape := ⟨4, ![256, 6, 1024, 1]⟩
abbrev S256x6x1024x2 : Shape := ⟨4, ![256, 6, 1024, 2]⟩

abbrev nBuf : Space → Nat
  | .hbm => 53
  | .vmem => 21
  | .smem => 0
  | _ => 0

abbrev bufTy : (tb : Table) → Fin (tcTables nBuf tb) → BufTy
  | .hbm, ⟨0, _⟩ => ⟨S256x128, .f32⟩
  | .hbm, ⟨1, _⟩ => ⟨S256x2048x64, .f32⟩
  | .hbm, ⟨2, _⟩ => ⟨S256x6x2048, .f32⟩
  | .hbm, ⟨3, _⟩ => ⟨S12416x384, .f32⟩
  | .hbm, ⟨4, _⟩ => ⟨S384, .f32⟩
  | .hbm, ⟨5, _⟩ => ⟨S12416x384, .f32⟩
  | .hbm, ⟨6, _⟩ => ⟨S384, .f32⟩
  | .hbm, ⟨7, _⟩ => ⟨S12416x384, .f32⟩
  | .hbm, ⟨8, _⟩ => ⟨S384, .f32⟩
  | .hbm, ⟨9, _⟩ => ⟨S256x12288, .f32⟩
  | .hbm, ⟨10, _⟩ => ⟨S256x12416, .f32⟩
  | .hbm, ⟨11, _⟩ => ⟨S12416x1152, .f32⟩
  | .hbm, ⟨12, _⟩ => ⟨S1152, .f32⟩
  | .hbm, ⟨13, _⟩ => ⟨S1x1152, .f32⟩
  | .hbm, ⟨14, _⟩ => ⟨S256x1152, .f32⟩
  | .hbm, ⟨15, _⟩ => ⟨S256x384, .f32⟩
  | .hbm, ⟨16, _⟩ => ⟨S256x384, .f32⟩
  | .hbm, ⟨17, _⟩ => ⟨S256x384, .f32⟩
  | .hbm, ⟨18, _⟩ => ⟨S256x6x64, .f32⟩
  | .hbm, ⟨19, _⟩ => ⟨S256x384, .f32⟩
  | .hbm, ⟨20, _⟩ => ⟨S256x384, .f32⟩
  | .hbm, ⟨21, _⟩ => ⟨S_, .f32⟩
  | .hbm, ⟨22, _⟩ => ⟨S256x384, .f32⟩
  | .hbm, ⟨23, _⟩ => ⟨S256x384, .f32⟩
  | .hbm, ⟨24, _⟩ => ⟨S_, .f32⟩
  | .hbm, ⟨25, _⟩ => ⟨S256x384, .f32⟩
  | .hbm, ⟨26, _⟩ => ⟨S256x384, .f32⟩
  | .hbm, ⟨27, _⟩ => ⟨S256x6x64, .f32⟩
  | .hbm, ⟨28, _⟩ => ⟨S256x384, .f32⟩
  | .hbm, ⟨29, _⟩ => ⟨S256x384, .f32⟩
  | .hbm, ⟨30, _⟩ => ⟨S_, .f32⟩
  | .hbm, ⟨31, _⟩ => ⟨S256x384, .f32⟩
  | .hbm, ⟨32, _⟩ => ⟨S256x384, .f32⟩
  | .hbm, ⟨33, _⟩ => ⟨S_, .f32⟩
  | .hbm, ⟨34, _⟩ => ⟨S256x384, .f32⟩
  | .hbm, ⟨35, _⟩ => ⟨S256x384, .f32⟩
  | .hbm, ⟨36, _⟩ => ⟨S256x6x64, .f32⟩
  | .hbm, ⟨37, _⟩ => ⟨S256x6x64, .f32⟩
  | .hbm, ⟨38, _⟩ => ⟨S_, .f32⟩
  | .hbm, ⟨39, _⟩ => ⟨S256x6, .f32⟩
  | .hbm, ⟨40, _⟩ => ⟨S256x6x1, .f32⟩
  | .hbm, ⟨41, _⟩ => ⟨S256x6x1, .f32⟩
  | .hbm, ⟨42, _⟩ => ⟨S256x6x64, .f32⟩
  | .hbm, ⟨43, _⟩ => ⟨S256x6x64, .f32⟩
  | .hbm, ⟨44, _⟩ => ⟨S256x1024x128, .f32⟩
  | .hbm, ⟨45, _⟩ => ⟨S256x1024x128, .f32⟩
  | .hbm, ⟨46, _⟩ => ⟨S256x6x1024, .f32⟩
  | .hbm, ⟨47, _⟩ => ⟨S256x6x1024, .f32⟩
  | .hbm, ⟨48, _⟩ => ⟨S256x2048x64, .f32⟩
  | .hbm, ⟨49, _⟩ => ⟨S256x6x1024x1, .f32⟩
  | .hbm, ⟨50, _⟩ => ⟨S256x6x1024x1, .f32⟩
  | .hbm, ⟨51, _⟩ => ⟨S256x6x1024x2, .f32⟩
  | .hbm, ⟨52, _⟩ => ⟨S256x6x2048, .f32⟩
  | .local _ .vmem, ⟨0, _⟩ => ⟨S256x12416, .f32⟩
  | .local _ .vmem, ⟨1, _⟩ => ⟨S12416x128, .f32⟩
  | .local _ .vmem, ⟨2, _⟩ => ⟨S12416x128, .f32⟩
  | .local _ .vmem, ⟨3, _⟩ => ⟨S1x128, .f32⟩
  | .local _ .vmem, ⟨4, _⟩ => ⟨S1x128, .f32⟩
  | .local _ .vmem, ⟨5, _⟩ => ⟨S256x128, .f32⟩
  | .local _ .vmem, ⟨6, _⟩ => ⟨S256x128, .f32⟩
  | .local _ .vmem, ⟨7, _⟩ => ⟨S4x6x64, .f32⟩
  | .local _ .vmem, ⟨8, _⟩ => ⟨S4x6x64, .f32⟩
  | .local _ .vmem, ⟨9, _⟩ => ⟨S4x6x64, .f32⟩
  | .local _ .vmem, ⟨10, _⟩ => ⟨S4x6x64, .f32⟩
  | .local _ .vmem, ⟨11, _⟩ => ⟨S4x6x64, .f32⟩
  | .local _ .vmem, ⟨12, _⟩ => ⟨S4x6x64, .f32⟩
  | .local _ .vmem, ⟨13, _⟩ => ⟨S4x1024x128, .f32⟩
  | .local _ .vmem, ⟨14, _⟩ => ⟨S4x1024x128, .f32⟩
  | .local _ .vmem, ⟨15, _⟩ => ⟨S4x1024x128, .f32⟩
  | .local _ .vmem, ⟨16, _⟩ => ⟨S4x1024x128, .f32⟩
  | .local _ .vmem, ⟨17, _⟩ => ⟨S4x6x1024, .f32⟩
  | .local _ .vmem, ⟨18, _⟩ => ⟨S4x6x1024, .f32⟩
  | .local _ .vmem, ⟨19, _⟩ => ⟨S4x6x1024, .f32⟩
  | .local _ .vmem, ⟨20, _⟩ => ⟨S4x6x1024, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev main_v31_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x12416 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S12416x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x6x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x6x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x6x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x6x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4x6x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S256x6x2048_S256x12288 : S256x6x2048.ShapeCasts S256x12288
  concatenates_S256x12288_S256x128_S256x12416_d1 : Shape.Concatenates [S256x12288, S256x128] S256x12416 1
  concatenates_S12416x384_S12416x384_S12416x384_S12416x1152_d1 : Shape.Concatenates [S12416x384, S12416x384, S12416x384] S12416x1152 1
  concatenates_S384_S384_S384_S1152_d0 : Shape.Concatenates [S384, S384, S384] S1152 0
  shapeCasts_S1152_S1x1152 : S1152.ShapeCasts S1x1152
  inb_S256x12416_S256x12416_0_0 : ∀ a, (![0, 0] : Fin 2 → Nat) a + S256x12416.size a ≤ S256x12416.size a
  h_S256x12416 : 0 < S256x12416.numel
  shapeCasts_S256x12416_S256x12416 : S256x12416.ShapeCasts S256x12416
  inb_S12416x128_S12416x128_0_0 : ∀ a, (![0, 0] : Fin 2 → Nat) a + S12416x128.size a ≤ S12416x128.size a
  h_S12416x128 : 0 < S12416x128.numel
  shapeCasts_S12416x128_S12416x128 : S12416x128.ShapeCasts S12416x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  slices_S256x1152_S256x384_0_0 : S256x1152.Slices ![0, 0] S256x384
  slices_S256x1152_S256x384_0_384 : S256x1152.Slices ![0, 384] S256x384
  slices_S256x1152_S256x384_0_768 : S256x1152.Slices ![0, 768] S256x384
  shapeCasts_S256x384_S256x6x64 : S256x384.ShapeCasts S256x6x64
  bcast_S_S256x384 : S_.BroadcastsInDim S256x384 (![] : Fin 0 → Fin S256x384.rank)
  reducesTo_S256x6x64_S256x6_d2 : S256x6x64.ReducesTo [2] S256x6
  h_S_ : 0 < S_.numel
  bcast_S256x6_S256x6x1_0_1 : S256x6.BroadcastsInDim S256x6x1 (![0, 1] : Fin 2 → Fin S256x6x1.rank)
  bcast_S256x6x1_S256x6x64_0_1_2 : S256x6x1.BroadcastsInDim S256x6x64 (![0, 1, 2] : Fin 3 → Fin S256x6x64.rank)
  shapeCasts_S256x2048x64_S256x1024x128 : S256x2048x64.ShapeCasts S256x1024x128
  inb_S4x6x64_S4x6x64_0_0_0 : ∀ a, (![0, 0, 0] : Fin 3 → Nat) a + S4x6x64.size a ≤ S4x6x64.size a
  h_S4x6x64 : 0 < S4x6x64.numel
  shapeCasts_S4x6x64_S4x6x64 : S4x6x64.ShapeCasts S4x6x64
  inb_S4x1024x128_S4x1024x128_0_0_0 : ∀ a, (![0, 0, 0] : Fin 3 → Nat) a + S4x1024x128.size a ≤ S4x1024x128.size a
  h_S4x1024x128 : 0 < S4x1024x128.numel
  shapeCasts_S4x1024x128_S4x1024x128 : S4x1024x128.ShapeCasts S4x1024x128
  iota_S1x1x128_d2_w32 : S1x1x128.Iotas .tc 32 [2]
  natLt_1_32 : 1 < 32
  broadcasts_S1x1x128_S4x1024x128 : S1x1x128.Broadcasts S4x1024x128
  reduces_S4x1024x128_S4x1024 : S4x1024x128.Reduces [2] S4x1024
  shapeCasts_S4x1024_S4x1024x1 : S4x1024.ShapeCasts S4x1024x1
  broadcasts_S4x1024x1_S4x1024x128 : S4x1024x1.Broadcasts S4x1024x128
  concatenates_S4x6x64_S4x6x64_S4x6x128_d2 : Shape.Concatenates [S4x6x64, S4x6x64] S4x6x128 2
  reduces_S4x6x1024_S4x6 : S4x6x1024.Reduces [2] S4x6
  shapeCasts_S4x6_S4x6x1 : S4x6.ShapeCasts S4x6x1
  broadcasts_S4x6x1_S4x6x1024 : S4x6x1.Broadcasts S4x6x1024
  inb_S4x6x1024_S4x6x1024_0_0_0 : ∀ a, (![0, 0, 0] : Fin 3 → Nat) a + S4x6x1024.size a ≤ S4x6x1024.size a
  h_S4x6x1024 : 0 < S4x6x1024.numel
  shapeCasts_S256x1024x128_S256x2048x64 : S256x1024x128.ShapeCasts S256x2048x64
  bcast_S256x6x1024_S256x6x1024x1_0_1_2 : S256x6x1024.BroadcastsInDim S256x6x1024x1 (![0, 1, 2] : Fin 3 → Fin S256x6x1024x1.rank)
  concatenates_S256x6x1024x1_S256x6x1024x1_S256x6x1024x2_d3 : Shape.Concatenates [S256x6x1024x1, S256x6x1024x1] S256x6x1024x2 3
  shapeCasts_S256x6x1024x2_S256x6x2048 : S256x6x1024x2.ShapeCasts S256x6x2048
  dot_S256x12416_S12416x128_S256x128_1_0_0_1_n_n_wf : DotDims.WF S256x12416 S12416x128 S256x128 [1] [0] [0] [1] [] []
  dot_S4x6x128_S4x1024x128_S4x6x1024_2_2_1_1_0_0_wf : DotDims.WF S4x6x128 S4x1024x128 S4x6x1024 [2] [2] [1] [1] [0] [0]
  dot_S4x6x1024_S4x6x128_S4x1024x128_1_1_2_2_0_0_wf : DotDims.WF S4x6x1024 S4x6x128 S4x1024x128 [1] [1] [2] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x12416.size a ≤ S256x12416.size a
  hwx0_0 : ∀ i : grid0.Coords, EltTy.bits .f32 = 32 ∨ (Rect.block (s := S256x12416) S256x12416.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12416x128.size a ≤ S12416x1152.size a
  hwx0_1 : ∀ i : grid0.Coords, EltTy.bits .f32 = 32 ∨ (Rect.block (s := S12416x1152) S12416x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1152.size a
  hwx0_2 : ∀ i : grid0.Coords, EltTy.bits .f32 = 32 ∨ (Rect.block (s := S1x1152) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x1152.size a
  hwx0_3 : ∀ i : grid0.Coords, EltTy.bits .f32 = 32 ∨ (Rect.block (s := S256x1152) S256x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x6x64.size a ≤ S256x6x64.size a
  hwx1_0 : ∀ i : grid1.Coords, EltTy.bits .f32 = 32 ∨ (Rect.block (s := S256x6x64) S4x6x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x6x64.size a ≤ S256x6x64.size a
  hwx1_1 : ∀ i : grid1.Coords, EltTy.bits .f32 = 32 ∨ (Rect.block (s := S256x6x64) S4x6x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x6x64.size a ≤ S256x6x64.size a
  hwx1_2 : ∀ i : grid1.Coords, EltTy.bits .f32 = 32 ∨ (Rect.block (s := S256x6x64) S4x6x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x1024x128.size a ≤ S256x1024x128.size a
  hwx1_3 : ∀ i : grid1.Coords, EltTy.bits .f32 = 32 ∨ (Rect.block (s := S256x1024x128) S4x1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x1024x128.size a ≤ S256x1024x128.size a
  hwx1_4 : ∀ i : grid1.Coords, EltTy.bits .f32 = 32 ∨ (Rect.block (s := S256x1024x128) S4x1024x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x6x1024.size a ≤ S256x6x1024.size a
  hwx1_5 : ∀ i : grid1.Coords, EltTy.bits .f32 = 32 ∨ (Rect.block (s := S256x6x1024) S4x6x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4x6x1024.size a ≤ S256x6x1024.size a
  hwx1_6 : ∀ i : grid1.Coords, EltTy.bits .f32 = 32 ∨ (Rect.block (s := S256x6x1024) S4x6x1024.size (cc1_transform_6 i) (hinb1_6 i)).WholeWords (EltTy.packing .f32)

variable [Facts₀]

def dot_S256x12416_S12416x128_S256x128_1_0_0_1_n_n : DotDims S256x12416 S12416x128 S256x128 where
  lhsContracting := [1]
  rhsContracting := [0]
  lhsNonContracting := [0]
  rhsNonContracting := [1]
  lhsBatch := []
  rhsBatch := []
  wf := dot_S256x12416_S12416x128_S256x128_1_0_0_1_n_n_wf
def dot_S4x6x128_S4x1024x128_S4x6x1024_2_2_1_1_0_0 : DotDims S4x6x128 S4x1024x128 S4x6x1024 where
  lhsContracting := [2]
  rhsContracting := [2]
  lhsNonContracting := [1]
  rhsNonContracting := [1]
  lhsBatch := [0]
  rhsBatch := [0]
  wf := dot_S4x6x128_S4x1024x128_S4x6x1024_2_2_1_1_0_0_wf
def dot_S4x6x1024_S4x6x128_S4x1024x128_1_1_2_2_0_0 : DotDims S4x6x1024 S4x6x128 S4x1024x128 where
  lhsContracting := [1]
  rhsContracting := [1]
  lhsNonContracting := [2]
  rhsNonContracting := [2]
  lhsBatch := [0]
  rhsBatch := [0]
  wf := dot_S4x6x1024_S4x6x128_S4x1024x128_1_1_2_2_0_0_wf

abbrev win0_0 : Pipeline.Window sig grid0 :=
  Pipeline.Window.ofSpec (Memref.whole main_v1) S256x12416.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S12416x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S4x6x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4x6x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S4x6x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S4x1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31_0) S4x1024x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31_1) S4x6x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v31_2) S4x6x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S256x128 : Shape := ⟨2, ![256, 128]⟩
abbrev S256x2048x64 : Shape := ⟨3, ![256, 2048, 64]⟩
abbrev S256x6x2048 : Shape := ⟨3, ![256, 6, 2048]⟩
abbrev S12416x384 : Shape := ⟨2, ![12416, 384]⟩
abbrev S384 : Shape := ⟨1, ![384]⟩
abbrev S256x12288 : Shape := ⟨2, ![256, 12288]⟩
abbrev S256x12416 : Shape := ⟨2, ![256, 12416]⟩
abbrev S256x384 : Shape := ⟨2, ![256, 384]⟩
abbrev S1x384 : Shape := ⟨2, ![1, 384]⟩
abbrev S256x6x64 : Shape := ⟨3, ![256, 6, 64]⟩
abbrev S_ : Shape := ⟨0, ![]⟩
abbrev S256x6 : Shape := ⟨2, ![256, 6]⟩
abbrev S256x6x1 : Shape := ⟨3, ![256, 6, 1]⟩
abbrev S256x2048 : Shape := ⟨2, ![256, 2048]⟩
abbrev S256x2048x1 : Shape := ⟨3, ![256, 2048, 1]⟩

abbrev nBuf : Space → Nat
  | .hbm => 77
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x2048x64, .f32⟩
  | .hbm, ⟨2, _⟩ => ⟨S256x6x2048, .f32⟩
  | .hbm, ⟨3, _⟩ => ⟨S12416x384, .f32⟩
  | .hbm, ⟨4, _⟩ => ⟨S384, .f32⟩
  | .hbm, ⟨5, _⟩ => ⟨S12416x384, .f32⟩
  | .hbm, ⟨6, _⟩ => ⟨S384, .f32⟩
  | .hbm, ⟨7, _⟩ => ⟨S12416x384, .f32⟩
  | .hbm, ⟨8, _⟩ => ⟨S384, .f32⟩
  | .hbm, ⟨9, _⟩ => ⟨S256x12288, .f32⟩
  | .hbm, ⟨10, _⟩ => ⟨S256x12416, .f32⟩
  | .hbm, ⟨11, _⟩ => ⟨S256x384, .f32⟩
  | .hbm, ⟨12, _⟩ => ⟨S1x384, .f32⟩
  | .hbm, ⟨13, _⟩ => ⟨S256x384, .f32⟩
  | .hbm, ⟨14, _⟩ => ⟨S256x384, .f32⟩
  | .hbm, ⟨15, _⟩ => ⟨S256x6x64, .f32⟩
  | .hbm, ⟨16, _⟩ => ⟨S256x6x64, .f32⟩
  | .hbm, ⟨17, _⟩ => ⟨S_, .f32⟩
  | .hbm, ⟨18, _⟩ => ⟨S256x6, .f32⟩
  | .hbm, ⟨19, _⟩ => ⟨S256x6x1, .f32⟩
  | .hbm, ⟨20, _⟩ => ⟨S256x6x1, .f32⟩
  | .hbm, ⟨21, _⟩ => ⟨S256x6x64, .f32⟩
  | .hbm, ⟨22, _⟩ => ⟨S256x6x64, .f32⟩
  | .hbm, ⟨23, _⟩ => ⟨S256x2048x64, .f32⟩
  | .hbm, ⟨24, _⟩ => ⟨S_, .f32⟩
  | .hbm, ⟨25, _⟩ => ⟨S256x2048, .f32⟩
  | .hbm, ⟨26, _⟩ => ⟨S256x2048x1, .f32⟩
  | .hbm, ⟨27, _⟩ => ⟨S256x2048x1, .f32⟩
  | .hbm, ⟨28, _⟩ => ⟨S256x2048x64, .f32⟩
  | .hbm, ⟨29, _⟩ => ⟨S256x2048x64, .f32⟩
  | .hbm, ⟨30, _⟩ => ⟨S256x6x2048, .f32⟩
  | .hbm, ⟨31, _⟩ => ⟨S_, .f32⟩
  | .hbm, ⟨32, _⟩ => ⟨S256x6, .f32⟩
  | .hbm, ⟨33, _⟩ => ⟨S_, .f32⟩
  | .hbm, ⟨34, _⟩ => ⟨S256x6, .f32⟩
  | .hbm, ⟨35, _⟩ => ⟨S256x6, .f32⟩
  | .hbm, ⟨36, _⟩ => ⟨S256x6x1, .f32⟩
  | .hbm, ⟨37, _⟩ => ⟨S256x6x2048, .f32⟩
  | .hbm, ⟨38, _⟩ => ⟨S256x6x2048, .f32⟩
  | .hbm, ⟨39, _⟩ => ⟨S256x6x2048, .f32⟩
  | .hbm, ⟨40, _⟩ => ⟨S_, .f32⟩
  | .hbm, ⟨41, _⟩ => ⟨S256x6, .f32⟩
  | .hbm, ⟨42, _⟩ => ⟨S256x6x1, .f32⟩
  | .hbm, ⟨43, _⟩ => ⟨S256x6x2048, .f32⟩
  | .hbm, ⟨44, _⟩ => ⟨S256x6x2048, .f32⟩
  | .hbm, ⟨45, _⟩ => ⟨S256x384, .f32⟩
  | .hbm, ⟨46, _⟩ => ⟨S1x384, .f32⟩
  | .hbm, ⟨47, _⟩ => ⟨S256x384, .f32⟩
  | .hbm, ⟨48, _⟩ => ⟨S256x384, .f32⟩
  | .hbm, ⟨49, _⟩ => ⟨S256x384, .f32⟩
  | .hbm, ⟨50, _⟩ => ⟨S256x384, .f32⟩
  | .hbm, ⟨51, _⟩ => ⟨S_, .f32⟩
  | .hbm, ⟨52, _⟩ => ⟨S256x384, .f32⟩
  | .hbm, ⟨53, _⟩ => ⟨S256x384, .f32⟩
  | .hbm, ⟨54, _⟩ => ⟨S_, .f32⟩
  | .hbm, ⟨55, _⟩ => ⟨S256x384, .f32⟩
  | .hbm, ⟨56, _⟩ => ⟨S256x384, .f32⟩
  | .hbm, ⟨57, _⟩ => ⟨S256x6x64, .f32⟩
  | .hbm, ⟨58, _⟩ => ⟨S256x384, .f32⟩
  | .hbm, ⟨59, _⟩ => ⟨S1x384, .f32⟩
  | .hbm, ⟨60, _⟩ => ⟨S256x384, .f32⟩
  | .hbm, ⟨61, _⟩ => ⟨S256x384, .f32⟩
  | .hbm, ⟨62, _⟩ => ⟨S256x384, .f32⟩
  | .hbm, ⟨63, _⟩ => ⟨S256x384, .f32⟩
  | .hbm, ⟨64, _⟩ => ⟨S_, .f32⟩
  | .hbm, ⟨65, _⟩ => ⟨S256x384, .f32⟩
  | .hbm, ⟨66, _⟩ => ⟨S256x384, .f32⟩
  | .hbm, ⟨67, _⟩ => ⟨S_, .f32⟩
  | .hbm, ⟨68, _⟩ => ⟨S256x384, .f32⟩
  | .hbm, ⟨69, _⟩ => ⟨S256x384, .f32⟩
  | .hbm, ⟨70, _⟩ => ⟨S256x6x64, .f32⟩
  | .hbm, ⟨71, _⟩ => ⟨S256x2048x64, .f32⟩
  | .hbm, ⟨72, _⟩ => ⟨S256x2048x64, .f32⟩
  | .hbm, ⟨73, _⟩ => ⟨S256x2048x64, .f32⟩
  | .hbm, ⟨74, _⟩ => ⟨S256x2048x64, .f32⟩
  | .hbm, ⟨75, _⟩ => ⟨S256x2048x64, .f32⟩
  | .hbm, ⟨76, _⟩ => ⟨S256x2048x64, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  shapeCasts_S256x6x2048_S256x12288 : S256x6x2048.ShapeCasts S256x12288
  concatenates_S256x12288_S256x128_S256x12416_d1 : Shape.Concatenates [S256x12288, S256x128] S256x12416 1
  bcast_S384_S1x384_1 : S384.BroadcastsInDim S1x384 (![1] : Fin 1 → Fin S1x384.rank)
  bcast_S1x384_S256x384_0_1 : S1x384.BroadcastsInDim S256x384 (![0, 1] : Fin 2 → Fin S256x384.rank)
  shapeCasts_S256x384_S256x6x64 : S256x384.ShapeCasts S256x6x64
  reducesTo_S256x6x64_S256x6_d2 : S256x6x64.ReducesTo [2] S256x6
  h_S_ : 0 < S_.numel
  bcast_S256x6_S256x6x1_0_1 : S256x6.BroadcastsInDim S256x6x1 (![0, 1] : Fin 2 → Fin S256x6x1.rank)
  bcast_S256x6x1_S256x6x64_0_1_2 : S256x6x1.BroadcastsInDim S256x6x64 (![0, 1, 2] : Fin 3 → Fin S256x6x64.rank)
  reducesTo_S256x2048x64_S256x2048_d2 : S256x2048x64.ReducesTo [2] S256x2048
  bcast_S256x2048_S256x2048x1_0_1 : S256x2048.BroadcastsInDim S256x2048x1 (![0, 1] : Fin 2 → Fin S256x2048x1.rank)
  bcast_S256x2048x1_S256x2048x64_0_1_2 : S256x2048x1.BroadcastsInDim S256x2048x64 (![0, 1, 2] : Fin 3 → Fin S256x2048x64.rank)
  reducesTo_S256x6x2048_S256x6_d2 : S256x6x2048.ReducesTo [2] S256x6
  bcast_S_S256x6 : S_.BroadcastsInDim S256x6 (![] : Fin 0 → Fin S256x6.rank)
  bcast_S256x6x1_S256x6x2048_0_1_2 : S256x6x1.BroadcastsInDim S256x6x2048 (![0, 1, 2] : Fin 3 → Fin S256x6x2048.rank)
  bcast_S_S256x384 : S_.BroadcastsInDim S256x384 (![] : Fin 0 → Fin S256x384.rank)
  dot_S256x12416_S12416x384_S256x384_1_0_0_1_n_n_wf : DotDims.WF S256x12416 S12416x384 S256x384 [1] [0] [0] [1] [] []
  dot_S256x6x64_S256x2048x64_S256x6x2048_2_2_1_1_0_0_wf : DotDims.WF S256x6x64 S256x2048x64 S256x6x2048 [2] [2] [1] [1] [0] [0]
  dot_S256x6x2048_S256x6x64_S256x2048x64_1_1_2_2_0_0_wf : DotDims.WF S256x6x2048 S256x6x64 S256x2048x64 [1] [1] [2] [2] [0] [0]

variable [Facts₀]

def dot_S256x12416_S12416x384_S256x384_1_0_0_1_n_n : DotDims S256x12416 S12416x384 S256x384 where
  lhsContracting := [1]
  rhsContracting := [0]
  lhsNonContracting := [0]
  rhsNonContracting := [1]
  lhsBatch := []
  rhsBatch := []
  wf := dot_S256x12416_S12416x384_S256x384_1_0_0_1_n_n_wf
def dot_S256x6x64_S256x2048x64_S256x6x2048_2_2_1_1_0_0 : DotDims S256x6x64 S256x2048x64 S256x6x2048 where
  lhsContracting := [2]
  rhsContracting := [2]
  lhsNonContracting := [1]
  rhsNonContracting := [1]
  lhsBatch := [0]
  rhsBatch := [0]
  wf := dot_S256x6x64_S256x2048x64_S256x6x2048_2_2_1_1_0_0_wf
def dot_S256x6x2048_S256x6x64_S256x2048x64_1_1_2_2_0_0 : DotDims S256x6x2048 S256x6x64 S256x2048x64 where
  lhsContracting := [1]
  rhsContracting := [1]
  lhsNonContracting := [2]
  rhsNonContracting := [2]
  lhsBatch := [0]
  rhsBatch := [0]
  wf := dot_S256x6x2048_S256x6x64_S256x2048x64_1_1_2_2_0_0_wf

class Facts : Prop extends Facts₀ where

variable [Facts]
-- ==== Proof.K.Defs0.lean ====
/-
  Region 0 (the projection matmul, one 128-column tile of y = x · [Wk|We|Wa] + [bk|be|ba] per grid point): the data its
  run is stated over. At a parameter `V` (the TensorCore's buffer contents when the region is entered): each window's
  block at a point, the one output block as a function of the three input blocks, and the pipeline's proof data.
-/
import proofs.«132960_j32220844655352_2_alg».proof.Proof.Gen.Kernel.Launch
import proofs.«132960_j32220844655352_2_alg».proof.Proof.Gen.Kernel.Skeleton
import proofs.«132960_j32220844655352_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's four accesses: each is the whole of its staging buffer. -/
abbrev r0_x : Rect S256x12416 := Rect.unit (s := S256x12416) ![0, 0] S256x12416.size inb_S256x12416_S256x12416_0_0
abbrev r0_w : Rect S12416x128 := Rect.unit (s := S12416x128) ![0, 0] S12416x128.size inb_S12416x128_S12416x128_0_0
abbrev r0_b : Rect S1x128 := Rect.unit (s := S1x128) ![0, 0] S1x128.size inb_S1x128_S1x128_0_0
abbrev r0_y : Rect S256x128 := Rect.unit (s := S256x128) ![0, 0] S256x128.size inb_S256x128_S256x128_0_0

/-- The output window's staging buffer after the body: its one store, of the product of the x block with the weight
    tile plus the bias tile. -/
def out0_3 (x0 : Vec F S256x12416 .f32) (x1 : Vec F S12416x128 .f32) (x2 : Vec F S1x128 .f32) : Vec F S256x128 .f32 :=
  View.canon [⟨r0_y, k0_pay1 (View.ld x0 r0_x) (View.ld x1 r0_w) (View.ld x2 r0_b)⟩]

/-- The proof data of pipeline 0 on core `c`: the arrays as the region finds them; after the body at point `t` each
    input's buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Hand

end
-- ==== Proof.K.Defs1.lean ====
/-
  Region 1 (the fused memory update on the packed layout, four batch rows per grid point): the data its run is stated
  over. At a parameter `V` (the TensorCore's buffer contents when the region is entered): each window's block at a
  point, the three output blocks (new packed memory, the even-slot weights, the odd-slot weights) as functions of the
  input blocks (normalised key, erase vector, add vector, packed memory), and the pipeline's proof data.
-/
import proofs.«132960_j32220844655352_2_alg».proof.Proof.Gen.Kernel.Launch
import proofs.«132960_j32220844655352_2_alg».proof.Proof.Gen.Kernel.Skeleton
import proofs.«132960_j32220844655352_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's accesses: each is the whole of its staging buffer. -/
abbrev r1_h : Rect S4x6x64 := Rect.unit (s := S4x6x64) ![0, 0, 0] S4x6x64.size inb_S4x6x64_S4x6x64_0_0_0
abbrev r1_m : Rect S4x1024x128 := Rect.unit (s := S4x1024x128) ![0, 0, 0] S4x1024x128.size inb_S4x1024x128_S4x1024x128_0_0_0
abbrev r1_s : Rect S4x6x1024 := Rect.unit (s := S4x6x1024) ![0, 0, 0] S4x6x1024.size inb_S4x6x1024_S4x6x1024_0_0_0

/-- The new packed memory block: the one store into window 4's buffer. -/
def out1_4 (x0 x1 x2 : Vec F S4x6x64 .f32) (x3 : Vec F S4x1024x128 .f32) : Vec F S4x1024x128 .f32 :=
  View.canon [⟨r1_m, k1_pay17 (k1_pay1 (View.ld x3 r1_m)) (k1_pay2 (F := F)) (k1_pay3 (F := F)) (k1_pay5 (View.ld x0 r1_h))
    (k1_pay6 (View.ld x1 r1_h)) (k1_pay7 (View.ld x2 r1_h)) (k1_pay8 (View.ld x3 r1_m)) (k1_pay9 (View.ld x0 r1_h) (View.ld x3 r1_m))⟩]

/-- The weights of the even memory slots: the one store into window 5's buffer. -/
def out1_5 (x0 : Vec F S4x6x64 .f32) (x3 : Vec F S4x1024x128 .f32) : Vec F S4x6x1024 .f32 :=
  View.canon [⟨r1_s, k1_pay15 (k1_pay5 (View.ld x0 r1_h)) (k1_pay8 (View.ld x3 r1_m)) (k1_pay9 (View.ld x0 r1_h) (View.ld x3 r1_m))⟩]

/-- The weights of the odd memory slots: the one store into window 6's buffer. -/
def out1_6 (x0 : Vec F S4x6x64 .f32) (x3 : Vec F S4x1024x128 .f32) : Vec F S4x6x1024 .f32 :=
  View.canon [⟨r1_s, k1_pay16 (k1_pay5 (View.ld x0 r1_h)) (k1_pay8 (View.ld x3 r1_m)) (k1_pay9 (View.ld x0 r1_h) (View.ld x3 r1_m))⟩]

/-- The proof data of pipeline 1 on core `c`: the arrays as the region finds them; after the body at point `t` each
    input's buffer at its block and each output's at its function of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 3 t)
    | ⟨6, _⟩ => out1_6 (iblk1 V c 0 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem after1_5 (c : Dev nD) (t : Fin cfg1.N) :
    (dat1 V c).after 5 t = out1_5 (iblk1 V c 0 t) (iblk1 V c 3 t) := by dsimp only [dat1]
theorem after1_6 (c : Dev nD) (t : Fin cfg1.N) :
    (dat1 V c).after 6 t = out1_6 (iblk1 V c 0 t) (iblk1 V c 3 t) := by dsimp only [dat1]

end Cert.Kernel.Hand

end
-- ==== Proof.K.Fold.lean ====
/-
  The buffer contents at each boundary of the program's five items (host operations, the projection region, host
  operations, the memory-update region, host operations): a fold from the launch memory. A host stretch applies its
  operations; a region leaves each of its arrays at what its write-backs make of it and every other buffer as entered.
-/
import proofs.«132960_j32220844655352_2_alg».proof.Proof.Gen.Kernel.Launch
import proofs.«132960_j32220844655352_2_alg».proof.Proof.Gen.Kernel.Skeleton
import proofs.«132960_j32220844655352_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«132960_j32220844655352_2_alg».proof.Proof.K.Defs0
import proofs.«132960_j32220844655352_2_alg».proof.Proof.K.Defs1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the last host stretch: the contents the program ends with. -/
abbrev W5 : Dev nD → Valuation τ sig (Elt F) := fun c => StableHlo.after hostOps2 (W4 m c)

end Cert.Kernel.Hand

end
-- ==== Proof.K.Region0.lean ====
/-
  Region 0 (the projection matmul): its body runs, at every grid point, from the three input blocks to the one output
  block of `Defs0`. An input window's staging buffer holds its block at every point whether or not the pipeline
  fetched it there (the x block is fetched once, at the first point; its index never moves afterwards). The body
  loads its three inputs whole, loads the output buffer once without using the value, and stores the product plus
  bias over the whole output buffer, so what the store leaves is the one-piece canon of `out0_3`.
-/
import proofs.«132960_j32220844655352_2_alg».proof.Proof.K.Defs0

set_option maxRecDepth 16384

noncomputable section

namespace Cert.Kernel.Hand

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer: the window's block, fetched at this point or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output buffer -/

theorem cover0_3 (p0 : Vec F S256x128 .f32) (y : S256x128.Idx) :
    ∃ pc ∈ ([⟨r0_y, p0⟩] : List (View.Piece (Elt F) S256x128 .f32)), y ∈ pc.1.set :=
  View.cover_of_tiled [⟨r0_y, p0⟩] S256x128.size (by rfl) y

/-! ## The body's triple -/

set_option maxHeartbeats 1000000 in
/-- The body on whole staging buffers, the inputs' at contents `x0 x1 x2` and the output's at anything, runs to the
    continuation with the inputs' as they were and the output's at `out0_3 x0 x1 x2`. -/
theorem sound_kernel0 (c : Dev nD) (E : Set ℕ) (i : grid0.Coords)
    (arg1 : Memref sig .tc .vmem S256x12416 .f32) (harg1 : arg1.IsWhole) (arg2 : Memref sig .tc .vmem S12416x128 .f32) (harg2 : arg2.IsWhole)
    (arg3 : Memref sig .tc .vmem S1x128 .f32) (harg3 : arg3.IsWhole) (arg4 : Memref sig .tc .vmem S256x128 .f32) (harg4 : arg4.IsWhole)
    (x0 : Vec F S256x12416 .f32) (x1 : Vec F S12416x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 (the fused memory update on the packed layout): its body runs, at every grid point, from the four input
  blocks (normalised key, erase vector, add vector, packed memory) to the three output blocks of `Defs1` (the new
  packed memory, the weights of the even slots, the weights of the odd slots). Every input window is fetched at every
  point, and in any case its staging buffer holds its block. The body loads its inputs whole, loads each output
  buffer once without using the value, and stores one whole-buffer value into each output, so what each store leaves
  is a one-piece canon.
-/
import proofs.«132960_j32220844655352_2_alg».proof.Proof.K.Defs1

set_option maxRecDepth 16384

noncomputable section

namespace Cert.Kernel.Hand

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer: the window's block -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Each output's one store covers its buffer -/

theorem cover1_m (p0 : Vec F S4x1024x128 .f32) (y : S4x1024x128.Idx) :
    ∃ pc ∈ ([⟨r1_m, p0⟩] : List (View.Piece (Elt F) S4x1024x128 .f32)), y ∈ pc.1.set :=
  View.cover_of_tiled [⟨r1_m, p0⟩] S4x1024x128.size (by rfl) y
theorem cover1_s (p0 : Vec F S4x6x1024 .f32) (y : S4x6x1024.Idx) :
    ∃ pc ∈ ([⟨r1_s, p0⟩] : List (View.Piece (Elt F) S4x6x1024 .f32)), y ∈ pc.1.set :=
  View.cover_of_tiled [⟨r1_s, p0⟩] S4x6x1024.size (by rfl) y

/-! ## The body's triple -/

set_option maxHeartbeats 4000000 in
/-- The body on whole staging buffers, the inputs' at contents `x0 x1 x2 x3` and the outputs' at anything, runs to the
    continuation with the inputs' as they were and the outputs' at `out1_4`, `out1_5`, `out1_6` of the inputs'. -/
theorem sound_kernel1 (c : Dev nD) (E : Set ℕ) (i : grid1.Coords)
    (arg1 : Memref sig .tc .vmem S4x6x64 .f32) (harg1 : arg1.IsWhole) (arg2 : Memref sig .tc .vmem S4x6x64 .f32) (harg2 : arg2.IsWhole)
    (arg3 : Memref sig .tc .vmem S4x6x64 .f32) (harg3 : arg3.IsWhole) (arg4 : Memref sig .tc .vmem S4x1024x128 .f32) (harg4 : arg4.IsWhole)
    (arg5 : Memref sig .tc .vmem S4x1024x128 .f32) (harg5 : arg5.IsWhole) (arg6 : Memref sig .tc .vmem S4x6x1024 .f32) (harg6 : arg6.IsWhole)
    (arg7 : Memref sig .tc .vmem S4x6x1024 .f32) (harg7 : arg7.IsWhole)
    (x0 x1 x2 : Vec F S4x6x64 .f32) (x3 : Vec F S4x1024x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3) ∗ owns (c : Thread nD τ) arg6 fullShare (out1_5 x0 x3)
            ∗ owns (c : Thread nD τ) arg7 fullShare (out1_6 x0 x3)) -∗ K ⟨⟩))
      ⊢ wp frame (wpE (defs₀ (F := F)) Variants.none c none) E
          (cc1__mem_kernel i arg1 harg1 arg2 harg2 arg3 harg3 arg4 harg4 arg5 harg5 arg6 harg6 arg7 harg7) K := by
  simp only [cc1__mem_kernel_eq_skeleton]; unfold cc1__mem_kernel_skel
  simp only [k1_part1_eq_skeleton, k1_part2_eq_skeleton]
  unfold k1_part1_skel k1_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_m _)
  isplitl [H5]
  · iexists _; isplitr
    swap; · iexact H5
    ipureintro
    exact View.read_writes_eq_canon _ _ _ (cover1_s _)
  iexists _; isplitr
  swap; · iexact H6
  ipureintro
  exact View.read_writes_eq_canon _ _ _ (cover1_s _)

/-! ## The body obligation -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program runs to the end, and what every buffer holds then. The program is five items in order: host
  operations, the projection region, host operations, the memory-update region, host operations. Between two items
  each core holds every unscoped buffer whole at the contents of `Fold` (`W0` … `W5`), its generator register at some
  state, and owes nothing. A host stretch takes the buffers from one boundary's contents to the next by applying its
  operations; a region splits its arrays out of the unscoped buffers, runs its pipeline (the body obligations of
  `Region0`, `Region1`), and puts the arrays back at what the write-backs leave. Read against the final state, the last
  boundary gives every unscoped buffer at `W5`; no item writes an argument array, so each argument ends as launched.
-/
import proofs.«132960_j32220844655352_2_alg».proof.Proof.K.Fold
import proofs.«132960_j32220844655352_2_alg».proof.Proof.K.Region0
import proofs.«132960_j32220844655352_2_alg».proof.Proof.K.Region1
import proofs.«132960_j32220844655352_2_alg».proof.Proof.Gen.Kernel.Regions

set_option maxRecDepth 16384

noncomputable section

namespace Cert.Kernel.Hand

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## At a region's exit each of its arrays holds what the pipeline leaves, every other buffer what it held at entry -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched: no host operation writes one and no region has one among its arrays, so the
    fold at an argument's buffer walks back to the launch memory -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W5_main_arg8 (c : Dev nD) : W5 m c (Proc.devRef .tc main_arg8) = m ((c : Thread nD τ).loc main_arg8) :=
  calc W5 m c (Proc.devRef .tc main_arg8)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W5`, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. Its arrays are
    split out of the unscoped buffers and put back at their exit contents; the generator register goes into the
    class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at their exit contents; the generator register goes into the
    class invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- The program is the run of the segments. -/
theorem main_run (c : Dev nD) : main (F := F) c = Pipeline.Seg.run (segs m) := (main_chain c).trans (by chain_rfl)

set_option backward.isDefEq.respectTransparency.types false in
/-- From any memory with zero counters, every weakly fair execution of the program on the TensorCores terminates,
    nothing faulting, and in every final state each core's unscoped buffers hold the contents `W5`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      show (iprop(StableHlo.held (c : Thread nD τ) (Pipeline.ucRefs τ sig) (W5 m c)
            ∗ ((∃ r, prngReg c r) ∗ ∃ W, owes (c : Thread nD τ) (0 : CellTallies nD τ sig Unit) W)) : sProp 𝕄)
          ⊢ iprop((StableHlo.held (c : Thread nD τ) (Pipeline.ucRefs τ sig) (W5 m c) ∗ ∃ r, prngReg c r)
            ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The program runs to the end and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c),
     (h c _ (mem_uc main_arg8 (by decide))).trans (W5_main_arg8 m c)⟩) (run_all m ρ)

end Cert.Kernel.Hand

end
-- ==== Proof.KI.Defs0.lean ====
/-
  Region 0 (the projection matmul, one 128-column tile of y = x · [Wk|We|Wa] + [bk|be|ba] per grid point): the data its
  run is stated over. At a parameter `V` (the TensorCore's buffer contents when the region is entered): each window's
  block at a point, the one output block as a function of the three input blocks, and the pipeline's proof data.
-/
import proofs.«132960_j32220844655352_2_alg».proof.Proof.Gen.KernelIdeal.Launch
import proofs.«132960_j32220844655352_2_alg».proof.Proof.Gen.KernelIdeal.Skeleton
import proofs.«132960_j32220844655352_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's four accesses: each is the whole of its staging buffer. -/
abbrev r0_x : Rect S256x12416 := Rect.unit (s := S256x12416) ![0, 0] S256x12416.size inb_S256x12416_S256x12416_0_0
abbrev r0_w : Rect S12416x128 := Rect.unit (s := S12416x128) ![0, 0] S12416x128.size inb_S12416x128_S12416x128_0_0
abbrev r0_b : Rect S1x128 := Rect.unit (s := S1x128) ![0, 0] S1x128.size inb_S1x128_S1x128_0_0
abbrev r0_y : Rect S256x128 := Rect.unit (s := S256x128) ![0, 0] S256x128.size inb_S256x128_S256x128_0_0

/-- The output window's staging buffer after the body: its one store, of the product of the x block with the weight
    tile plus the bias tile. -/
def out0_3 (x0 : Vec F S256x12416 .f32) (x1 : Vec F S12416x128 .f32) (x2 : Vec F S1x128 .f32) : Vec F S256x128 .f32 :=
  View.canon [⟨r0_y, k0_pay1 (View.ld x0 r0_x) (View.ld x1 r0_w) (View.ld x2 r0_b)⟩]

/-- The proof data of pipeline 0 on core `c`: the arrays as the region finds them; after the body at point `t` each
    input's buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.KI.Defs1.lean ====
/-
  Region 1 (the fused memory update on the packed layout, four batch rows per grid point): the data its run is stated
  over. At a parameter `V` (the TensorCore's buffer contents when the region is entered): each window's block at a
  point, the three output blocks (new packed memory, the even-slot weights, the odd-slot weights) as functions of the
  input blocks (normalised key, erase vector, add vector, packed memory), and the pipeline's proof data.
-/
import proofs.«132960_j32220844655352_2_alg».proof.Proof.Gen.KernelIdeal.Launch
import proofs.«132960_j32220844655352_2_alg».proof.Proof.Gen.KernelIdeal.Skeleton
import proofs.«132960_j32220844655352_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's accesses: each is the whole of its staging buffer. -/
abbrev r1_h : Rect S4x6x64 := Rect.unit (s := S4x6x64) ![0, 0, 0] S4x6x64.size inb_S4x6x64_S4x6x64_0_0_0
abbrev r1_m : Rect S4x1024x128 := Rect.unit (s := S4x1024x128) ![0, 0, 0] S4x1024x128.size inb_S4x1024x128_S4x1024x128_0_0_0
abbrev r1_s : Rect S4x6x1024 := Rect.unit (s := S4x6x1024) ![0, 0, 0] S4x6x1024.size inb_S4x6x1024_S4x6x1024_0_0_0

/-- The new packed memory block: the one store into window 4's buffer. -/
def out1_4 (x0 x1 x2 : Vec F S4x6x64 .f32) (x3 : Vec F S4x1024x128 .f32) : Vec F S4x1024x128 .f32 :=
  View.canon [⟨r1_m, k1_pay17 (k1_pay1 (View.ld x3 r1_m)) (k1_pay2 (F := F)) (k1_pay3 (F := F)) (k1_pay5 (View.ld x0 r1_h))
    (k1_pay6 (View.ld x1 r1_h)) (k1_pay7 (View.ld x2 r1_h)) (k1_pay8 (View.ld x3 r1_m)) (k1_pay9 (View.ld x0 r1_h) (View.ld x3 r1_m))⟩]

/-- The weights of the even memory slots: the one store into window 5's buffer. -/
def out1_5 (x0 : Vec F S4x6x64 .f32) (x3 : Vec F S4x1024x128 .f32) : Vec F S4x6x1024 .f32 :=
  View.canon [⟨r1_s, k1_pay15 (k1_pay5 (View.ld x0 r1_h)) (k1_pay8 (View.ld x3 r1_m)) (k1_pay9 (View.ld x0 r1_h) (View.ld x3 r1_m))⟩]

/-- The weights of the odd memory slots: the one store into window 6's buffer. -/
def out1_6 (x0 : Vec F S4x6x64 .f32) (x3 : Vec F S4x1024x128 .f32) : Vec F S4x6x1024 .f32 :=
  View.canon [⟨r1_s, k1_pay16 (k1_pay5 (View.ld x0 r1_h)) (k1_pay8 (View.ld x3 r1_m)) (k1_pay9 (View.ld x0 r1_h) (View.ld x3 r1_m))⟩]

/-- The proof data of pipeline 1 on core `c`: the arrays as the region finds them; after the body at point `t` each
    input's buffer at its block and each output's at its function of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 3 t)
    | ⟨6, _⟩ => out1_6 (iblk1 V c 0 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem after1_5 (c : Dev nD) (t : Fin cfg1.N) :
    (dat1 V c).after 5 t = out1_5 (iblk1 V c 0 t) (iblk1 V c 3 t) := by dsimp only [dat1]
theorem after1_6 (c : Dev nD) (t : Fin cfg1.N) :
    (dat1 V c).after 6 t = out1_6 (iblk1 V c 0 t) (iblk1 V c 3 t) := by dsimp only [dat1]

end Cert.KernelIdeal.Hand

end
-- ==== Proof.KI.Fold.lean ====
/-
  The buffer contents at each boundary of the program's five items (host operations, the projection region, host
  operations, the memory-update region, host operations): a fold from the launch memory. A host stretch applies its
  operations; a region leaves each of its arrays at what its write-backs make of it and every other buffer as entered.
-/
import proofs.«132960_j32220844655352_2_alg».proof.Proof.Gen.KernelIdeal.Launch
import proofs.«132960_j32220844655352_2_alg».proof.Proof.Gen.KernelIdeal.Skeleton
import proofs.«132960_j32220844655352_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«132960_j32220844655352_2_alg».proof.Proof.KI.Defs0
import proofs.«132960_j32220844655352_2_alg».proof.Proof.KI.Defs1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the last host stretch: the contents the program ends with. -/
abbrev W5 : Dev nD → Valuation τ sig (Elt F) := fun c => StableHlo.after hostOps2 (W4 m c)

end Cert.KernelIdeal.Hand

end
-- ==== Proof.KI.Region0.lean ====
/-
  Region 0 (the projection matmul): its body runs, at every grid point, from the three input blocks to the one output
  block of `Defs0`. An input window's staging buffer holds its block at every point whether or not the pipeline
  fetched it there (the x block is fetched once, at the first point; its index never moves afterwards). The body
  loads its three inputs whole, loads the output buffer once without using the value, and stores the product plus
  bias over the whole output buffer, so what the store leaves is the one-piece canon of `out0_3`.
-/
import proofs.«132960_j32220844655352_2_alg».proof.Proof.KI.Defs0

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer: the window's block, fetched at this point or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output buffer -/

theorem cover0_3 (p0 : Vec F S256x128 .f32) (y : S256x128.Idx) :
    ∃ pc ∈ ([⟨r0_y, p0⟩] : List (View.Piece (Elt F) S256x128 .f32)), y ∈ pc.1.set :=
  View.cover_of_tiled [⟨r0_y, p0⟩] S256x128.size (by rfl) y

/-! ## The body's triple -/

set_option maxHeartbeats 1000000 in
/-- The body on whole staging buffers, the inputs' at contents `x0 x1 x2` and the output's at anything, runs to the
    continuation with the inputs' as they were and the output's at `out0_3 x0 x1 x2`. -/
theorem sound_kernel0 (c : Dev nD) (E : Set ℕ) (i : grid0.Coords)
    (arg1 : Memref sig .tc .vmem S256x12416 .f32) (harg1 : arg1.IsWhole) (arg2 : Memref sig .tc .vmem S12416x128 .f32) (harg2 : arg2.IsWhole)
    (arg3 : Memref sig .tc .vmem S1x128 .f32) (harg3 : arg3.IsWhole) (arg4 : Memref sig .tc .vmem S256x128 .f32) (harg4 : arg4.IsWhole)
    (x0 : Vec F S256x12416 .f32) (x1 : Vec F S12416x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 (the fused memory update on the packed layout): its body runs, at every grid point, from the four input
  blocks (normalised key, erase vector, add vector, packed memory) to the three output blocks of `Defs1` (the new
  packed memory, the weights of the even slots, the weights of the odd slots). Every input window is fetched at every
  point, and in any case its staging buffer holds its block. The body loads its inputs whole, loads each output
  buffer once without using the value, and stores one whole-buffer value into each output, so what each store leaves
  is a one-piece canon.
-/
import proofs.«132960_j32220844655352_2_alg».proof.Proof.KI.Defs1

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer: the window's block -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Each output's one store covers its buffer -/

theorem cover1_m (p0 : Vec F S4x1024x128 .f32) (y : S4x1024x128.Idx) :
    ∃ pc ∈ ([⟨r1_m, p0⟩] : List (View.Piece (Elt F) S4x1024x128 .f32)), y ∈ pc.1.set :=
  View.cover_of_tiled [⟨r1_m, p0⟩] S4x1024x128.size (by rfl) y
theorem cover1_s (p0 : Vec F S4x6x1024 .f32) (y : S4x6x1024.Idx) :
    ∃ pc ∈ ([⟨r1_s, p0⟩] : List (View.Piece (Elt F) S4x6x1024 .f32)), y ∈ pc.1.set :=
  View.cover_of_tiled [⟨r1_s, p0⟩] S4x6x1024.size (by rfl) y

/-! ## The body's triple -/

set_option maxHeartbeats 4000000 in
/-- The body on whole staging buffers, the inputs' at contents `x0 x1 x2 x3` and the outputs' at anything, runs to the
    continuation with the inputs' as they were and the outputs' at `out1_4`, `out1_5`, `out1_6` of the inputs'. -/
theorem sound_kernel1 (c : Dev nD) (E : Set ℕ) (i : grid1.Coords)
    (arg1 : Memref sig .tc .vmem S4x6x64 .f32) (harg1 : arg1.IsWhole) (arg2 : Memref sig .tc .vmem S4x6x64 .f32) (harg2 : arg2.IsWhole)
    (arg3 : Memref sig .tc .vmem S4x6x64 .f32) (harg3 : arg3.IsWhole) (arg4 : Memref sig .tc .vmem S4x1024x128 .f32) (harg4 : arg4.IsWhole)
    (arg5 : Memref sig .tc .vmem S4x1024x128 .f32) (harg5 : arg5.IsWhole) (arg6 : Memref sig .tc .vmem S4x6x1024 .f32) (harg6 : arg6.IsWhole)
    (arg7 : Memref sig .tc .vmem S4x6x1024 .f32) (harg7 : arg7.IsWhole)
    (x0 x1 x2 : Vec F S4x6x64 .f32) (x3 : Vec F S4x1024x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3) ∗ owns (c : Thread nD τ) arg6 fullShare (out1_5 x0 x3)
            ∗ owns (c : Thread nD τ) arg7 fullShare (out1_6 x0 x3)) -∗ K ⟨⟩))
      ⊢ wp frame (wpE (defs₀ (F := F)) Variants.none c none) E
          (cc1__mem_kernel i arg1 harg1 arg2 harg2 arg3 harg3 arg4 harg4 arg5 harg5 arg6 harg6 arg7 harg7) K := by
  simp only [cc1__mem_kernel_eq_skeleton]; unfold cc1__mem_kernel_skel
  simp only [k1_part1_eq_skeleton, k1_part2_eq_skeleton]
  unfold k1_part1_skel k1_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_m _)
  isplitl [H5]
  · iexists _; isplitr
    swap; · iexact H5
    ipureintro
    exact View.read_writes_eq_canon _ _ _ (cover1_s _)
  iexists _; isplitr
  swap; · iexact H6
  ipureintro
  exact View.read_writes_eq_canon _ _ _ (cover1_s _)

/-! ## The body obligation -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program runs to the end, and what every buffer holds then. The program is five items in order: host
  operations, the projection region, host operations, the memory-update region, host operations. Between two items
  each core holds every unscoped buffer whole at the contents of `Fold` (`W0` … `W5`), its generator register at some
  state, and owes nothing. A host stretch takes the buffers from one boundary's contents to the next by applying its
  operations; a region splits its arrays out of the unscoped buffers, runs its pipeline (the body obligations of
  `Region0`, `Region1`), and puts the arrays back at what the write-backs leave. Read against the final state, the last
  boundary gives every unscoped buffer at `W5`; no item writes an argument array, so each argument ends as launched.
-/
import proofs.«132960_j32220844655352_2_alg».proof.Proof.KI.Fold
import proofs.«132960_j32220844655352_2_alg».proof.Proof.KI.Region0
import proofs.«132960_j32220844655352_2_alg».proof.Proof.KI.Region1
import proofs.«132960_j32220844655352_2_alg».proof.Proof.Gen.KernelIdeal.Regions

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## At a region's exit each of its arrays holds what the pipeline leaves, every other buffer what it held at entry -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched: no host operation writes one and no region has one among its arrays, so the
    fold at an argument's buffer walks back to the launch memory -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W5_main_arg8 (c : Dev nD) : W5 m c (Proc.devRef .tc main_arg8) = m ((c : Thread nD τ).loc main_arg8) :=
  calc W5 m c (Proc.devRef .tc main_arg8)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W5`, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. Its arrays are
    split out of the unscoped buffers and put back at their exit contents; the generator register goes into the
    class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at their exit contents; the generator register goes into the
    class invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- The program is the run of the segments. -/
theorem main_run (c : Dev nD) : main (F := F) c = Pipeline.Seg.run (segs m) := (main_chain c).trans (by chain_rfl)

set_option backward.isDefEq.respectTransparency.types false in
/-- From any memory with zero counters, every weakly fair execution of the program on the TensorCores terminates,
    nothing faulting, and in every final state each core's unscoped buffers hold the contents `W5`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      show (iprop(StableHlo.held (c : Thread nD τ) (Pipeline.ucRefs τ sig) (W5 m c)
            ∗ ((∃ r, prngReg c r) ∗ ∃ W, owes (c : Thread nD τ) (0 : CellTallies nD τ sig Unit) W)) : sProp 𝕄)
          ⊢ iprop((StableHlo.held (c : Thread nD τ) (Pipeline.ucRefs τ sig) (W5 m c) ∗ ∃ r, prngReg c r)
            ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The program runs to the end and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c),
     (h c _ (mem_uc main_arg8 (by decide))).trans (W5_main_arg8 m c)⟩) (run_all m ρ)

end Cert.KernelIdeal.Hand

end
-- ==== Proof.Spec.lean ====
/-
  The memory update as plain functions on the extended reals, one batch row at a time.

  A batch row has a normalised key `kn h d` (6 heads, 64 entries), an erase vector `e h d` and an add vector `a h d`
  of the same shape, and a memory of 2048 slots of 64 entries. The PACKED form of the memory, `mp p l`, puts slots
  `2p` and `2p+1` side by side in the 128 lanes of packed row `p`: lanes 0..63 hold slot `2p`, lanes 64..127 slot
  `2p+1`. `lo` is the indicator of the first 64 lanes and `hi = 1 - lo` of the last 64.

  `Packed`: the update computed on the packed layout with lane masks, the way the kernel body spells it
  (sums over all 128 lanes of masked terms; the two halves' scores kept apart; one shared maximum and one shared
  denominator for the softmax over all 2048 slots; the normalisation by a reciprocal square root).
  `Plain`: the update as the reference spells it (slot by slot; division by a square root; softmax by a quotient).
-/
import Idealize.ShloMosaic.PureOps.Ideal
import Idealize.ShloMosaic.PureOps.Ideal.Laws
import Idealize.ShloMosaic.Lib.ValueIdx

noncomputable section

namespace Cert.Ntm

open Idealize.ShloMosaic

/-- The indicator of the first 64 of 128 lanes. -/
def lo (l : Fin 128) : EReal := if l.val < 64 then 1 else 0
/-- The indicator of the last 64 lanes. -/
def hi (l : Fin 128) : EReal := 1 - lo l
/-- A lane's position inside its half. -/
def lane64 (l : Fin 128) : Fin 64 := ⟨l.val % 64, Nat.mod_lt _ (by decide)⟩

namespace Packed

variable (kn e a : Fin 6 → Fin 64 → EReal) (mp : Fin 1024 → Fin 128 → EReal)

/-- Sum of squares of the first-half slot of packed row `p`, as a masked sum over all lanes. -/
def ssl (p : Fin 1024) : EReal := ∑ l : Fin 128, (mp p l * mp p l) * lo l
/-- The same for the second-half slot. -/
def ssh (p : Fin 1024) : EReal := ∑ l : Fin 128, (mp p l * mp p l) * hi l
/-- Each lane's reciprocal norm: its own slot's. -/
def inv (p : Fin 1024) (l : Fin 128) : EReal := Ideal.rsqrt (ssl mp p) * lo l + Ideal.rsqrt (ssh mp p) * hi l
/-- The packed memory with every slot scaled to unit norm. -/
def mnorm (p : Fin 1024) (l : Fin 128) : EReal := mp p l * inv mp p l
/-- Cosine scores of head `h` against the first-half slots (the key repeated in both halves, the other half masked). -/
def slo (h : Fin 6) (p : Fin 1024) : EReal := ∑ l : Fin 128, kn h (lane64 l) * (mnorm mp p l * lo l)
/-- Against the second-half slots. -/
def shi (h : Fin 6) (p : Fin 1024) : EReal := ∑ l : Fin 128, kn h (lane64 l) * (mnorm mp p l * hi l)
/-- The largest score of head `h` over all slots. -/
def smax (h : Fin 6) : EReal :=
  max ((Finset.univ : Finset (Fin 1024)).fold max ⊥ (fun p => slo kn mp h p))
      ((Finset.univ : Finset (Fin 1024)).fold max ⊥ (fun p => shi kn mp h p))
def elo (h : Fin 6) (p : Fin 1024) : EReal := Ideal.exp (slo kn mp h p - smax kn mp h)
def ehi (h : Fin 6) (p : Fin 1024) : EReal := Ideal.exp (shi kn mp h p - smax kn mp h)
/-- The softmax denominator of head `h`. -/
def den (h : Fin 6) : EReal := (∑ p : Fin 1024, elo kn mp h p) + (∑ p : Fin 1024, ehi kn mp h p)
def invden (h : Fin 6) : EReal := Ideal.div 1 (den kn mp h)
/-- The new weight of slot `2p`. -/
def wlo (h : Fin 6) (p : Fin 1024) : EReal := elo kn mp h p * invden kn mp h
/-- The new weight of slot `2p+1`. -/
def whi (h : Fin 6) (p : Fin 1024) : EReal := ehi kn mp h p * invden kn mp h
/-- The weighted head sum of a [6, 64] vector `f`, packed: each lane gets its own slot's weights. -/
def mix (f : Fin 6 → Fin 64 → EReal) (p : Fin 1024) (l : Fin 128) : EReal :=
  (∑ h : Fin 6, wlo kn mp h p * f h (lane64 l)) * lo l + (∑ h : Fin 6, whi kn mp h p * f h (lane64 l)) * hi l
/-- The new packed memory. -/
def nm (p : Fin 1024) (l : Fin 128) : EReal :=
  (mp p l - mp p l * (mp p l * mix kn mp e p l)) + mix kn mp a p l

end Packed

namespace Plain

variable (k e a : Fin 6 → Fin 64 → EReal) (mem : Fin 2048 → Fin 64 → EReal)

/-- The key scaled to unit norm, by division. -/
def kn (h : Fin 6) (d : Fin 64) : EReal := Ideal.div (k h d) (Ideal.sqrt (0 + ∑ d' : Fin 64, k h d' * k h d'))
/-- A memory slot scaled to unit norm, by division. -/
def mn (n : Fin 2048) (d : Fin 64) : EReal := Ideal.div (mem n d) (Ideal.sqrt (0 + ∑ d' : Fin 64, mem n d' * mem n d'))
/-- Cosine score of head `h` against slot `n`. -/
def s (h : Fin 6) (n : Fin 2048) : EReal := ∑ d : Fin 64, kn k h d * mn mem n d
def smax (h : Fin 6) : EReal := max ⊥ ((Finset.univ : Finset (Fin 2048)).fold max ⊥ (fun n => s k mem h n))
def ex (h : Fin 6) (n : Fin 2048) : EReal := Ideal.exp (s k mem h n - smax k mem h)
def den (h : Fin 6) : EReal := 0 + ∑ n : Fin 2048, ex k mem h n
/-- The new weights: the softmax of the scores over the slots. -/
def wn (h : Fin 6) (n : Fin 2048) : EReal := Ideal.div (ex k mem h n) (den k mem h)
/-- The weighted head sum of a [6, 64] vector. -/
def mix (f : Fin 6 → Fin 64 → EReal) (n : Fin 2048) (d : Fin 64) : EReal := ∑ h : Fin 6, wn k mem h n * f h d
/-- The new memory. -/
def nm (n : Fin 2048) (d : Fin 64) : EReal :=
  (mem n d - mem n d * (mem n d * mix k mem e n d)) + mix k mem a n d

end Plain

/-- The affine map of a row: `x · W + b` at column `q`. -/
def lin (x : Fin 12416 → EReal) (W : Fin 12416 → Fin 384 → EReal) (b : Fin 384 → EReal) (q : Fin 384) : EReal :=
  (∑ j : Fin 12416, x j * W j q) + b q
/-- The logistic function as the programs spell it. -/
def sigm (t : EReal) : EReal := Ideal.div 1 (1 + Ideal.exp (-t))
/-- Position `64 h + d` of a row of 384. -/
def hd (h : Fin 6) (d : Fin 64) : Fin 384 := ⟨64 * h.val + d.val, by have := h.isLt; have := d.isLt; omega⟩

/-! ## Arrays read at coordinates -/

/-- A rank-1, rank-2, rank-3 array read at literal coordinates. -/
abbrev c1 {n0 : Nat} (A : (⟨1, ![n0]⟩ : Shape).Idx → EReal) (i : Fin n0) : EReal := A (ValueIdx.ix1 i)
abbrev c2 {n0 n1 : Nat} (A : (⟨2, ![n0, n1]⟩ : Shape).Idx → EReal) (i : Fin n0) (j : Fin n1) : EReal := A (ValueIdx.ix2 i j)
abbrev c3 {n0 n1 n2 : Nat} (A : (⟨3, ![n0, n1, n2]⟩ : Shape).Idx → EReal) (i : Fin n0) (j : Fin n1) (k : Fin n2) : EReal :=
  A (ValueIdx.ix3 i j k)

/-- The dense input row of a batch element: the 6 × 2048 previous weights laid end to end, then the 128 inputs. -/
def xcat (w : Fin 6 → Fin 2048 → EReal) (inp : Fin 128 → EReal) (j : Fin 12416) : EReal :=
  if h : j.val < 12288 then w ⟨j.val / 2048, by omega⟩ ⟨j.val % 2048, Nat.mod_lt _ (by decide)⟩
  else inp ⟨j.val - 12288, by have := j.isLt; omega⟩
/-- Three rows of 384 laid end to end. -/
def cat3 {α : Type} (f0 f1 f2 : Fin 384 → α) (q : Fin 1152) : α :=
  if h0 : q.val < 384 then f0 ⟨q.val, h0⟩
  else if h1 : q.val < 768 then f1 ⟨q.val - 384, by omega⟩
  else f2 ⟨q.val - 768, by have := q.isLt; omega⟩
/-- Slot `n` entry `d` of a memory row, in the packed layout: packed row `n / 2`, lane `64 (n % 2) + d`. -/
def packRow (n : Fin 2048) : Fin 1024 := ⟨n.val / 2, by have := n.isLt; omega⟩
def packLane (n : Fin 2048) (d : Fin 64) : Fin 128 := ⟨64 * (n.val % 2) + d.val, by have := d.isLt; omega⟩
/-- Packed row `p`, lane `l` holds slot `2p + l / 64`, entry `l % 64`. -/
def slotOf (p : Fin 1024) (l : Fin 128) : Fin 2048 := ⟨2 * p.val + l.val / 64, by have := p.isLt; have := l.isLt; omega⟩

end Cert.Ntm

end
-- ==== Proof.Ref.Defs.lean ====
/-
  The reference's intermediate quantities for one batch row, named.

  For batch row `b`: the dense input row `X b` (the 6 × 2048 previous weights laid end to end, then the 128 inputs),
  the key `K b`, erase vector `E b` and add vector `A b` (an affine map of `X b`, read as 6 heads of 64 entries; the
  last two through the logistic function), and the row's memory `MEM b`.
-/
import proofs.«132960_j32220844655352_2_alg».proof.Proof.Spec

noncomputable section

namespace Cert.RefValue

open Idealize.ShloMosaic Idealize.ShloMosaic.ValueIdx Cert.Ntm

/-- The dense input row of batch element `b`. -/
def X (x0 : (⟨2, ![256, 128]⟩ : Shape).Idx → EReal) (x2 : (⟨3, ![256, 6, 2048]⟩ : Shape).Idx → EReal) (b : Fin 256) :
    Fin 12416 → EReal :=
  xcat (fun h n => x2 (ix3 b h n)) (fun i => x0 (ix2 b i))

/-- An affine map of the dense input row, read as 6 heads of 64 entries. -/
def proj (x0 : (⟨2, ![256, 128]⟩ : Shape).Idx → EReal) (x2 : (⟨3, ![256, 6, 2048]⟩ : Shape).Idx → EReal)
    (W : (⟨2, ![12416, 384]⟩ : Shape).Idx → EReal) (bias : (⟨1, ![384]⟩ : Shape).Idx → EReal) (b : Fin 256) (q : Fin 384) : EReal :=
  lin (X x0 x2 b) (fun j q => W (ix2 j q)) (fun q => bias (ix1 q)) q

/-- The key of batch element `b`. -/
def K (x0 : (⟨2, ![256, 128]⟩ : Shape).Idx → EReal) (x2 : (⟨3, ![256, 6, 2048]⟩ : Shape).Idx → EReal)
    (x3 : (⟨2, ![12416, 384]⟩ : Shape).Idx → EReal) (x4 : (⟨1, ![384]⟩ : Shape).Idx → EReal) (b : Fin 256) :
    Fin 6 → Fin 64 → EReal :=
  fun h d => lin (X x0 x2 b) (fun j q => x3 (ix2 j q)) (fun q => x4 (ix1 q)) (hd h d)

/-- The erase vector of batch element `b`. -/
def E (x0 : (⟨2, ![256, 128]⟩ : Shape).Idx → EReal) (x2 : (⟨3, ![256, 6, 2048]⟩ : Shape).Idx → EReal)
    (x5 : (⟨2, ![12416, 384]⟩ : Shape).Idx → EReal) (x6 : (⟨1, ![384]⟩ : Shape).Idx → EReal) (b : Fin 256) :
    Fin 6 → Fin 64 → EReal :=
  fun h d => sigm (lin (X x0 x2 b) (fun j q => x5 (ix2 j q)) (fun q => x6 (ix1 q)) (hd h d))

/-- The add vector of batch element `b`. -/
def A (x0 : (⟨2, ![256, 128]⟩ : Shape).Idx → EReal) (x2 : (⟨3, ![256, 6, 2048]⟩ : Shape).Idx → EReal)
    (x7 : (⟨2, ![12416, 384]⟩ : Shape).Idx → EReal) (x8 : (⟨1, ![384]⟩ : Shape).Idx → EReal) (b : Fin 256) :
    Fin 6 → Fin 64 → EReal :=
  fun h d => sigm (lin (X x0 x2 b) (fun j q => x7 (ix2 j q)) (fun q => x8 (ix1 q)) (hd h d))

/-- The memory of batch element `b`: 2048 slots of 64 entries. -/
def MEM (x1 : (⟨3, ![256, 2048, 64]⟩ : Shape).Idx → EReal) (b : Fin 256) : Fin 2048 → Fin 64 → EReal :=
  fun n d => x1 (ix3 b n d)

end Cert.RefValue

end
-- ==== Proof.LibRealClosure.lean ====
/-
  Extended reals that are reals, and the operations that keep them so.

  `IsReal x` says that the extended real `x` is the coercion of a real.  Sums, products, differences, finite sums,
  maxima, the exponential and a quotient by a nonzero real all stay inside the reals; so does a scaled dot product of
  two real vectors.
-/
import Idealize.ShloMosaic.PureOps.Ideal

noncomputable section

open scoped BigOperators

namespace RealClosure

open Idealize.ShloMosaic

/-- An extended real that is the coercion of a real. -/
def IsReal (x : EReal) : Prop := ∃ r : ℝ, x = (r : EReal)

/-- The coercion of a real is a real. -/
theorem IsReal.coe (r : ℝ) : IsReal (r : EReal) := ⟨r, rfl⟩

/-- Zero is a real. -/
theorem IsReal.zero : IsReal 0 := ⟨0, rfl⟩

/-- One is a real. -/
theorem IsReal.one : IsReal 1 := ⟨1, rfl⟩

/-- A real is not `⊤`. -/
theorem IsReal.ne_top {x : EReal} (hx : IsReal x) : x ≠ ⊤ := by
  obtain ⟨r, rfl⟩ := hx; exact EReal.coe_ne_top r

/-- A real is not `⊥`. -/
theorem IsReal.ne_bot {x : EReal} (hx : IsReal x) : x ≠ ⊥ := by
  obtain ⟨r, rfl⟩ := hx; exact EReal.coe_ne_bot r

/-- An extended real that is neither `⊤` nor `⊥` is a real. -/
theorem isReal_of_ne {x : EReal} (ht : x ≠ ⊤) (hb : x ≠ ⊥) : IsReal x := ⟨x.toReal, (EReal.coe_toReal ht hb).symm⟩

/-- Being a real is being neither `⊤` nor `⊥`. -/
theorem isReal_iff {x : EReal} : IsReal x ↔ x ≠ ⊤ ∧ x ≠ ⊥ :=
  ⟨fun h => ⟨h.ne_top, h.ne_bot⟩, fun h => isReal_of_ne h.1 h.2⟩

/-- A real is the coercion of its real part. -/
theorem IsReal.coe_toReal {x : EReal} (hx : IsReal x) : ((x.toReal : ℝ) : EReal) = x :=
  EReal.coe_toReal hx.ne_top hx.ne_bot

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem IsReal.neg {x : EReal} (hx : IsReal x) : IsReal (-x) := by
  obtain ⟨a, rfl⟩ := hx; exact ⟨-a, (EReal.coe_neg a).symm⟩

/-- The difference of two reals is a real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of reals is a real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a t ha ih =>
    rw [Finset.sum_insert ha]
    exact (h a (Finset.mem_insert_self a t)).add (ih fun i hi => h i (Finset.mem_insert_of_mem hi))

/-- A sum of reals over a whole finite type is a real. -/
theorem IsReal.sum_univ {ι : Type*} [Fintype ι] (f : ι → EReal) (h : ∀ i, IsReal (f i)) : IsReal (∑ i, f i) :=
  IsReal.sum _ f fun i _ => h i

/-- The larger of two reals is a real. -/
theorem IsReal.max {x y : EReal} (hx : IsReal x) (hy : IsReal y) : IsReal (max x y) := by
  rcases max_choice x y with h | h <;> rw [h] <;> assumption

/-- The smaller of two reals is a real. -/
theorem IsReal.min {x y : EReal} (hx : IsReal x) (hy : IsReal y) : IsReal (min x y) := by
  rcases min_choice x y with h | h <;> rw [h] <;> assumption

/-- The exponential of a real is a positive real. -/
theorem IsReal.exp_pos_real {x : EReal} (hx : IsReal x) : ∃ r : ℝ, 0 < r ∧ Ideal.exp x = (r : EReal) := by
  obtain ⟨a, rfl⟩ := hx; exact ⟨Real.exp a, Real.exp_pos a, Ideal.exp_coe a⟩

/-- The exponential of a real is a real. -/
theorem IsReal.exp {x : EReal} (hx : IsReal x) : IsReal (Ideal.exp x) := by
  obtain ⟨r, _, h⟩ := hx.exp_pos_real; exact ⟨r, h⟩

/-- The exponential of a real is positive. -/
theorem IsReal.exp_pos {x : EReal} (hx : IsReal x) : 0 < Ideal.exp x := by
  obtain ⟨r, hr, h⟩ := hx.exp_pos_real; rw [h]; exact_mod_cast hr

/-- The exponential of a real is not zero. -/
theorem IsReal.exp_ne_zero {x : EReal} (hx : IsReal x) : Ideal.exp x ≠ 0 := hx.exp_pos.ne'

/-- The quotient of a real by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a * (1 / b), by rw [Ideal.div_coe hb, ← EReal.coe_mul]⟩

/-- A scaled dot product of two real vectors is a real. -/
theorem IsReal.score {D : ℕ} (q k : Fin D → EReal) (c : EReal) (hq : ∀ d, IsReal (q d)) (hk : ∀ d, IsReal (k d))
    (hc : IsReal c) : IsReal ((∑ d, q d * k d) * c) :=
  (IsReal.sum_univ _ fun d => (hq d).mul (hk d)).mul hc

/-- The same with the scale folded into the first vector. -/
theorem IsReal.score_pre {D : ℕ} (q k : Fin D → EReal) (c : EReal) (hq : ∀ d, IsReal (q d)) (hk : ∀ d, IsReal (k d))
    (hc : IsReal c) : IsReal (∑ d, (q d * c) * k d) :=
  IsReal.sum_univ _ fun d => ((hq d).mul hc).mul (hk d)

end RealClosure

end
-- ==== Proof.LibRsqrtLaw.lean ====
/-
  General lemmas on the extended reals for normalisations that divide by a square root on one side and multiply by
  a reciprocal square root on the other (Mathlib and the Ideal instance's definitions only; no program imported).

  * `div_sqrt_eq_mul_rsqrt`: for a positive extended real v (a positive real or +∞), a / √v = a · v^(−1/2) for
    every extended real a: at a positive real r both are a · (√r)⁻¹, at +∞ both are 0.
  * `mul_self_nonneg`: a square x · x is never negative on the extended reals (⊥ · ⊥ = ⊤), so a mean of squares
    plus a positive constant is positive whatever the entries are.
  * `ofBits_1e5`, `ofBits_eps`: the literals 100000.0 and the one that rounds 1e-5 as the reals they denote.
-/
import Idealize.ShloMosaic.PureOps.Ideal
import Idealize.ShloMosaic.PureOps.Ideal.Laws

noncomputable section

namespace Gnn.Bn

open Idealize.ShloMosaic

/-- The literal 100000.0 denotes the real 100000. -/
theorem ofBits_1e5 : Ideal.ofBits .f32 0x47C35000#32 = ((100000 : ℝ) : EReal) := by
  simp [Ideal.ofBits, Ideal.ieee, -EReal.coe_mul]; norm_num

/-- The literal that rounds 1e-5 denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- A square is never negative on the extended reals. -/
theorem mul_self_nonneg (x : EReal) : 0 ≤ x * x := by
  induction x using EReal.rec with
  | bot => simp
  | top => simp
  | coe r => rw [← EReal.coe_mul]; exact_mod_cast _root_.mul_self_nonneg r

/-- Dividing by the square root of a positive extended real is multiplying by its reciprocal square root. -/
theorem div_sqrt_eq_mul_rsqrt (a v : EReal) (hv : 0 < v) : Ideal.div a (Ideal.sqrt v) = a * Ideal.rsqrt v := by
  induction v using EReal.rec with
  | bot => exact absurd hv (by simp)
  | top =>
    rw [Ideal.sqrt_top, Ideal.rsqrt_top, mul_zero]
    unfold Ideal.div
    rw [if_neg EReal.top_ne_zero, EReal.inv_top, mul_zero]
  | coe r =>
    have hr : 0 < r := by exact_mod_cast hv
    have hs : 0 < Real.sqrt r := Real.sqrt_pos.mpr hr
    have hne : ((Real.sqrt r : ℝ) : EReal) ≠ 0 := by exact_mod_cast hs.ne'
    rw [Ideal.sqrt_coe, Ideal.rsqrt_coe, if_neg (not_lt.mpr hr.le), if_neg (not_lt.mpr hr.le), if_neg hr.ne']
    unfold Ideal.div
    rw [if_neg hne, EReal.coe_inv]

end Gnn.Bn

end
-- ==== Proof.LibMaxMid.lean ====
/-
  A rank-3 array whose middle axis is maximised away, read at coordinates: a `maximumf` reduction of an
  `[a, b, c]` array along axis 1, at `(i, l)`, is the fold of `max` from the accumulator's value over the
  entries `(i, k, l)`; from the pattern of -∞ it is the supremum of those entries.  Also the supremum over
  `m + n` positions as the join of the suprema over the first `m` and the last `n`.  Generic extents.
-/
import Idealize.ShloMosaic.Lib.ValueIdx
import Idealize.ShloMosaic.PureOps.Ideal.Laws

noncomputable section

namespace MaxMid

open Idealize.ShloMosaic Idealize.ShloMosaic.ValueIdx

/-- A fold of `max` from the bottom element is the supremum. -/
theorem fold_max_bot {n : Nat} (f : Fin n → EReal) : (Finset.univ : Finset (Fin n)).fold max ⊥ f = Finset.univ.sup f := by
  unfold Finset.sup
  first
    | rfl
    | (congr 1; funext a b; exact (sup_eq_max (a := a) (b := b)).symm)

/-- The f32 pattern of -∞ is the bottom extended real. -/
theorem ofBits_neg_inf_f32 : Ideal.ofBits .f32 0xFF800000#32 = (⊥ : EReal) := by
  simp [Ideal.ofBits, Ideal.ieee]

/-- The middle axis of three, maximised: the fold of `max` from the accumulator's value over that axis. -/
theorem max_abc_1 {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (l : Fin c) :
    multiReduction .maximumf [1] ⟨2, ![a, c]⟩ src acc h hφ hacc (ix2 i l)
      = (Finset.univ : Finset (Fin b)).fold max (Ideal.ofBits φ acc) (fun k => src (ix3 i k l)) := by
  rw [Ideal.multiReduction_maximumf_single]
  have e : (src ∘ h.lift (ix2 i l)) = fun k : Fin b => src (ix3 i k l) := funext fun k => congrArg src (funext fun ax => Fin.ext (by
    match ax with | ⟨0, _⟩ => rfl | ⟨1, _⟩ => rfl | ⟨2, _⟩ => rfl))
  exact congrArg (fun f => Finset.fold max (Ideal.ofBits φ acc) f (Finset.univ : Finset (Fin b))) e

/-- The supremum over `m + n` positions is the join of the suprema over the first `m` and over the last `n`. -/
theorem sup_add {m n : ℕ} (f : Fin (m + n) → EReal) :
    Finset.univ.sup f = max (Finset.univ.sup fun i : Fin m => f (Fin.castAdd n i)) (Finset.univ.sup fun j : Fin n => f (Fin.natAdd m j)) := by
  apply le_antisymm
  · refine Finset.sup_le fun x _ => ?_
    refine Fin.addCases (fun i => ?_) (fun j => ?_) x
    · exact le_max_of_le_left (Finset.le_sup (f := fun i : Fin m => f (Fin.castAdd n i)) (Finset.mem_univ i))
    · exact le_max_of_le_right (Finset.le_sup (f := fun j : Fin n => f (Fin.natAdd m j)) (Finset.mem_univ j))
  · refine max_le (Finset.sup_le fun i _ => ?_) (Finset.sup_le fun j _ => ?_)
    · exact Finset.le_sup (f := f) (Finset.mem_univ _)
    · exact Finset.le_sup (f := f) (Finset.mem_univ _)

end MaxMid

end
-- ==== Proof.Bridge0.lean ====
/-
  The packed update is the plain update.

  For one batch row: a key `k`, an erase vector `e`, an add vector `a` ([6, 64] each) and a memory `mem` of 2048
  slots of 64 entries. `pack mem` lays slots 2p and 2p+1 side by side in the 128 lanes of packed row p. Under two
  hypotheses — every entry of `k` and `mem` is a real number, and every key row and every memory slot has a positive
  sum of squares — the masked, lane-dense computation `Packed.*` of `k · rsqrt ‖k‖²` and `pack mem` gives, slot by slot,
  what the plain computation `Plain.*` of `k` and `mem` gives.

  The laws used: a sum over 128 lanes is the sum over the first 64 plus the sum over the last 64; `x · 1 = x`,
  `x · 0 = 0` and `x + 0 = x` hold for EVERY extended real, so the lane masks need no finiteness; dividing by a square
  root of a positive number is multiplying by its reciprocal square root; a maximum over 2048 slots is the larger
  of the maxima over the even and over the odd slots; a sum over 2048 slots is the sum over the even plus the sum over
  the odd slots; and `x · (1 / D) = x / D` as soon as `D ≠ 0` — the softmax denominator is a sum of exponentials of
  real numbers of which one is `exp 0`, hence a positive real: that is where the entries being real is used.
-/
import proofs.«132960_j32220844655352_2_alg».proof.Proof.Spec
import proofs.«132960_j32220844655352_2_alg».proof.Proof.LibRealClosure
import proofs.«132960_j32220844655352_2_alg».proof.Proof.LibRsqrtLaw
import proofs.«132960_j32220844655352_2_alg».proof.Proof.LibMaxMid

noncomputable section

namespace Cert.Ntm

open RealClosure Idealize.ShloMosaic

/-! ## Lanes -/

/-- Lane `d` of the first half, of the second half. -/
def loL (d : Fin 64) : Fin 128 := ⟨d.val, by have := d.isLt; omega⟩
def hiL (d : Fin 64) : Fin 128 := ⟨64 + d.val, by have := d.isLt; omega⟩
/-- The even slot `2p`, the odd slot `2p + 1`. -/
def ev (p : Fin 1024) : Fin 2048 := ⟨2 * p.val, by have := p.isLt; omega⟩
def od (p : Fin 1024) : Fin 2048 := ⟨2 * p.val + 1, by have := p.isLt; omega⟩

theorem sum_lanes (g : Fin 128 → EReal) :
    ∑ l : Fin 128, g l = (∑ d : Fin 64, g (loL d)) + ∑ d : Fin 64, g (hiL d) := by
  have h := Fin.sum_univ_add (a := 64) (b := 64) (f := g)
  refine h.trans ?_
  congr 1

@[simp] theorem lo_loL (d : Fin 64) : lo (loL d) = 1 := by simp [lo, loL, d.isLt]
@[simp] theorem lo_hiL (d : Fin 64) : lo (hiL d) = 0 := by simp [lo, hiL]
@[simp] theorem hi_loL (d : Fin 64) : hi (loL d) = 0 := by
  rw [hi, lo_loL]; rw [← EReal.coe_one, ← EReal.coe_sub, sub_self, EReal.coe_zero]
@[simp] theorem hi_hiL (d : Fin 64) : hi (hiL d) = 1 := by
  rw [hi, lo_hiL]; simp
@[simp] theorem lane64_loL (d : Fin 64) : lane64 (loL d) = d := Fin.ext (show d.val % 64 = d.val from Nat.mod_eq_of_lt d.isLt)
@[simp] theorem lane64_hiL (d : Fin 64) : lane64 (hiL d) = d :=
  Fin.ext (show (64 + d.val) % 64 = d.val by have := d.isLt; omega)
@[simp] theorem slotOf_loL (p : Fin 1024) (d : Fin 64) : slotOf p (loL d) = ev p :=
  Fin.ext (show 2 * p.val + d.val / 64 = 2 * p.val by have := d.isLt; omega)
@[simp] theorem slotOf_hiL (p : Fin 1024) (d : Fin 64) : slotOf p (hiL d) = od p :=
  Fin.ext (show 2 * p.val + (64 + d.val) / 64 = 2 * p.val + 1 by have := d.isLt; omega)

/-! ## Even and odd slots -/

/-- Every slot is an even or an odd one. -/
theorem slot_cases (n : Fin 2048) : (∃ p, n = ev p) ∨ (∃ p, n = od p) := by
  rcases Nat.mod_two_eq_zero_or_one n.val with h | h
  · exact Or.inl ⟨⟨n.val / 2, by have := n.isLt; omega⟩, Fin.ext (show n.val = 2 * (n.val / 2) by omega)⟩
  · exact Or.inr ⟨⟨n.val / 2, by have := n.isLt; omega⟩, Fin.ext (show n.val = 2 * (n.val / 2) + 1 by omega)⟩

/-- A sum over the 2048 slots is the sum over the even slots plus the sum over the odd slots. -/
theorem sum_slots (f : Fin 2048 → EReal) : ∑ n : Fin 2048, f n = (∑ p : Fin 1024, f (ev p)) + ∑ p : Fin 1024, f (od p) := by
  rw [← Finset.sum_add_distrib]
  have e := (Equiv.sum_comp (finProdFinEquiv (m := 1024) (n := 2)) f).symm
  refine e.trans ?_
  rw [Fintype.sum_prod_type]
  refine Finset.sum_congr rfl fun p _ => ?_
  rw [Fin.sum_univ_two]
  have h0 : finProdFinEquiv (m := 1024) (n := 2) (p, 0) = ev p := Fin.ext (by simp [finProdFinEquiv, ev])
  have h1 : finProdFinEquiv (m := 1024) (n := 2) (p, 1) = od p := Fin.ext (by simp [finProdFinEquiv, od]; omega)
  rw [h0, h1]

/-- A supremum over the 2048 slots is the larger of the suprema over the even and over the odd slots. -/
theorem sup_slots (f : Fin 2048 → EReal) :
    Finset.univ.sup f = max (Finset.univ.sup fun p : Fin 1024 => f (ev p)) (Finset.univ.sup fun p : Fin 1024 => f (od p)) := by
  apply le_antisymm
  · refine Finset.sup_le fun n _ => ?_
    rcases slot_cases n with ⟨p, rfl⟩ | ⟨p, rfl⟩
    · exact le_max_of_le_left (Finset.le_sup (f := fun p : Fin 1024 => f (ev p)) (Finset.mem_univ p))
    · exact le_max_of_le_right (Finset.le_sup (f := fun p : Fin 1024 => f (od p)) (Finset.mem_univ p))
  · exact max_le (Finset.sup_le fun p _ => Finset.le_sup (f := f) (Finset.mem_univ _))
      (Finset.sup_le fun p _ => Finset.le_sup (f := f) (Finset.mem_univ _))

/-- The packed layout of a memory row. -/
def pack (mem : Fin 2048 → Fin 64 → EReal) (p : Fin 1024) (l : Fin 128) : EReal := mem (slotOf p l) (lane64 l)

end Cert.Ntm

end
-- ==== Proof.Bridge1.lean ====
/-
  The packed update of a batch row equals the plain update, slot by slot (the laws are listed in the module that
  sets up the lanes and the even / odd slots).
-/
import proofs.«132960_j32220844655352_2_alg».proof.Proof.Bridge0

noncomputable section

namespace Cert.Ntm

open RealClosure Idealize.ShloMosaic

variable (k e a : Fin 6 → Fin 64 → EReal) (mem : Fin 2048 → Fin 64 → EReal)

/-- The key scaled to unit norm by a reciprocal square root. -/
def knK (h : Fin 6) (d : Fin 64) : EReal := k h d * Ideal.rsqrt (0 + ∑ d' : Fin 64, k h d' * k h d')

theorem knK_eq (hk : ∀ h, 0 < 0 + ∑ d : Fin 64, k h d * k h d) : knK k = Plain.kn k := by
  funext h d
  exact (Gnn.Bn.div_sqrt_eq_mul_rsqrt _ _ (hk h)).symm

/-! ## Norms and scores on the packed layout -/

theorem ssl_pack (p : Fin 1024) : Packed.ssl (pack mem) p = ∑ d : Fin 64, mem (ev p) d * mem (ev p) d := by
  unfold Packed.ssl; rw [sum_lanes]; simp [pack]

theorem ssh_pack (p : Fin 1024) : Packed.ssh (pack mem) p = ∑ d : Fin 64, mem (od p) d * mem (od p) d := by
  unfold Packed.ssh; rw [sum_lanes]; simp [pack]

variable (hm : ∀ n, 0 < 0 + ∑ d : Fin 64, mem n d * mem n d)
include hm

theorem mnorm_lo (p : Fin 1024) (d : Fin 64) : Packed.mnorm (pack mem) p (loL d) = Plain.mn mem (ev p) d := by
  unfold Packed.mnorm Packed.inv Plain.mn
  rw [ssl_pack, lo_loL, hi_loL, mul_one, mul_zero, add_zero, Gnn.Bn.div_sqrt_eq_mul_rsqrt _ _ (hm _), zero_add]
  simp [pack]

theorem mnorm_hi (p : Fin 1024) (d : Fin 64) : Packed.mnorm (pack mem) p (hiL d) = Plain.mn mem (od p) d := by
  unfold Packed.mnorm Packed.inv Plain.mn
  rw [ssh_pack, lo_hiL, hi_hiL, mul_one, mul_zero, zero_add, Gnn.Bn.div_sqrt_eq_mul_rsqrt _ _ (hm _), zero_add]
  simp [pack]

theorem slo_eq (kn : Fin 6 → Fin 64 → EReal) (h : Fin 6) (p : Fin 1024) :
    Packed.slo kn (pack mem) h p = ∑ d : Fin 64, kn h d * Plain.mn mem (ev p) d := by
  unfold Packed.slo; rw [sum_lanes]
  simp only [lane64_loL, lane64_hiL, lo_loL, lo_hiL, mul_one, mul_zero, Finset.sum_const_zero, add_zero, mnorm_lo mem hm]

theorem shi_eq (kn : Fin 6 → Fin 64 → EReal) (h : Fin 6) (p : Fin 1024) :
    Packed.shi kn (pack mem) h p = ∑ d : Fin 64, kn h d * Plain.mn mem (od p) d := by
  unfold Packed.shi; rw [sum_lanes]
  simp only [lane64_loL, lane64_hiL, hi_loL, hi_hiL, mul_one, mul_zero, Finset.sum_const_zero, zero_add, mnorm_hi mem hm]

theorem slo_plain (h : Fin 6) (p : Fin 1024) : Packed.slo (Plain.kn k) (pack mem) h p = Plain.s k mem h (ev p) :=
  slo_eq mem hm _ h p
theorem shi_plain (h : Fin 6) (p : Fin 1024) : Packed.shi (Plain.kn k) (pack mem) h p = Plain.s k mem h (od p) :=
  shi_eq mem hm _ h p

/-! ## The softmax -/

theorem smax_plain (h : Fin 6) : Packed.smax (Plain.kn k) (pack mem) h = Plain.smax k mem h := by
  unfold Packed.smax Plain.smax
  rw [MaxMid.fold_max_bot, MaxMid.fold_max_bot, MaxMid.fold_max_bot, sup_slots, max_eq_right (bot_le : (⊥ : EReal) ≤ _)]
  simp only [slo_plain k mem hm, shi_plain k mem hm]

theorem elo_plain (h : Fin 6) (p : Fin 1024) : Packed.elo (Plain.kn k) (pack mem) h p = Plain.ex k mem h (ev p) := by
  unfold Packed.elo Plain.ex; rw [slo_plain k mem hm, smax_plain k mem hm]
theorem ehi_plain (h : Fin 6) (p : Fin 1024) : Packed.ehi (Plain.kn k) (pack mem) h p = Plain.ex k mem h (od p) := by
  unfold Packed.ehi Plain.ex; rw [shi_plain k mem hm, smax_plain k mem hm]

theorem den_plain (h : Fin 6) : Packed.den (Plain.kn k) (pack mem) h = Plain.den k mem h := by
  unfold Packed.den Plain.den
  rw [zero_add, sum_slots]
  simp only [elo_plain k mem hm, ehi_plain k mem hm]

end Cert.Ntm

end
-- ==== Proof.LibRealSums.lean ====
/-
  Finite sums of real numbers, read on the extended reals.

  Coercion from the reals to the extended reals commutes with a finite sum (`coe_sum_real`: by induction on the index
  set, the coercion being additive), and a finite sum of products of extended reals each of which is a real number is the
  coercion of the real sum of the real products (`sum_mul_of_real`).  With these a computation on extended reals whose
  inputs are all finite can be carried out in the reals, where a factor moves across a sum and a nonzero divisor cancels.
-/
import Mathlib.Data.EReal.Operations
import Mathlib.Algebra.BigOperators.Fin

open scoped BigOperators

namespace RealSums

/-- A finite sum of real numbers, read on the extended reals, is the sum of the readings. -/
theorem coe_sum_real {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of products of entries that are real numbers is the real sum of the real products. -/
theorem sum_mul_of_real {ι : Type*} [Fintype ι] (A B : ι → EReal) (a b : ι → ℝ)
    (hA : ∀ i, A i = (a i : EReal)) (hB : ∀ i, B i = (b i : EReal)) :
    ∑ i, A i * B i = ((∑ i, a i * b i : ℝ) : EReal) := by
  rw [coe_sum_real]
  exact Finset.sum_congr rfl (fun i _ => by rw [hA, hB, EReal.coe_mul])

end RealSums
-- ==== Proof.Bridge2.lean ====
/-
  The softmax denominator is a positive real, so multiplying by its reciprocal is dividing by it; with that the packed
  weights and the packed new memory are the plain ones, slot by slot.
-/
import proofs.«132960_j32220844655352_2_alg».proof.Proof.Bridge1
import proofs.«132960_j32220844655352_2_alg».proof.Proof.LibRealSums

noncomputable section

namespace Cert.Ntm

open RealClosure Idealize.ShloMosaic

/-- What the precondition gives for one batch row: the key's and the memory's entries are real numbers, and every key
    row and every memory slot has a positive sum of squares. -/
structure Good (k : Fin 6 → Fin 64 → EReal) (mem : Fin 2048 → Fin 64 → EReal) : Prop where
  kr : ∀ h d, IsReal (k h d)
  mr : ∀ n d, IsReal (mem n d)
  kp : ∀ h, 0 < 0 + ∑ d : Fin 64, k h d * k h d
  mp : ∀ n, 0 < 0 + ∑ d : Fin 64, mem n d * mem n d

/-- The square root of a positive real is a nonzero real. -/
theorem isReal_sqrt_pos {v : EReal} (hv : IsReal v) (hpos : 0 < v) : IsReal (Ideal.sqrt v) ∧ Ideal.sqrt v ≠ 0 := by
  obtain ⟨r, rfl⟩ := hv
  have hr : 0 < r := by exact_mod_cast hpos
  rw [Ideal.sqrt_coe, if_neg (not_lt.mpr hr.le)]
  exact ⟨⟨_, rfl⟩, by exact_mod_cast (Real.sqrt_pos.mpr hr).ne'⟩

/-- A real vector with a positive sum of squares, divided by its norm, is a real vector. -/
theorem isReal_unit {D : ℕ} (x : Fin D → EReal) (hx : ∀ d, IsReal (x d)) (hp : 0 < 0 + ∑ d : Fin D, x d * x d) (d : Fin D) :
    IsReal (Ideal.div (x d) (Ideal.sqrt (0 + ∑ d' : Fin D, x d' * x d'))) := by
  have hv : IsReal (0 + ∑ d' : Fin D, x d' * x d') := IsReal.zero.add (IsReal.sum_univ _ fun d' => (hx d').mul (hx d'))
  obtain ⟨h1, h2⟩ := isReal_sqrt_pos hv hp
  exact (hx d).div h1 h2

/-- Multiplying by the reciprocal of a nonzero number is dividing by it. -/
theorem mul_one_div (x D : EReal) (hD : D ≠ 0) : x * Ideal.div 1 D = Ideal.div x D := by
  unfold Ideal.div; rw [if_neg hD, if_neg hD, one_mul]

variable {k : Fin 6 → Fin 64 → EReal} {mem : Fin 2048 → Fin 64 → EReal} (G : Good k mem)
include G

theorem s_real (h : Fin 6) (n : Fin 2048) : IsReal (Plain.s k mem h n) :=
  IsReal.sum_univ _ fun d => (isReal_unit (k h) (G.kr h) (G.kp h) d).mul (isReal_unit (mem n) (G.mr n) (G.mp n) d)

theorem smax_real (h : Fin 6) : IsReal (Plain.smax k mem h) := by
  unfold Plain.smax
  rw [MaxMid.fold_max_bot, max_eq_right bot_le]
  obtain ⟨n, -, hn⟩ := Finset.exists_mem_eq_sup (Finset.univ : Finset (Fin 2048)) ⟨0, Finset.mem_univ _⟩ (fun n => Plain.s k mem h n)
  rw [hn]; exact s_real G h n

theorem ex_pos (h : Fin 6) (n : Fin 2048) : ∃ r : ℝ, 0 < r ∧ Plain.ex k mem h n = (r : EReal) :=
  ((s_real G h n).sub (smax_real G h)).exp_pos_real

theorem den_ne_zero (h : Fin 6) : Plain.den k mem h ≠ 0 := by
  choose r hr using fun n => ex_pos G h n
  have e : Plain.den k mem h = ((∑ n : Fin 2048, r n : ℝ) : EReal) := by
    unfold Plain.den; rw [zero_add, RealSums.coe_sum_real]; exact Finset.sum_congr rfl fun n _ => (hr n).2
  rw [e]
  have hpos : 0 < ∑ n : Fin 2048, r n := Finset.sum_pos (fun n _ => (hr n).1) Finset.univ_nonempty
  exact_mod_cast hpos.ne'

theorem wlo_plain (h : Fin 6) (p : Fin 1024) : Packed.wlo (Plain.kn k) (pack mem) h p = Plain.wn k mem h (ev p) := by
  unfold Packed.wlo Packed.invden Plain.wn
  rw [elo_plain k mem G.mp, den_plain k mem G.mp, mul_one_div _ _ (den_ne_zero G h)]

theorem whi_plain (h : Fin 6) (p : Fin 1024) : Packed.whi (Plain.kn k) (pack mem) h p = Plain.wn k mem h (od p) := by
  unfold Packed.whi Packed.invden Plain.wn
  rw [ehi_plain k mem G.mp, den_plain k mem G.mp, mul_one_div _ _ (den_ne_zero G h)]

theorem mix_lo (f : Fin 6 → Fin 64 → EReal) (p : Fin 1024) (d : Fin 64) :
    Packed.mix (Plain.kn k) (pack mem) f p (loL d) = Plain.mix k mem f (ev p) d := by
  unfold Packed.mix Plain.mix
  simp only [lane64_loL, lo_loL, hi_loL, mul_one, mul_zero, add_zero, wlo_plain G]

theorem mix_hi (f : Fin 6 → Fin 64 → EReal) (p : Fin 1024) (d : Fin 64) :
    Packed.mix (Plain.kn k) (pack mem) f p (hiL d) = Plain.mix k mem f (od p) d := by
  unfold Packed.mix Plain.mix
  simp only [lane64_hiL, lo_hiL, hi_hiL, mul_one, mul_zero, zero_add, whi_plain G]

theorem nm_lo (e a : Fin 6 → Fin 64 → EReal) (p : Fin 1024) (d : Fin 64) :
    Packed.nm (Plain.kn k) e a (pack mem) p (loL d) = Plain.nm k e a mem (ev p) d := by
  unfold Packed.nm Plain.nm
  rw [mix_lo G, mix_lo G]; simp [pack]

theorem nm_hi (e a : Fin 6 → Fin 64 → EReal) (p : Fin 1024) (d : Fin 64) :
    Packed.nm (Plain.kn k) e a (pack mem) p (hiL d) = Plain.nm k e a mem (od p) d := by
  unfold Packed.nm Plain.nm
  rw [mix_hi G, mix_hi G]; simp [pack]

/-! ## Slot by slot -/

/-- The new weights, read slot by slot off the even-slot and odd-slot halves. -/
theorem weights_eq (h : Fin 6) (n : Fin 2048) :
    (if n.val % 2 = 0 then Packed.wlo (knK k) (pack mem) h (packRow n) else Packed.whi (knK k) (pack mem) h (packRow n))
      = Plain.wn k mem h n := by
  rw [knK_eq k G.kp]
  rcases slot_cases n with ⟨p, rfl⟩ | ⟨p, rfl⟩
  · have hp : packRow (ev p) = p := Fin.ext (show 2 * p.val / 2 = p.val by omega)
    rw [if_pos (show (ev p).val % 2 = 0 from (show (2 * p.val) % 2 = 0 by omega)), hp, wlo_plain G]
  · have hp : packRow (od p) = p := Fin.ext (show (2 * p.val + 1) / 2 = p.val by omega)
    rw [if_neg (show ¬ (od p).val % 2 = 0 from (show ¬ (2 * p.val + 1) % 2 = 0 by omega)), hp, whi_plain G]

/-- The new memory, read slot by slot off the packed layout. -/
theorem memory_eq (e a : Fin 6 → Fin 64 → EReal) (n : Fin 2048) (d : Fin 64) :
    Packed.nm (knK k) e a (pack mem) (packRow n) (packLane n d) = Plain.nm k e a mem n d := by
  rw [knK_eq k G.kp]
  rcases slot_cases n with ⟨p, rfl⟩ | ⟨p, rfl⟩
  · have hp : packRow (ev p) = p := Fin.ext (show 2 * p.val / 2 = p.val by omega)
    have hl : packLane (ev p) d = loL d := Fin.ext (show 64 * (2 * p.val % 2) + d.val = d.val by omega)
    rw [hp, hl, nm_lo G]
  · have hp : packRow (od p) = p := Fin.ext (show (2 * p.val + 1) / 2 = p.val by omega)
    have hl : packLane (od p) d = hiL d := Fin.ext (show 64 * ((2 * p.val + 1) % 2) + d.val = 64 + d.val by omega)
    rw [hp, hl, nm_hi G]

end Cert.Ntm

end
-- ==== Proof.Glue.lean ====
/-
  From the kernel's arrays to the reference's formulas, for one batch row at a time, over arbitrary arrays.

  The projection's output row is three affine maps of the dense input row laid end to end: its columns 0..383 are the
  key's, 384..767 the erase vector's, 768..1151 the add vector's, because the weights are three column blocks laid end
  to end and so is the bias. Hence the normalised key the update region is given is the key scaled by the reciprocal
  square root of its sum of squares, the erase and add vectors are the logistic function of their affine maps, and
  the packed memory is the row's memory in the packed layout. The region's packed outputs, read back slot by slot,
  are then the reference's new memory and new weights, by the packed-against-plain laws.
-/
import proofs.«132960_j32220844655352_2_alg».proof.Proof.Spec
import proofs.«132960_j32220844655352_2_alg».proof.Proof.Ref.Defs
import proofs.«132960_j32220844655352_2_alg».proof.Proof.Bridge2

noncomputable section

namespace Cert.Glue

open Idealize.ShloMosaic Idealize.ShloMosaic.ValueIdx Cert.Ntm Cert.RefValue

/-! ## Three rows of 384 laid end to end, read in each third -/

theorem cat3_first {α : Type} (f0 f1 f2 : Fin 384 → α) (q : Fin 1152) (q' : Fin 384) (h : q.val = q'.val) :
    cat3 f0 f1 f2 q = f0 q' := by
  unfold cat3
  have h0 : q.val < 384 := by have := q'.isLt; omega
  rw [dif_pos h0]
  exact congrArg f0 (Fin.ext h)

theorem cat3_second {α : Type} (f0 f1 f2 : Fin 384 → α) (q : Fin 1152) (q' : Fin 384) (h : q.val = 384 + q'.val) :
    cat3 f0 f1 f2 q = f1 q' := by
  unfold cat3
  have h0 : ¬ q.val < 384 := by omega
  have h1 : q.val < 768 := by have := q'.isLt; omega
  rw [dif_neg h0, dif_pos h1]
  exact congrArg f1 (Fin.ext (by show q.val - 384 = q'.val; omega))

theorem cat3_third {α : Type} (f0 f1 f2 : Fin 384 → α) (q : Fin 1152) (q' : Fin 384) (h : q.val = 768 + q'.val) :
    cat3 f0 f1 f2 q = f2 q' := by
  unfold cat3
  have h0 : ¬ q.val < 384 := by omega
  have h1 : ¬ q.val < 768 := by omega
  rw [dif_neg h0, dif_neg h1]
  exact congrArg f2 (Fin.ext (by show q.val - 768 = q'.val; omega))

/-! ## The projection's output row -/

section Rows

variable (x0 : (⟨2, ![256, 128]⟩ : Shape).Idx → EReal) (x1 : (⟨3, ![256, 2048, 64]⟩ : Shape).Idx → EReal)
  (x2 : (⟨3, ![256, 6, 2048]⟩ : Shape).Idx → EReal)
  (x3 x5 x7 : (⟨2, ![12416, 384]⟩ : Shape).Idx → EReal) (x4 x6 x8 : (⟨1, ![384]⟩ : Shape).Idx → EReal)
  (A1 : (⟨2, ![256, 12416]⟩ : Shape).Idx → EReal) (A2 : (⟨2, ![12416, 1152]⟩ : Shape).Idx → EReal)
  (A4 : (⟨2, ![1, 1152]⟩ : Shape).Idx → EReal) (Y : (⟨2, ![256, 1152]⟩ : Shape).Idx → EReal)
  (h1 : ∀ b j, A1 (ix2 b j) = xcat (fun h n => x2 (ix3 b h n)) (fun i => x0 (ix2 b i)) j)
  (h2 : ∀ j q, A2 (ix2 j q)
    = cat3 (fun q' => x3 (ix2 j q')) (fun q' => x5 (ix2 j q')) (fun q' => x7 (ix2 j q')) q)
  (h4 : ∀ q, A4 (ix2 (0 : Fin 1) q) = cat3 (fun q' => x4 (ix1 q')) (fun q' => x6 (ix1 q')) (fun q' => x8 (ix1 q')) q)
  (hY : ∀ b q, Y (ix2 b q) = (∑ j : Fin 12416, A1 (ix2 b j) * A2 (ix2 j q)) + A4 (ix2 (0 : Fin 1) q))

include h1 h2 h4 hY

/-- Columns 0..383 of the output row: the first affine map. -/
theorem row_first (b : Fin 256) (q : Fin 1152) (q' : Fin 384) (hq : q.val = q'.val) :
    Y (ix2 b q) = lin (X x0 x2 b) (fun j q => x3 (ix2 j q)) (fun q => x4 (ix1 q)) q' := by
  rw [hY]
  unfold lin X
  refine congrArg₂ (· + ·) (Finset.sum_congr rfl fun j _ => ?_) ?_
  · rw [h1, h2, cat3_first _ _ _ q q' hq]
  · rw [h4, cat3_first _ _ _ q q' hq]

/-- Columns 384..767: the second. -/
theorem row_second (b : Fin 256) (q : Fin 1152) (q' : Fin 384) (hq : q.val = 384 + q'.val) :
    Y (ix2 b q) = lin (X x0 x2 b) (fun j q => x5 (ix2 j q)) (fun q => x6 (ix1 q)) q' := by
  rw [hY]
  unfold lin X
  refine congrArg₂ (· + ·) (Finset.sum_congr rfl fun j _ => ?_) ?_
  · rw [h1, h2, cat3_second _ _ _ q q' hq]
  · rw [h4, cat3_second _ _ _ q q' hq]

/-- Columns 768..1151: the third. -/
theorem row_third (b : Fin 256) (q : Fin 1152) (q' : Fin 384) (hq : q.val = 768 + q'.val) :
    Y (ix2 b q) = lin (X x0 x2 b) (fun j q => x7 (ix2 j q)) (fun q => x8 (ix1 q)) q' := by
  rw [hY]
  unfold lin X
  refine congrArg₂ (· + ·) (Finset.sum_congr rfl fun j _ => ?_) ?_
  · rw [h1, h2, cat3_third _ _ _ q q' hq]
  · rw [h4, cat3_third _ _ _ q q' hq]

/-! ## The update region's four inputs, one batch row at a time -/

variable (KN EV AV : (⟨3, ![256, 6, 64]⟩ : Shape).Idx → EReal) (MP : (⟨3, ![256, 1024, 128]⟩ : Shape).Idx → EReal)
  (hKN : ∀ (b : Fin 256) (h : Fin 6) (d : Fin 64), KN (ix3 b h d)
    = Y (ix2 b ⟨64 * h.val + d.val, by have := h.isLt; have := d.isLt; omega⟩)
      * Ideal.rsqrt (0 + ∑ d' : Fin 64,
          Y (ix2 b ⟨64 * h.val + d'.val, by have := h.isLt; have := d'.isLt; omega⟩)
            * Y (ix2 b ⟨64 * h.val + d'.val, by have := h.isLt; have := d'.isLt; omega⟩)))
  (hEV : ∀ (b : Fin 256) (h : Fin 6) (d : Fin 64), EV (ix3 b h d)
    = sigm (Y (ix2 b ⟨384 + (64 * h.val + d.val), by have := h.isLt; have := d.isLt; omega⟩)))
  (hAV : ∀ (b : Fin 256) (h : Fin 6) (d : Fin 64), AV (ix3 b h d)
    = sigm (Y (ix2 b ⟨768 + (64 * h.val + d.val), by have := h.isLt; have := d.isLt; omega⟩)))
  (hMP : ∀ (b : Fin 256) (p : Fin 1024) (l : Fin 128), MP (ix3 b p l) = x1 (ix3 b (slotOf p l) (lane64 l)))

include hKN in
/-- The normalised key of batch row `b`. -/
theorem key_row (b : Fin 256) : (fun h d => KN (ix3 b h d)) = knK (K x0 x2 x3 x4 b) := by
  funext h d
  have e : ∀ d' : Fin 64, Y (ix2 b ⟨64 * h.val + d'.val, by have := h.isLt; have := d'.isLt; omega⟩)
      = K x0 x2 x3 x4 b h d' := fun d' =>
    row_first x0 x2 x3 x5 x7 x4 x6 x8 A1 A2 A4 Y h1 h2 h4 hY b _ (hd h d') rfl
  rw [hKN, e d]
  unfold knK
  exact congrArg (fun s => K x0 x2 x3 x4 b h d * Ideal.rsqrt (0 + s))
    (Finset.sum_congr rfl fun d' _ => by rw [e d'])

include hEV in
/-- The erase vector of batch row `b`. -/
theorem erase_row (b : Fin 256) : (fun h d => EV (ix3 b h d)) = E x0 x2 x5 x6 b := by
  funext h d
  rw [hEV]
  exact congrArg sigm (row_second x0 x2 x3 x5 x7 x4 x6 x8 A1 A2 A4 Y h1 h2 h4 hY b _ (hd h d) rfl)

include hAV in
/-- The add vector of batch row `b`. -/
theorem add_row (b : Fin 256) : (fun h d => AV (ix3 b h d)) = A x0 x2 x7 x8 b := by
  funext h d
  rw [hAV]
  exact congrArg sigm (row_third x0 x2 x3 x5 x7 x4 x6 x8 A1 A2 A4 Y h1 h2 h4 hY b _ (hd h d) rfl)

omit h1 h2 h4 hY in
include hMP in
/-- The packed memory of batch row `b`. -/
theorem mem_row (b : Fin 256) : (fun p l => MP (ix3 b p l)) = pack (MEM x1 b) := by
  funext p l
  rw [hMP]
  rfl

/-! ## The two results -/

variable (hG : ∀ b : Fin 256, Good (K x0 x2 x3 x4 b) (MEM x1 b))

include hKN hEV hAV hMP hG

/-- The new memory, slot by slot. `N0` is the region's packed new memory, `R` its slot-by-slot view. -/
theorem memory_core (N0 : (⟨3, ![256, 1024, 128]⟩ : Shape).Idx → EReal) (R : (⟨3, ![256, 2048, 64]⟩ : Shape).Idx → EReal)
    (hN0 : ∀ (b : Fin 256) (p : Fin 1024) (l : Fin 128), N0 (ix3 b p l)
      = Packed.nm (fun h d => KN (ix3 b h d)) (fun h d => EV (ix3 b h d)) (fun h d => AV (ix3 b h d))
          (fun p l => MP (ix3 b p l)) p l)
    (hR : ∀ (b : Fin 256) (n : Fin 2048) (d : Fin 64), R (ix3 b n d) = N0 (ix3 b (packRow n) (packLane n d)))
    (b : Fin 256) (n : Fin 2048) (d : Fin 64) :
    R (ix3 b n d) = Plain.nm (K x0 x2 x3 x4 b) (E x0 x2 x5 x6 b) (A x0 x2 x7 x8 b) (MEM x1 b) n d := by
  rw [hR, hN0,
    key_row x0 x2 x3 x5 x7 x4 x6 x8 A1 A2 A4 Y h1 h2 h4 hY KN hKN b,
    erase_row x0 x2 x3 x5 x7 x4 x6 x8 A1 A2 A4 Y h1 h2 h4 hY EV hEV b,
    add_row x0 x2 x3 x5 x7 x4 x6 x8 A1 A2 A4 Y h1 h2 h4 hY AV hAV b,
    mem_row x1 MP hMP b]
  exact memory_eq (hG b) _ _ n d

omit hEV hAV in
/-- The new weights, slot by slot. `L`, `H` are the region's weights of the even and of the odd slots. -/
theorem weights_core (L H : (⟨3, ![256, 6, 1024]⟩ : Shape).Idx → EReal) (R : (⟨3, ![256, 6, 2048]⟩ : Shape).Idx → EReal)
    (hL : ∀ (b : Fin 256) (h : Fin 6) (p : Fin 1024), L (ix3 b h p)
      = Packed.wlo (fun h d => KN (ix3 b h d)) (fun p l => MP (ix3 b p l)) h p)
    (hH : ∀ (b : Fin 256) (h : Fin 6) (p : Fin 1024), H (ix3 b h p)
      = Packed.whi (fun h d => KN (ix3 b h d)) (fun p l => MP (ix3 b p l)) h p)
    (hR : ∀ (b : Fin 256) (h : Fin 6) (n : Fin 2048), R (ix3 b h n)
      = if n.val % 2 = 0 then L (ix3 b h (packRow n)) else H (ix3 b h (packRow n)))
    (b : Fin 256) (h : Fin 6) (n : Fin 2048) :
    R (ix3 b h n) = Plain.wn (K x0 x2 x3 x4 b) (MEM x1 b) h n := by
  rw [hR, hL, hH,
    key_row x0 x2 x3 x5 x7 x4 x6 x8 A1 A2 A4 Y h1 h2 h4 hY KN hKN b,
    mem_row x1 MP hMP b]
  exact weights_eq (hG b) h n

end Rows

end Cert.Glue

end
-- ==== Proof.LibFiniteReal.lean ====
/-
  An array of extended reals every entry of which has absolute value below +∞ is an array of real numbers.

  A "finite inputs" precondition is printed, per float array, as: the absolute value entry by entry, compared (ordered
  less-than) against the broadcast word of +∞, and the comparison bits joined by `and` over all axes starting from 1.
  `real_of_abs_lt_inf` is the fact at one entry: an extended real `x` with `max x (-x) < ⊤` is neither `⊤` nor `⊥`, hence
  a real number.  `all_real` is the fact for one array of ANY shape: if that conjunction is 1, every entry is a real
  number (the entry is read at a symbolic index; nothing is evaluated over the index set).  Imports only the library.
-/
import Idealize.ShloMosaic.Lib.ValueIdx
import Idealize.ShloMosaic.Lib.ReduceAll
import Idealize.ShloMosaic.PureOps.Ideal.Laws

noncomputable section

namespace FiniteReal

open Idealize.ShloMosaic

/-- The rank-0 shape has exactly one index (a function out of the empty set of axes). -/
instance subsingleton_scalar_idx : Subsingleton (⟨0, ![]⟩ : Shape).Idx := ⟨fun _ _ => funext fun d => d.elim0⟩

/-- The word `0x7F800000` denotes `+∞` at f32. -/
theorem ofBits_inf : Ideal.ofBits .f32 0x7F800000#32 = (⊤ : EReal) := by simp [Ideal.ofBits, Ideal.ieee]

/-- A one-bit word built from a Boolean is 1 exactly when the Boolean is true. -/
theorem ofBool_eq_one (b : Bool) : BitVec.ofBool b = 1#1 ↔ b = true := by cases b <;> decide

/-- THE ELEMENT FACT: an extended real `x` with `|x| < +∞` (the comparison the predicate makes at one entry) is a
    real number: `x = ⊥` gives `|x| = max ⊥ ⊤ = ⊤`, `x = ⊤` gives `|x| = ⊤`, neither below `⊤`. -/
theorem real_of_abs_lt_inf (x : EReal)
    (hx : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  change Ideal.cmp .olt (max x (-x)) (Ideal.ofBits .f32 0x7F800000#32) = 1#1 at hx
  rw [ofBits_inf] at hx
  unfold Ideal.cmp at hx
  rw [ofBool_eq_one] at hx
  have hlt : max x (-x) < ⊤ := of_decide_eq_true hx
  rw [max_lt_iff] at hlt
  induction x using EReal.rec with
  | bot => exact absurd hlt.2 (by simp)
  | coe r => exact ⟨r, rfl⟩
  | top => exact absurd hlt.1 (by simp)

/-- ONE ARRAY: if the conjunction over all entries of `|a j| < +∞` (a reduction by `and` over all axes, from 1, of
    the entrywise comparison against the broadcast `+∞`) is 1, every entry of `a` is a real number. Generic in the
    array's shape: the entry is read at a symbolic index. -/
theorem all_real {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel) (a : FVec Ideal s .f32)
    (i : (⟨0, ![]⟩ : Shape).Idx)
    (e : Host.reduce IntOp.andi
        (cmpf .olt (Host.absf a)
          (broadcastInDim s ![] hb (constant (F := Ideal) (⟨0, ![]⟩ : Shape) .f32 0x7F800000#32)))
        (constantI (⟨0, ![]⟩ : Shape) 1 1#1) hr hu i = 1#1) :
    ∀ j, ∃ r : ℝ, a j = (r : EReal) := fun j =>
  real_of_abs_lt_inf (a j) (Host.reduce_andi_all _ _ hr hu i e j)

end FiniteReal

end
-- ==== Proof.PreDecode.lean ====
/-
  What the precondition says, entry by entry.

  The precondition is one bit: the conjunction of, for each of the nine float arguments, "every entry has absolute
  value below +∞", of "every memory slot has a positive sum of squares" and of "every row of the content key
  `concat(flatten(w), inputs) · Wk + bk` has a positive sum of squares". Here the bit being 1 is taken apart into these
  eleven statements, each at a symbolic index (nothing is evaluated over an index set).
-/
import proofs.«132960_j32220844655352_2_alg».proof.Proof.Gen.Pre_finite_inputs
import proofs.«132960_j32220844655352_2_alg».proof.Proof.LibFiniteReal
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs Cert.Pre_finite_inputs.Gen FiniteReal

/-- The content key as the precondition computes it. -/
def key (a0 : FVec Ideal S256x128 .f32) (a2 : FVec Ideal S256x6x2048 .f32) (a3 : FVec Ideal S12416x384 .f32)
    (a4 : FVec Ideal S384 .f32) : FVec Ideal S256x6x64 .f32 :=
  shapeCast S256x6x64
    (addf
      (Host.dotGeneral dot_S256x12416_S12416x384_S256x384_1_0_0_1_n_n none
        (concatenate S256x12416 1 [⟨S256x12288, shapeCast S256x12288 a2 shapeCasts_S256x6x2048_S256x12288⟩, ⟨S256x128, a0⟩]
          concatenates_S256x12288_S256x128_S256x12416_d1) a3)
      (broadcastInDim S256x384 ![0, 1] bcast_S1x384_S256x384_0_1 (broadcastInDim S1x384 ![1] bcast_S384_S1x384_1 a4)))
    shapeCasts_S256x384_S256x6x64

/-- A comparison "greater than the zero word" that answers 1 says the number is positive. -/
theorem pos_of_ogt_zero (x : EReal)
    (h : FloatOps.cmpf (F := Ideal) (φ := .f32) .ogt x (FloatOps.ofBits (F := Ideal) .f32 0x00000000#32) = 1#1) : 0 < x := by
  change Ideal.cmp .ogt x (Ideal.ofBits .f32 0x00000000#32) = 1#1 at h
  rw [Ideal.ofBits_zero_f32] at h
  unfold Ideal.cmp at h
  rw [ofBool_eq_one] at h
  exact of_decide_eq_true h

/-- The eleven statements. -/
structure Decoded (a0 : FVec Ideal S256x128 .f32) (a1 : FVec Ideal S256x2048x64 .f32) (a2 : FVec Ideal S256x6x2048 .f32)
    (a3 : FVec Ideal S12416x384 .f32) (a4 : FVec Ideal S384 .f32) (a5 : FVec Ideal S12416x384 .f32) (a6 : FVec Ideal S384 .f32)
    (a7 : FVec Ideal S12416x384 .f32) (a8 : FVec Ideal S384 .f32) : Prop where
  r0 : ∀ j, ∃ r : ℝ, a0 j = (r : EReal)
  r1 : ∀ j, ∃ r : ℝ, a1 j = (r : EReal)
  r2 : ∀ j, ∃ r : ℝ, a2 j = (r : EReal)
  r3 : ∀ j, ∃ r : ℝ, a3 j = (r : EReal)
  r4 : ∀ j, ∃ r : ℝ, a4 j = (r : EReal)
  r5 : ∀ j, ∃ r : ℝ, a5 j = (r : EReal)
  r6 : ∀ j, ∃ r : ℝ, a6 j = (r : EReal)
  r7 : ∀ j, ∃ r : ℝ, a7 j = (r : EReal)
  r8 : ∀ j, ∃ r : ℝ, a8 j = (r : EReal)
  mpos : ∀ j : S256x2048.Idx, 0 < Host.reduceAdd (mulf a1 a1) (constant (F := Ideal) S_ .f32 0x00000000#32)
      reducesTo_S256x2048x64_S256x2048_d2 h_S_ j
  kpos : ∀ j : S256x6.Idx, 0 < Host.reduceAdd (mulf (key a0 a2 a3 a4) (key a0 a2 a3 a4)) (constant (F := Ideal) S_ .f32 0x00000000#32)
      reducesTo_S256x6x64_S256x6_d2 h_S_ j

set_option maxHeartbeats 1000000 in
theorem decode (a0 : FVec Ideal S256x128 .f32) (a1 : FVec Ideal S256x2048x64 .f32) (a2 : FVec Ideal S256x6x2048 .f32)
    (a3 : FVec Ideal S12416x384 .f32) (a4 : FVec Ideal S384 .f32) (a5 : FVec Ideal S12416x384 .f32) (a6 : FVec Ideal S384 .f32)
    (a7 : FVec Ideal S12416x384 .f32) (a8 : FVec Ideal S384 .f32)
    (h : fn (F := Ideal) a0 a1 a2 a3 a4 a5 a6 a7 a8 = fun _ => 1#1) : Decoded a0 a1 a2 a3 a4 a5 a6 a7 a8 := by
  have h0 := congrFun h ValueIdx.ix0
  dsimp only [fn, fn_part1, fn_part2, fn_part3] at h0
  obtain ⟨h0, hk⟩ := IntOp.andi_eq_one.1 h0
  obtain ⟨h0, hm⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨all_real _ _ _ a0 _ h0, all_real _ _ _ a1 _ h1, all_real _ _ _ a2 _ h2, all_real _ _ _ a3 _ h3,
    all_real _ _ _ a4 _ h4, all_real _ _ _ a5 _ h5, all_real _ _ _ a6 _ h6, all_real _ _ _ a7 _ h7, all_real _ _ _ a8 _ h8,
    fun j => pos_of_ogt_zero _ (Host.reduce_andi_all _ _ _ _ _ hm j), fun j => pos_of_ogt_zero _ (Host.reduce_andi_all _ _ _ _ _ hk j)⟩

end Cert.PreFacts

end
-- ==== Proof.LibConcatCols.lean ====
/-
  Two arrays with the same number of rows laid side by side.

  Joining an n × a array X and an n × b array Y along the second axis gives an n × c array (c = a + b) whose row r is row r
  of X followed by row r of Y.  Read at an index (r, k) of the joined array: for k = l < a it is X (r, l) (`left`), and for
  k = a + l it is Y (r, l) (`right`).  The index of the joined array is given with its two coordinates as hypotheses, so
  the lemmas apply however the index is spelt.
-/
import Idealize.ShloMosaic.Lib.Pipeline.Value
import Idealize.ShloMosaic.Lib.ValueIdx

namespace ConcatCols

open Idealize.ShloMosaic Idealize.ShloMosaic.ValueIdx

variable {α : Type} {n a b c : ℕ}

/-- A position of the joined row that falls in the first array's columns reads the first array. -/
theorem left (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin a) (hr : (j 0).val = r.val) (hl : (j 1).val = l.val) :
    concatenate ⟨2, ![n, c]⟩ 1 [⟨⟨2, ![n, a]⟩, x⟩, ⟨⟨2, ![n, b]⟩, y⟩] h j = x (ix2 r l) :=
  concatenate_pair_apply_left (t := ⟨2, ![n, c]⟩) (1 : Fin 2) x y h j rfl (ix2 r l)
    (fun d => by match d with | ⟨0, _⟩ => exact hr.symm | ⟨1, _⟩ => exact hl.symm)

/-- A position a + l of the joined row reads position l of the second array's row. -/
theorem right (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin b) (hr : (j 0).val = r.val) (hl : (j 1).val = a + l.val) :
    concatenate ⟨2, ![n, c]⟩ 1 [⟨⟨2, ![n, a]⟩, x⟩, ⟨⟨2, ![n, b]⟩, y⟩] h j = y (ix2 r l) :=
  concatenate_pair_apply_right (t := ⟨2, ![n, c]⟩) (1 : Fin 2) x y h j rfl rfl (ix2 r l)
    (fun d hd => by match d, hd with | ⟨0, _⟩, _ => exact hr.symm | ⟨1, _⟩, hd => exact absurd rfl hd)
    (by show l.val + a = (j 1).val; omega)

end ConcatCols
-- ==== Proof.Ref.Cat.lean ====
/-
  The reference's dense input row, read at an index.

  The first operation flattens the previous weights [256, 6, 2048] to [256, 12288] (row-major: position 2048 h + n of row b
  is entry (b, h, n)); the second lays the 128 inputs after them. So row b of the joined array is `X b`.
-/
import proofs.«132960_j32220844655352_2_alg».proof.Proof.Gen.ReferenceIdeal.Read
import proofs.«132960_j32220844655352_2_alg».proof.Proof.LibConcatCols
import proofs.«132960_j32220844655352_2_alg».proof.Proof.Ref.Defs

noncomputable section

namespace Cert.RefValue

open Cert.ReferenceIdeal Cert.ReferenceIdeal.Gen Cert.ReferenceIdeal.Read Idealize.ShloMosaic Idealize.ShloMosaic.ValueIdx Cert.Ntm

variable (x0 : (⟨S256x128, .f32⟩ : BufTy).Contents (Elt Ideal)) (x2 : (⟨S256x6x2048, .f32⟩ : BufTy).Contents (Elt Ideal))

/-- Row `b` of the joined array is the dense input row `X b`. -/
theorem ref_x_apply (b : Fin 256) (j : Fin 12416) :
    Cert.ReferenceIdeal.Read.val_main_v1 (F := Ideal) x0 x2 (ix2 b j) = X x0 x2 b j := by
  unfold Cert.ReferenceIdeal.Read.val_main_v1 X xcat
  by_cases h : j.val < 12288
  · rw [dif_pos h]
    refine (ConcatCols.left (val_main_v0 (F := Ideal) x2) x0 concatenates_S256x12288_S256x128_S256x12416_d1 (ix2 b j) b ⟨j.val, h⟩ rfl rfl).trans ?_
    rw [val_main_v0_apply]
    refine congrArg x2 (funext fun a => Fin.ext ?_)
    have hb := b.isLt
    match a with
    | ⟨0, _⟩ => show (b.val * 12288 + j.val) / 12288 = b.val; omega
    | ⟨1, _⟩ => show (b.val * 12288 + j.val) / 2048 % 6 = j.val / 2048; omega
    | ⟨2, _⟩ => show (b.val * 12288 + j.val) % 2048 = j.val % 2048; omega
  · rw [dif_neg h]
    have hj := j.isLt
    exact ConcatCols.right (val_main_v0 (F := Ideal) x2) x0 concatenates_S256x12288_S256x128_S256x12416_d1 (ix2 b j) b ⟨j.val - 12288, by omega⟩ rfl (by show j.val = 12288 + (j.val - 12288); omega)

end Cert.RefValue

end
-- ==== Proof.Ref.Lin.lean ====
/-
  The three affine maps of the dense input row, read at an index.

  Each is a product of the joined array [256, 12416] with a weight matrix [12416, 384] plus a bias row broadcast over
  the batch: at (b, q) it is (∑ j, X b j · W j q) + bias q.
-/
import proofs.«132960_j32220844655352_2_alg».proof.Proof.Gen.ReferenceIdeal.Read
import proofs.«132960_j32220844655352_2_alg».proof.Proof.Ref.Cat

noncomputable section

namespace Cert.RefValue

open Cert.ReferenceIdeal Cert.ReferenceIdeal.Gen Cert.ReferenceIdeal.Read Idealize.ShloMosaic Idealize.ShloMosaic.ValueIdx Cert.Ntm

variable (x0 : (⟨S256x128, .f32⟩ : BufTy).Contents (Elt Ideal)) (x2 : (⟨S256x6x2048, .f32⟩ : BufTy).Contents (Elt Ideal))

/-- Row `b` of the product with `x3` plus the bias `x4`, at column `q`. -/
theorem ref_lin_k (x3 : (⟨S12416x384, .f32⟩ : BufTy).Contents (Elt Ideal)) (x4 : (⟨S384, .f32⟩ : BufTy).Contents (Elt Ideal)) (b : Fin 256) (q : Fin 384) :
    Cert.ReferenceIdeal.Read.val_main_v5 (F := Ideal) x0 x2 x3 x4 (ix2 b q)
      = lin (X x0 x2 b) (fun j q => x3 (ix2 j q)) (fun q => x4 (ix1 q)) q := by
  rw [val_main_v5_apply, val_main_v2_apply, val_main_v4_apply, val_main_v3_apply]
  unfold lin
  refine congrArg₂ (fun s t : EReal => s + t) (Finset.sum_congr rfl fun k _ => ?_) ?_
  · have el : lidx_main_v2 (ix2 b q) k = ix2 b k :=
      funext fun a => Fin.ext (by match a with | ⟨0, _⟩ => rfl | ⟨1, _⟩ => rfl)
    have er : ridx_main_v2 (ix2 b q) k = ix2 k q :=
      funext fun a => Fin.ext (by match a with | ⟨0, _⟩ => rfl | ⟨1, _⟩ => rfl)
    rw [el, er, ref_x_apply]
  · exact congrArg x4 (funext fun a => Fin.ext (by match a with | ⟨0, _⟩ => rfl))

/-- Row `b` of the product with `x5` plus the bias `x6`, at column `q`. -/
theorem ref_lin_e (x5 : (⟨S12416x384, .f32⟩ : BufTy).Contents (Elt Ideal)) (x6 : (⟨S384, .f32⟩ : BufTy).Contents (Elt Ideal)) (b : Fin 256) (q : Fin 384) :
    Cert.ReferenceIdeal.Read.val_main_v28 (F := Ideal) x0 x2 x5 x6 (ix2 b q)
      = lin (X x0 x2 b) (fun j q => x5 (ix2 j q)) (fun q => x6 (ix1 q)) q := by
  rw [val_main_v28_apply, val_main_v25_apply, val_main_v27_apply, val_main_v26_apply]
  unfold lin
  refine congrArg₂ (fun s t : EReal => s + t) (Finset.sum_congr rfl fun k _ => ?_) ?_
  · have el : lidx_main_v25 (ix2 b q) k = ix2 b k :=
      funext fun a => Fin.ext (by match a with | ⟨0, _⟩ => rfl | ⟨1, _⟩ => rfl)
    have er : ridx_main_v25 (ix2 b q) k = ix2 k q :=
      funext fun a => Fin.ext (by match a with | ⟨0, _⟩ => rfl | ⟨1, _⟩ => rfl)
    rw [el, er, ref_x_apply]
  · exact congrArg x6 (funext fun a => Fin.ext (by match a with | ⟨0, _⟩ => rfl))

/-- Row `b` of the product with `x7` plus the bias `x8`, at column `q`. -/
theorem ref_lin_a (x7 : (⟨S12416x384, .f32⟩ : BufTy).Contents (Elt Ideal)) (x8 : (⟨S384, .f32⟩ : BufTy).Contents (Elt Ideal)) (b : Fin 256) (q : Fin 384) :
    Cert.ReferenceIdeal.Read.val_main_v39 (F := Ideal) x0 x2 x7 x8 (ix2 b q)
      = lin (X x0 x2 b) (fun j q => x7 (ix2 j q)) (fun q => x8 (ix1 q)) q := by
  rw [val_main_v39_apply, val_main_v36_apply, val_main_v38_apply, val_main_v37_apply]
  unfold lin
  refine congrArg₂ (fun s t : EReal => s + t) (Finset.sum_congr rfl fun k _ => ?_) ?_
  · have el : lidx_main_v36 (ix2 b q) k = ix2 b k :=
      funext fun a => Fin.ext (by match a with | ⟨0, _⟩ => rfl | ⟨1, _⟩ => rfl)
    have er : ridx_main_v36 (ix2 b q) k = ix2 k q :=
      funext fun a => Fin.ext (by match a with | ⟨0, _⟩ => rfl | ⟨1, _⟩ => rfl)
    rw [el, er, ref_x_apply]
  · exact congrArg x8 (funext fun a => Fin.ext (by match a with | ⟨0, _⟩ => rfl))

end Cert.RefValue

end
-- ==== Proof.Ref.Gates.lean ====
/-
  The key, the erase vector and the add vector of the reference, read at an index.

  Each is an affine map of the dense input row, [256, 384], regrouped as [256, 6, 64]: entry (b, h, d) is column 64 h + d
  of row b. The erase and add vectors go through the logistic function, which the program spells 1 / (1 + exp (-t)).
-/
import proofs.«132960_j32220844655352_2_alg».proof.Proof.Gen.ReferenceIdeal.Read
import proofs.«132960_j32220844655352_2_alg».proof.Proof.Ref.Lin
import Idealize.ShloMosaic.Lib.IdealHost

noncomputable section

namespace Cert.RefValue

open Cert.ReferenceIdeal Cert.ReferenceIdeal.Gen Cert.ReferenceIdeal.Read Idealize.ShloMosaic Idealize.ShloMosaic.ValueIdx Cert.Ntm

variable (x0 : (⟨S256x128, .f32⟩ : BufTy).Contents (Elt Ideal)) (x2 : (⟨S256x6x2048, .f32⟩ : BufTy).Contents (Elt Ideal))

/-- Entry (b, h, d) of the regrouped array is entry (b, 64 h + d) of the flat one. -/
theorem idx_heads (b : Fin 256) (h : Fin 6) (d : Fin 64) : idx_main_v6 (ix3 b h d) = ix2 b (hd h d) :=
  funext fun a => Fin.ext (by
    have := b.isLt; have := h.isLt; have := d.isLt
    match a with
    | ⟨0, _⟩ => show ((b.val * 6 + h.val) * 64 + d.val) / 384 = b.val; omega
    | ⟨1, _⟩ => show ((b.val * 6 + h.val) * 64 + d.val) % 384 = 64 * h.val + d.val; omega)

/-- The key of batch row `b`, head `h`, entry `d`. -/
theorem ref_k_apply (x3 : (⟨S12416x384, .f32⟩ : BufTy).Contents (Elt Ideal)) (x4 : (⟨S384, .f32⟩ : BufTy).Contents (Elt Ideal)) (b : Fin 256) (h : Fin 6) (d : Fin 64) :
    Cert.ReferenceIdeal.Read.val_main_v6 (F := Ideal) x0 x2 x3 x4 (ix3 b h d) = K x0 x2 x3 x4 b h d := by
  rw [val_main_v6_apply, idx_heads, ref_lin_k]
  rfl

/-- The erase vector of batch row `b`, head `h`, entry `d`. -/
theorem ref_e_apply (x5 : (⟨S12416x384, .f32⟩ : BufTy).Contents (Elt Ideal)) (x6 : (⟨S384, .f32⟩ : BufTy).Contents (Elt Ideal)) (b : Fin 256) (h : Fin 6) (d : Fin 64) :
    Cert.ReferenceIdeal.Read.val_main_v35 (F := Ideal) x0 x2 x5 x6 (ix3 b h d) = E x0 x2 x5 x6 b h d := by
  rw [val_main_v35_apply, show idx_main_v35 (ix3 b h d) = ix2 b (hd h d) from idx_heads b h d, val_main_v34_apply, val_main_v33_apply, val_main_cst_3_apply, val_main_v32_apply, val_main_v31_apply, val_main_cst_2_apply, val_main_v30_apply, val_main_v29_apply]
  rw [ref_lin_e]
  simp only [Ideal.hostDivf_def, Ideal.ofBits_def, Ideal.addf_def, Ideal.hostUnary_exp_def, Ideal.hostNegf_def, Ideal.negf_def,
    Ideal.ofBits_one_f32]
  rfl

/-- The add vector of batch row `b`, head `h`, entry `d`. -/
theorem ref_a_apply (x7 : (⟨S12416x384, .f32⟩ : BufTy).Contents (Elt Ideal)) (x8 : (⟨S384, .f32⟩ : BufTy).Contents (Elt Ideal)) (b : Fin 256) (h : Fin 6) (d : Fin 64) :
    Cert.ReferenceIdeal.Read.val_main_v46 (F := Ideal) x0 x2 x7 x8 (ix3 b h d) = A x0 x2 x7 x8 b h d := by
  rw [val_main_v46_apply, show idx_main_v46 (ix3 b h d) = ix2 b (hd h d) from idx_heads b h d, val_main_v45_apply, val_main_v44_apply, val_main_cst_5_apply, val_main_v43_apply, val_main_v42_apply, val_main_cst_4_apply, val_main_v41_apply, val_main_v40_apply]
  rw [ref_lin_a]
  simp only [Ideal.hostDivf_def, Ideal.ofBits_def, Ideal.addf_def, Ideal.hostUnary_exp_def, Ideal.hostNegf_def, Ideal.negf_def,
    Ideal.ofBits_one_f32]
  rfl

end Cert.RefValue

end
-- ==== Proof.PreGood.lean ====
/-
  From the precondition to the hypotheses of the bridge, one batch row at a time: the key's and the memory's entries are
  real numbers (finite sums and products of real inputs), and each key row and memory slot has a positive sum of squares
  (the precondition's two last conjuncts, whose sums are the reference's own).
-/
import proofs.«132960_j32220844655352_2_alg».proof.Proof.PreDecode
import proofs.«132960_j32220844655352_2_alg».proof.Proof.Bridge2
import proofs.«132960_j32220844655352_2_alg».proof.Proof.Ref.Gates

noncomputable section

namespace Cert.PreFacts

open Idealize.ShloMosaic Idealize.ShloMosaic.ValueIdx Cert.Ntm Cert.RefValue RealClosure
open Cert.ReferenceIdeal Cert.ReferenceIdeal.Gen Cert.ReferenceIdeal.Read

variable {a0 : FVec Ideal ⟨2, ![256, 128]⟩ .f32} {a1 : FVec Ideal ⟨3, ![256, 2048, 64]⟩ .f32} {a2 : FVec Ideal ⟨3, ![256, 6, 2048]⟩ .f32}
  {a3 : FVec Ideal ⟨2, ![12416, 384]⟩ .f32} {a4 : FVec Ideal ⟨1, ![384]⟩ .f32} {a5 : FVec Ideal ⟨2, ![12416, 384]⟩ .f32} {a6 : FVec Ideal ⟨1, ![384]⟩ .f32}
  {a7 : FVec Ideal ⟨2, ![12416, 384]⟩ .f32} {a8 : FVec Ideal ⟨1, ![384]⟩ .f32}

/-- The dense input row of a batch element is made of real numbers. -/
theorem X_real (D : Decoded a0 a1 a2 a3 a4 a5 a6 a7 a8) (b : Fin 256) (j : Fin 12416) : IsReal (X a0 a2 b j) := by
  unfold X xcat
  split
  · exact D.r2 _
  · exact D.r0 _

/-- The key of a batch element is made of real numbers. -/
theorem K_real (D : Decoded a0 a1 a2 a3 a4 a5 a6 a7 a8) (b : Fin 256) (h : Fin 6) (d : Fin 64) : IsReal (K a0 a2 a3 a4 b h d) := by
  unfold K lin
  exact (IsReal.sum_univ _ fun j => (X_real D b j).mul (D.r3 _)).add (D.r4 _)

/-- The precondition's key is the reference's. -/
theorem key_eq : key a0 a2 a3 a4 = val_main_v6 (F := Ideal) a0 a2 a3 a4 := rfl

theorem K_pos (D : Decoded a0 a1 a2 a3 a4 a5 a6 a7 a8) (b : Fin 256) (h : Fin 6) :
    0 < 0 + ∑ d : Fin 64, K a0 a2 a3 a4 b h d * K a0 a2 a3 a4 b h d := by
  have hp := D.kpos (ix2 b h)
  have e : Host.reduceAdd (mulf (key a0 a2 a3 a4) (key a0 a2 a3 a4)) (constant (F := Ideal) Cert.Pre_finite_inputs.S_ .f32 0x00000000#32)
      Cert.Pre_finite_inputs.Gen.reducesTo_S256x6x64_S256x6_d2 Cert.Pre_finite_inputs.Gen.h_S_ (ix2 b h)
      = val_main_call0_v1 (F := Ideal) a0 a2 a3 a4 (ix2 b h) := rfl
  rw [e, val_main_call0_v1_apply, val_main_call0_cst_apply] at hp
  have es : (∑ k : Fin 64, val_main_call0_v0 (F := Ideal) a0 a2 a3 a4 (idx_main_call0_v1 (ix2 b h) k))
      = ∑ k : Fin 64, K a0 a2 a3 a4 b h k * K a0 a2 a3 a4 b h k :=
    Finset.sum_congr rfl fun k _ => by
      have ek : idx_main_call0_v1 (ix2 b h) k = ix3 b h k :=
        funext fun a => Fin.ext (by match a with | ⟨0, _⟩ => rfl | ⟨1, _⟩ => rfl | ⟨2, _⟩ => rfl)
      rw [ek, val_main_call0_v0_apply, ref_k_apply]; rfl
  rw [es] at hp
  simpa only [Ideal.ofBits_def, Ideal.ofBits_zero_f32] using hp

theorem M_pos (D : Decoded a0 a1 a2 a3 a4 a5 a6 a7 a8) (b : Fin 256) (n : Fin 2048) :
    0 < 0 + ∑ d : Fin 64, MEM a1 b n d * MEM a1 b n d := by
  have hp := D.mpos (ix2 b n)
  have e : Host.reduceAdd (mulf a1 a1) (constant (F := Ideal) Cert.Pre_finite_inputs.S_ .f32 0x00000000#32)
      Cert.Pre_finite_inputs.Gen.reducesTo_S256x2048x64_S256x2048_d2 Cert.Pre_finite_inputs.Gen.h_S_ (ix2 b n)
      = val_main_call1_v1 (F := Ideal) a1 (ix2 b n) := rfl
  rw [e, val_main_call1_v1_apply, val_main_call1_cst_apply] at hp
  have es : (∑ k : Fin 64, val_main_call1_v0 (F := Ideal) a1 (idx_main_call1_v1 (ix2 b n) k))
      = ∑ k : Fin 64, MEM a1 b n k * MEM a1 b n k :=
    Finset.sum_congr rfl fun k _ => by
      have ek : idx_main_call1_v1 (ix2 b n) k = ix3 b n k :=
        funext fun a => Fin.ext (by match a with | ⟨0, _⟩ => rfl | ⟨1, _⟩ => rfl | ⟨2, _⟩ => rfl)
      rw [ek, val_main_call1_v0_apply]; rfl
  rw [es] at hp
  simpa only [Ideal.ofBits_def, Ideal.ofBits_zero_f32] using hp

/-- The hypotheses of the bridge hold of every batch row. -/
theorem good (D : Decoded a0 a1 a2 a3 a4 a5 a6 a7 a8) (b : Fin 256) : Good (K a0 a2 a3 a4 b) (MEM a1 b) where
  kr := K_real D b
  mr := fun n d => D.r1 _
  kp := K_pos D b
  mp := M_pos D b

end Cert.PreFacts

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.KI.Pay0.lean ====
/-
  The projection region's output block, entry by entry: the block written at a grid point is the product of the
  staged input rows with the staged 128-column weight tile, plus the staged bias tile's one row repeated down the
  256 rows. Entry (r, q) is the sum over the 12416 input positions j of x(r, j) · w(j, q), plus b(0, q).
-/
import proofs.«132960_j32220844655352_2_alg».proof.Proof.KI.Defs0
import proofs.«132960_j32220844655352_2_alg».proof.Proof.LibMatProd
import proofs.«132960_j32220844655352_2_alg».proof.Proof.LibDot2
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The rank-2 zero offsets, as the constant function. -/
theorem off2_zero : (![0, 0] : Fin 2 → Nat) = fun _ => 0 := funext fun a => by fin_cases a <;> rfl

/-- The body's arithmetic at an entry: the casts onto the same shape change nothing, the matrix unit's product onto
    the zero accumulator is the entry of the product, the bias row is repeated down the rows. -/
theorem pay0_apply (x0 : FVec Ideal S256x12416 .f32) (x1 : FVec Ideal S12416x128 .f32) (x2 : FVec Ideal S1x128 .f32)
    (r : Fin 256) (q : Fin 128) :
    k0_pay1 (F := Ideal) x0 x1 x2 (ix2 r q)
      = (∑ j : Fin 12416, x0 (ix2 r j) * x1 (ix2 j q)) + x2 (ix2 (0 : Fin 1) q) := by
  unfold k0_pay1
  simp only [shapeCast_self]
  refine (addf_apply _ _ (ix2 r q)).trans ?_
  have hrk : dot_S256x12416_S12416x128_S256x128_1_0_0_1_n_n.contr.rank = 1 :=
    Dot2.rank_contr dot_S256x12416_S12416x128_S256x128_1_0_0_1_n_n rfl
  have h0 : 0 < dot_S256x12416_S12416x128_S256x128_1_0_0_1_n_n.contr.rank := by omega
  refine congrArg₂ (· + ·) ?_ ?_
  · exact MatProd.matmul_zero_entry dot_S256x12416_S12416x128_S256x128_1_0_0_1_n_n none hrk
      (Dot2.size_contr _ rfl _)
      (Dot2.lhs0 _ rfl rfl) (Dot2.lhs1 _ rfl _) (Dot2.rhs0 _ rfl _) (Dot2.rhs1 _ rfl rfl rfl rfl)
      x0 x1 r q
  · exact broadcastTo_1b_ab_apply x2 broadcasts_S1x128_S256x128 r q

/-- The output window's staging buffer after the body, at entry (r, q). -/
theorem out0_3_apply (x0 : FVec Ideal S256x12416 .f32) (x1 : FVec Ideal S12416x128 .f32) (x2 : FVec Ideal S1x128 .f32)
    (r : Fin 256) (q : Fin 128) :
    out0_3 (F := Ideal) x0 x1 x2 (ix2 r q)
      = (∑ j : Fin 12416, x0 (ix2 r j) * x1 (ix2 j q)) + x2 (ix2 (0 : Fin 1) q) := by
  unfold out0_3
  rw [View.canon_unit_zero off2_zero]
  rw [View.ld_unit_zero (S := S256x12416) off2_zero, View.ld_unit_zero (S := S12416x128) off2_zero,
    View.ld_unit_zero (S := S1x128) off2_zero]
  exact pay0_apply x0 x1 x2 r q

end Cert.KernelIdeal.Hand

end
-- ==== Proof.KI.Val0.lean ====
/-
  The projection region's output array, entry by entry. The region writes the [256, 1152] array in nine column tiles
  of 128; tile t is the product of the whole [256, 12416] input with column tile t of the [12416, 1152] weights, plus
  column tile t of the [1, 1152] bias row. So after the region, entry (b, q) of the array is the sum over the 12416
  input positions j of x(b, j) · w(j, q), plus bias(0, q): the tile holding column q is q / 128, and inside a tile a
  column sits at 128 · t + its position in the tile.
-/
import proofs.«132960_j32220844655352_2_alg».proof.Proof.KI.Fold
import proofs.«132960_j32220844655352_2_alg».proof.Proof.KI.Pay0
import proofs.«132960_j32220844655352_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Entry by entry: the rows of `A1` against the columns of `A2`, plus the one row of `A4`. -/
def proj (A1 : S256x12416.Idx → EReal) (A2 : S12416x1152.Idx → EReal) (A4 : S1x1152.Idx → EReal) :
    S256x1152.Idx → EReal := fun i =>
  (∑ j : Fin 12416, A1 (ix2 ⟨(i 0).val, idx2_lt0 i⟩ j) * A2 (ix2 j ⟨(i 1).val, idx2_lt1 i⟩))
    + A4 (ix2 (0 : Fin 1) ⟨(i 1).val, idx2_lt1 i⟩)

theorem proj_ix2 (A1 : S256x12416.Idx → EReal) (A2 : S12416x1152.Idx → EReal) (A4 : S1x1152.Idx → EReal)
    (b : Fin 256) (q : Fin 1152) :
    proj A1 A2 A4 (ix2 b q) = (∑ j : Fin 12416, A1 (ix2 b j) * A2 (ix2 j q)) + A4 (ix2 (0 : Fin 1) q) := rfl

/-- The same at an index known by its two coordinates. -/
theorem proj_of_coords (A1 : S256x12416.Idx → EReal) (A2 : S12416x1152.Idx → EReal) (A4 : S1x1152.Idx → EReal)
    (i : S256x1152.Idx) (b : Fin 256) (q : Fin 1152) (h0 : (i 0).val = b.val) (h1 : (i 1).val = q.val) :
    proj A1 A2 A4 i = (∑ j : Fin 12416, A1 (ix2 b j) * A2 (ix2 j q)) + A4 (ix2 (0 : Fin 1) q) := by
  obtain rfl : i = ix2 b q := funext fun a => Fin.ext (by
    match a with
    | ⟨0, _⟩ => exact h0
    | ⟨1, _⟩ => exact h1)
  rfl

/-- The block indices of the four windows at grid point `t`: the input is one block; the weights, the bias and the
    output move along their columns with the point. -/
theorem idx0 : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem lt_N0 (t : Fin cfg0.N) : t.val < 9 := lt_of_lt_of_eq t.isLt N_0

/-- Column `q` of tile `t`, as a column of the 1152. -/
def col0 (t : Fin cfg0.N) (q : Fin 128) : Fin 1152 := ⟨t.val * 128 + q.val, by have := lt_N0 t; have := q.isLt; omega⟩

variable (V : (c : Dev nD) → (b : Ref sig .tc) → Buf (Elt Ideal) ((c : Thread nD τ).loc b))

/-- The input's block at any point is the whole input. -/
theorem blk0_0 (c : Dev nD) (t : Fin cfg0.N) (r : Fin 256) (j : Fin 12416) :
    (iblk0 V c 0 t : S256x12416.Idx → EReal) (ix2 r j) = (V c main_v1 : S256x12416.Idx → EReal) (ix2 r j) := by
  obtain ⟨e0, e1, -⟩ := idx0 t
  unfold iblk0
  rw [View.read_apply]
  show (V c main_v1 : S256x12416.Idx → EReal) _ = _
  refine congrArg (V c main_v1 : S256x12416.Idx → EReal) (funext fun a => Fin.ext ?_)
  match a with
  | ⟨0, _⟩ => show win0_0.index t (0 : Fin 2) * 256 + 1 * r.val = r.val; rw [e0]; omega
  | ⟨1, _⟩ => show win0_0.index t (1 : Fin 2) * 12416 + 1 * j.val = j.val; rw [e1]; omega

/-- The weights' block at point `t` is column tile `t`. -/
theorem blk0_1 (c : Dev nD) (t : Fin cfg0.N) (j : Fin 12416) (q : Fin 128) :
    (iblk0 V c 1 t : S12416x128.Idx → EReal) (ix2 j q) = (V c main_v2 : S12416x1152.Idx → EReal) (ix2 j (col0 t q)) := by
  obtain ⟨-, -, e0, e1, -⟩ := idx0 t
  unfold iblk0
  rw [View.read_apply]
  show (V c main_v2 : S12416x1152.Idx → EReal) _ = _
  refine congrArg (V c main_v2 : S12416x1152.Idx → EReal) (funext fun a => Fin.ext ?_)
  match a with
  | ⟨0, _⟩ => show win0_1.index t (0 : Fin 2) * 12416 + 1 * j.val = j.val; rw [e0]; omega
  | ⟨1, _⟩ => show win0_1.index t (1 : Fin 2) * 128 + 1 * q.val = t.val * 128 + q.val; rw [e1]; omega

/-- The bias row's block at point `t` is column tile `t`. -/
theorem blk0_2 (c : Dev nD) (t : Fin cfg0.N) (q : Fin 128) :
    (iblk0 V c 2 t : S1x128.Idx → EReal) (ix2 (0 : Fin 1) q) = (V c main_v4 : S1x1152.Idx → EReal) (ix2 (0 : Fin 1) (col0 t q)) := by
  obtain ⟨-, -, -, -, e0, e1, -⟩ := idx0 t
  unfold iblk0
  rw [View.read_apply]
  show (V c main_v4 : S1x1152.Idx → EReal) _ = _
  refine congrArg (V c main_v4 : S1x1152.Idx → EReal) (funext fun a => Fin.ext ?_)
  match a with
  | ⟨0, _⟩ => show win0_2.index t (0 : Fin 2) * 1 + 1 * 0 = 0; rw [e0]
  | ⟨1, _⟩ => show win0_2.index t (1 : Fin 2) * 128 + 1 * q.val = t.val * 128 + q.val; rw [e1]; omega

/-- What point `t` writes back is column tile `t` of the whole-array function. -/
theorem flushed5 (c : Dev nD) (t : Fin cfg0.N) :
    (dat0 V c).flushed 3 t
      = ((cfg0.win 3).blk t).view.read (Elt Ideal) (proj (V c main_v1) (V c main_v2) (V c main_v4)) := by
  obtain ⟨-, -, -, -, -, -, e0, e1⟩ := idx0 t
  show (cfg0.win 3).cut (grid0.coords t) ((dat0 V c).after 3 t) = _
  rw [after0_3]
  funext y
  have hy0 : (y 0).val < 256 := (y 0).isLt
  have hy1 : (y 1).val < 128 := (y 1).isLt
  rw [View.read_apply]
  have hx : (cfg0.win 3).xinj (grid0.coords t) y = ix2 ⟨(y 0).val, hy0⟩ ⟨(y 1).val, hy1⟩ :=
    funext fun a => Fin.ext (by match a with | ⟨0, _⟩ => rfl | ⟨1, _⟩ => rfl)
  show out0_3 (iblk0 V c 0 t) (iblk0 V c 1 t) (iblk0 V c 2 t) ((cfg0.win 3).xinj (grid0.coords t) y)
    = proj (V c main_v1) (V c main_v2) (V c main_v4) (((cfg0.win 3).blk t).view.emb y)
  rw [hx]
  refine ((out0_3_apply (iblk0 V c 0 t) (iblk0 V c 1 t) (iblk0 V c 2 t) ⟨(y 0).val, hy0⟩ ⟨(y 1).val, hy1⟩).trans ?_).trans
    (proj_of_coords (V c main_v1) (V c main_v2) (V c main_v4) (((cfg0.win 3).blk t).view.emb y)
      ⟨(y 0).val, hy0⟩ (col0 t ⟨(y 1).val, hy1⟩) ?_ ?_).symm
  · exact congrArg₂ (· + ·)
      (Finset.sum_congr rfl fun j _ => congrArg₂ (· * ·) (blk0_0 V c t ⟨(y 0).val, hy0⟩ j) (blk0_1 V c t j ⟨(y 1).val, hy1⟩))
      (blk0_2 V c t ⟨(y 1).val, hy1⟩)
  · show win0_3.index t (0 : Fin 2) * 256 + 1 * (y 0).val = (y 0).val; rw [e0]; omega
  · show win0_3.index t (1 : Fin 2) * 128 + 1 * (y 1).val = t.val * 128 + (y 1).val; rw [e1]; omega

/-- An index of the array is in point `t`'s block iff each coordinate is in the block's range on its axis. -/
theorem mem_blk5 (t : Fin cfg0.N) (i : S256x1152.Idx) :
    i ∈ ((cfg0.win 3).blk t).view.set ↔ ∀ a : Fin 2, win0_3.index t a * S256x128.size a ≤ (i a).val
      ∧ (i a).val < win0_3.index t a * S256x128.size a + S256x128.size a := by
  show i ∈ ((View.whole main_v5).slice (win0_3.rect t)).set ↔ _
  rw [View.set_slice_whole, Rect.mem_set_unit]
  exact Iff.rfl

/-- Every entry of the array is in the tile of its column. -/
theorem cover5 (i : S256x1152.Idx) :
    ∃ t : Fin cfg0.N, (cfg0.win 3).flush t = true ∧ i ∈ ((cfg0.win 3).blk t).view.set := by
  have hi0 : (i 0).val < 256 := (i 0).isLt
  have hi1 : (i 1).val < 1152 := (i 1).isLt
  have hN : (i 1).val / 128 < cfg0.N := lt_of_lt_of_eq (by omega : (i 1).val / 128 < 9) N_0.symm
  obtain ⟨-, -, -, -, -, -, e0, e1⟩ := idx0 ⟨(i 1).val / 128, hN⟩
  have e1' : win0_3.index ⟨(i 1).val / 128, hN⟩ (1 : Fin 2) = (i 1).val / 128 := e1
  refine ⟨⟨(i 1).val / 128, hN⟩, flush0_3 _, ?_⟩
  rw [mem_blk5]
  intro a
  match a with
  | ⟨0, _⟩ =>
    show win0_3.index ⟨(i 1).val / 128, hN⟩ (0 : Fin 2) * 256 ≤ (i 0).val
      ∧ (i 0).val < win0_3.index ⟨(i 1).val / 128, hN⟩ (0 : Fin 2) * 256 + 256
    rw [e0]; omega
  | ⟨1, _⟩ =>
    show win0_3.index ⟨(i 1).val / 128, hN⟩ (1 : Fin 2) * 128 ≤ (i 1).val
      ∧ (i 1).val < win0_3.index ⟨(i 1).val / 128, hN⟩ (1 : Fin 2) * 128 + 128
    rw [e1']; omega

/-- The output array after the region. -/
theorem final5 (c : Dev nD) :
    (dat0 V c).arrAt 3 cfg0.N = proj (V c main_v1) (V c main_v2) (V c main_v4) :=
  (dat0 V c).arrAt_eq_of_cover 3 (proj (V c main_v1) (V c main_v2) (V c main_v4)) (fun t _ => flushed5 V c t) cover5

/-- After the projection region its output array is the whole-array function of the three arrays the region found. -/
theorem v5_eq (m : (ℓ : Loc nD τ sig) → Buf (Elt Ideal) ℓ) (c : Dev nD) :
    W2 (F := Ideal) m c (Proc.devRef .tc main_v5)
      = proj (V1 (F := Ideal) m c main_v1) (V1 (F := Ideal) m c main_v2) (V1 (F := Ideal) m c main_v4) :=
  (W2_arr m c 3).trans (final5 (V1 m) c)

/-- After the projection region, entry (b, q) of its output array: row b of the input against column q of the
    weights, plus the bias at q. -/
theorem v5_apply (m : (ℓ : Loc nD τ sig) → Buf (Elt Ideal) ℓ) (c : Dev nD) (b : Fin 256) (q : Fin 1152) :
    Cert.Ntm.c2 (n0 := 256) (n1 := 1152) (W2 (F := Ideal) m c (Proc.devRef .tc main_v5)) b q
      = (∑ j : Fin 12416, Cert.Ntm.c2 (n0 := 256) (n1 := 12416) (V1 (F := Ideal) m c main_v1) b j
            * Cert.Ntm.c2 (n0 := 12416) (n1 := 1152) (V1 (F := Ideal) m c main_v2) j q)
        + Cert.Ntm.c2 (n0 := 1) (n1 := 1152) (V1 (F := Ideal) m c main_v4) (0 : Fin 1) q :=
  (congrFun (v5_eq m c) (ix2 b q)).trans (proj_ix2 _ _ _ b q)

end Cert.KernelIdeal.Hand

end
-- ==== Proof.KI.Host0.lean ====
/-
  The first host stretch read at an index.

  Before the projection region the host builds its three operands. The dense input row of batch element b is the six
  rows of previous weights laid end to end (a reshape of [256, 6, 2048] to [256, 12288]: position j is head j / 2048,
  slot j % 2048) followed by the 128 inputs. The weight matrix is the three projection matrices side by side, and the
  bias row the three bias vectors end to end, viewed as one row.
-/
import proofs.«132960_j32220844655352_2_alg».proof.Proof.KI.Fold
import proofs.«132960_j32220844655352_2_alg».proof.Proof.Spec
import Idealize.ShloMosaic.Lib.Pipeline.Value
import Idealize.ShloMosaic.Lib.ValueIdx
import proofs.«132960_j32220844655352_2_alg».proof.Proof.LibConcatCols

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

/-! ## The layout facts, over arbitrary arrays -/

/-- The previous weights flattened per batch row, then the inputs. -/
theorem xcat_apply (W : S256x6x2048.Idx → EReal) (I : S256x128.Idx → EReal) (b : Fin 256) (j : Fin 12416) :
    concatenate S256x12416 1
        [⟨S256x12288, shapeCast S256x12288 W shapeCasts_S256x6x2048_S256x12288⟩, ⟨S256x128, I⟩]
        concatenates_S256x12288_S256x128_S256x12416_d1 (ix2 b j)
      = Cert.Ntm.xcat (fun h n => W (ix3 b h n)) (fun i => I (ix2 b i)) j := by
  unfold Cert.Ntm.xcat
  by_cases hj : j.val < 12288
  · rw [dif_pos hj]
    refine (ConcatCols.left (n := 256) (a := 12288) (b := 128) (c := 12416) _ I
      concatenates_S256x12288_S256x128_S256x12416_d1 (ix2 b j) b ⟨j.val, hj⟩ rfl rfl).trans ?_
    exact shapeCast_apply W _ _ _ (by
      rw [Shape.rowMajor_val_three, Shape.rowMajor_val_two]
      show (b.val * 6 + j.val / 2048) * 2048 + j.val % 2048 = b.val * 12288 + j.val
      omega)
  · rw [dif_neg hj]
    have hj' := j.isLt
    exact ConcatCols.right (n := 256) (a := 12288) (b := 128) (c := 12416) _ I
      concatenates_S256x12288_S256x128_S256x12416_d1 (ix2 b j) b ⟨j.val - 12288, by omega⟩ rfl
      (by show j.val = 12288 + (j.val - 12288); omega)

/-- Three matrices of 384 columns side by side. -/
theorem cat3_cols_apply {α : Type} (x0 x1 x2 : S12416x384.Idx → α) (j : Fin 12416) (q : Fin 1152) :
    concatenate S12416x1152 1 [⟨S12416x384, x0⟩, ⟨S12416x384, x1⟩, ⟨S12416x384, x2⟩]
        concatenates_S12416x384_S12416x384_S12416x384_S12416x1152_d1 (ix2 j q)
      = Cert.Ntm.cat3 (fun q' => x0 (ix2 j q')) (fun q' => x1 (ix2 j q')) (fun q' => x2 (ix2 j q')) q := by
  unfold Cert.Ntm.cat3
  have hq := q.isLt
  have hoff : ∀ (q' : Fin 384) (b : Fin 2), Fin.cast (rfl : S12416x384.rank = S12416x1152.rank) b ≠ (1 : Fin 2) →
      ((ix2 j q' : S12416x384.Idx) b).val = ((ix2 j q : S12416x1152.Idx) (Fin.cast rfl b)).val := fun q' b hb => by
    match b, hb with
    | ⟨0, _⟩, _ => rfl
    | ⟨1, _⟩, hb => exact absurd rfl hb
  by_cases h0 : q.val < 384
  · rw [dif_pos h0]
    exact concatenate_apply_piece (t := S12416x1152) (1 : Fin 2) _ _ (ix2 j q) 0 (by show 0 < 3; decide) S12416x384 x0 rfl rfl 0 rfl
      (ix2 j ⟨q.val, h0⟩) (hoff _) (by show 0 + q.val = q.val; omega)
  · rw [dif_neg h0]
    by_cases h1 : q.val < 768
    · rw [dif_pos h1]
      exact concatenate_apply_piece (t := S12416x1152) (1 : Fin 2) _ _ (ix2 j q) 1 (by show 1 < 3; decide) S12416x384 x1 rfl rfl 384 rfl
        (ix2 j ⟨q.val - 384, by omega⟩) (hoff _) (by show 384 + (q.val - 384) = q.val; omega)
    · rw [dif_neg h1]
      exact concatenate_apply_piece (t := S12416x1152) (1 : Fin 2) _ _ (ix2 j q) 2 (by show 2 < 3; decide) S12416x384 x2 rfl rfl 768 rfl
        (ix2 j ⟨q.val - 768, by omega⟩) (hoff _) (by show 768 + (q.val - 768) = q.val; omega)

/-- Three vectors of 384 entries end to end, as one row. -/
theorem cat3_row_apply {α : Type} (x0 x1 x2 : S384.Idx → α) (q : Fin 1152) :
    shapeCast S1x1152
        (concatenate S1152 0 [⟨S384, x0⟩, ⟨S384, x1⟩, ⟨S384, x2⟩] concatenates_S384_S384_S384_S1152_d0)
        shapeCasts_S1152_S1x1152 (ix2 (0 : Fin 1) q)
      = Cert.Ntm.cat3 (fun q' => x0 (ix1 q')) (fun q' => x1 (ix1 q')) (fun q' => x2 (ix1 q')) q := by
  refine (shapeCast_apply _ shapeCasts_S1152_S1x1152 (ix2 (0 : Fin 1) q) (ix1 q) (by
    rw [Shape.rowMajor_val_one, Shape.rowMajor_val_two]
    show q.val = 0 * 1152 + q.val
    omega)).trans ?_
  unfold Cert.Ntm.cat3
  have hq := q.isLt
  have hoff : ∀ (q' : Fin 384) (b : Fin 1), Fin.cast (rfl : S384.rank = S1152.rank) b ≠ (0 : Fin 1) →
      ((ix1 q' : S384.Idx) b).val = ((ix1 q : S1152.Idx) (Fin.cast rfl b)).val := fun q' b hb => by
    match b, hb with
    | ⟨0, _⟩, hb => exact absurd rfl hb
  by_cases h0 : q.val < 384
  · rw [dif_pos h0]
    exact concatenate_apply_piece (t := S1152) (0 : Fin 1) _ _ (ix1 q) 0 (by show 0 < 3; decide) S384 x0 rfl rfl 0 rfl
      (ix1 ⟨q.val, h0⟩) (hoff _) (by show 0 + q.val = q.val; omega)
  · rw [dif_neg h0]
    by_cases h1 : q.val < 768
    · rw [dif_pos h1]
      exact concatenate_apply_piece (t := S1152) (0 : Fin 1) _ _ (ix1 q) 1 (by show 1 < 3; decide) S384 x1 rfl rfl 384 rfl
        (ix1 ⟨q.val - 384, by omega⟩) (hoff _) (by show 384 + (q.val - 384) = q.val; omega)
    · rw [dif_neg h1]
      exact concatenate_apply_piece (t := S1152) (0 : Fin 1) _ _ (ix1 q) 2 (by show 2 < 3; decide) S384 x2 rfl rfl 768 rfl
        (ix1 ⟨q.val - 768, by omega⟩) (hoff _) (by show 768 + (q.val - 768) = q.val; omega)

/-! ## A three-operand operation's result, each operand at its own buffer -/

theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- The host operations' results, outermost first, a three-operand one by `nary3_result`. -/
macro "host_results3" : tactic =>
  `(tactic| (simp only [StableHlo.after_cons, StableHlo.after_nil]
             repeat (first
               | rw [StableHlo.unary_result] | rw [StableHlo.binary_result] | rw [StableHlo.reshape_result]
               | rw [nary3_result]
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-! ## The projection region's three operands -/

variable (m : (ℓ : Loc nD τ sig) → Buf (Elt Ideal) ℓ) (c : Dev nD)

theorem v1_eq :
    (V1 (F := Ideal) m c main_v1 : S256x12416.Idx → EReal)
      = concatenate S256x12416 1
          [⟨S256x12288, shapeCast S256x12288 (m ((c : Thread nD τ).loc main_arg2) : S256x6x2048.Idx → EReal)
              shapeCasts_S256x6x2048_S256x12288⟩,
           ⟨S256x128, (m ((c : Thread nD τ).loc main_arg0) : S256x128.Idx → EReal)⟩]
          concatenates_S256x12288_S256x128_S256x12416_d1 := by
  show StableHlo.after hostOps0 (W0 m c) (Proc.devRef .tc main_v1) = _
  host_results3
  rfl

theorem v1_apply (b : Fin 256) (j : Fin 12416) :
    (V1 (F := Ideal) m c main_v1 : S256x12416.Idx → EReal) (ix2 b j)
      = Cert.Ntm.xcat (fun h n => (m ((c : Thread nD τ).loc main_arg2) : S256x6x2048.Idx → EReal) (ix3 b h n))
          (fun i => (m ((c : Thread nD τ).loc main_arg0) : S256x128.Idx → EReal) (ix2 b i)) j := by
  rw [v1_eq]
  exact xcat_apply _ _ b j

theorem v2_eq :
    (V1 (F := Ideal) m c main_v2 : S12416x1152.Idx → EReal)
      = concatenate S12416x1152 1
          [⟨S12416x384, (m ((c : Thread nD τ).loc main_arg3) : S12416x384.Idx → EReal)⟩,
           ⟨S12416x384, (m ((c : Thread nD τ).loc main_arg5) : S12416x384.Idx → EReal)⟩,
           ⟨S12416x384, (m ((c : Thread nD τ).loc main_arg7) : S12416x384.Idx → EReal)⟩]
          concatenates_S12416x384_S12416x384_S12416x384_S12416x1152_d1 := by
  show StableHlo.after hostOps0 (W0 m c) (Proc.devRef .tc main_v2) = _
  host_results3
  rfl

theorem v2_apply (j : Fin 12416) (q : Fin 1152) :
    (V1 (F := Ideal) m c main_v2 : S12416x1152.Idx → EReal) (ix2 j q)
      = Cert.Ntm.cat3 (fun q' => (m ((c : Thread nD τ).loc main_arg3) : S12416x384.Idx → EReal) (ix2 j q'))
          (fun q' => (m ((c : Thread nD τ).loc main_arg5) : S12416x384.Idx → EReal) (ix2 j q'))
          (fun q' => (m ((c : Thread nD τ).loc main_arg7) : S12416x384.Idx → EReal) (ix2 j q')) q := by
  rw [v2_eq]
  exact cat3_cols_apply _ _ _ j q

theorem v4_eq :
    (V1 (F := Ideal) m c main_v4 : S1x1152.Idx → EReal)
      = shapeCast S1x1152
          (concatenate S1152 0
            [⟨S384, (m ((c : Thread nD τ).loc main_arg4) : S384.Idx → EReal)⟩,
             ⟨S384, (m ((c : Thread nD τ).loc main_arg6) : S384.Idx → EReal)⟩,
             ⟨S384, (m ((c : Thread nD τ).loc main_arg8) : S384.Idx → EReal)⟩]
            concatenates_S384_S384_S384_S1152_d0)
          shapeCasts_S1152_S1x1152 := by
  show StableHlo.after hostOps0 (W0 m c) (Proc.devRef .tc main_v4) = _
  host_results3
  rfl

theorem v4_apply (q : Fin 1152) :
    (V1 (F := Ideal) m c main_v4 : S1x1152.Idx → EReal) (ix2 (0 : Fin 1) q)
      = Cert.Ntm.cat3 (fun q' => (m ((c : Thread nD τ).loc main_arg4) : S384.Idx → EReal) (ix1 q'))
          (fun q' => (m ((c : Thread nD τ).loc main_arg6) : S384.Idx → EReal) (ix1 q'))
          (fun q' => (m ((c : Thread nD τ).loc main_arg8) : S384.Idx → EReal) (ix1 q')) q := by
  rw [v4_eq]
  exact cat3_row_apply _ _ _ q

end Cert.KernelIdeal.Hand

end
-- ==== Proof.KI.Host1a.lean ====
/-
  The second host stretch read at an index: what the host makes of the projection's output before the memory update.

  The projection region leaves y = x · [Wk | We | Wa] + [bk | be | ba], 1152 columns per batch row: columns 0..383 are
  the six keys of 64 entries, columns 384..767 the erase pre-activations, columns 768..1151 the add pre-activations
  (head h, entry d at column 64 h + d of its third). The host cuts the three thirds out, views each as [256, 6, 64],
  scales every key by the reciprocal square root of its sum of squares, and applies the logistic function
  1 / (1 + exp (-t)) entrywise to the other two.
-/
import proofs.«132960_j32220844655352_2_alg».proof.Proof.KI.Fold
import proofs.«132960_j32220844655352_2_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

/-! ## The host's two chains as functions of the projection's output -/

section Chains
variable {F : FTy → Type} [FloatOps F]

/-- A third of the columns, starting at column `o`, head by head. -/
def hostThird (o : ℕ) (hs : S256x1152.Slices ![0, o] S256x384) (y : FVec F S256x1152 .f32) : FVec F S256x6x64 .f32 :=
  shapeCast S256x6x64 (extractStridedSlice S256x384 ![0, o] y hs) shapeCasts_S256x384_S256x6x64

/-- The logistic function of a third of the columns, head by head. -/
def hostSigm (o : ℕ) (hs : S256x1152.Slices ![0, o] S256x384) (y : FVec F S256x1152 .f32) : FVec F S256x6x64 .f32 :=
  shapeCast S256x6x64
    (Host.divf (broadcastInDim S256x384 ![] bcast_S_S256x384 (constant S_ .f32 0x3F800000#32))
      (addf (broadcastInDim S256x384 ![] bcast_S_S256x384 (constant S_ .f32 0x3F800000#32))
        (Host.exp (Host.negf (extractStridedSlice S256x384 ![0, o] y hs)))))
    shapeCasts_S256x384_S256x6x64

/-- Every key scaled by the reciprocal square root of its sum of squares. -/
def hostKeyN (y : FVec F S256x1152 .f32) : FVec F S256x6x64 .f32 :=
  mulf (hostThird 0 slices_S256x1152_S256x384_0_0 y)
    (broadcastInDim S256x6x64 ![0, 1, 2] bcast_S256x6x1_S256x6x64_0_1_2
      (Host.rsqrt (broadcastInDim S256x6x1 ![0, 1] bcast_S256x6_S256x6x1_0_1
        (Host.reduceAdd
          (mulf (hostThird 0 slices_S256x1152_S256x384_0_0 y) (hostThird 0 slices_S256x1152_S256x384_0_0 y))
          (constant S_ .f32 0x00000000#32) reducesTo_S256x6x64_S256x6_d2 h_S_))))

end Chains

/-! ## The chains at an index, over an arbitrary projection output -/

/-- A row of 384 viewed as 6 heads of 64: head `h`, entry `d` is position `64 h + d`. -/
theorem heads_apply {α : Type} (x : S256x384.Idx → α) (b : Fin 256) (h : Fin 6) (d : Fin 64) :
    shapeCast S256x6x64 x shapeCasts_S256x384_S256x6x64 (ix3 b h d) = x (ix2 b (Cert.Ntm.hd h d)) :=
  shapeCast_apply x _ _ _ (by
    rw [Shape.rowMajor_val_two, Shape.rowMajor_val_three]
    show b.val * 384 + (64 * h.val + d.val) = (b.val * 6 + h.val) * 64 + d.val
    omega)

/-- Columns `o .. o + 383` at position `q`: column `o + q`. -/
theorem third_apply {α : Type} (o : ℕ) (hs : S256x1152.Slices ![0, o] S256x384) (y : S256x1152.Idx → α)
    (b : Fin 256) (q : Fin 384) (k : Fin 1152) (hk : k.val = o + q.val) :
    extractStridedSlice S256x384 ![0, o] y hs (ix2 b q) = y (ix2 b k) :=
  extractStridedSlice_apply _ y hs _ _ (fun ax => by
    match ax with
    | ⟨0, _⟩ => show b.val = 0 + b.val; omega
    | ⟨1, _⟩ => exact hk)

theorem hostThird_apply (o : ℕ) (hs : S256x1152.Slices ![0, o] S256x384) (y : S256x1152.Idx → EReal)
    (b : Fin 256) (h : Fin 6) (d : Fin 64) (k : Fin 1152) (hk : k.val = o + (64 * h.val + d.val)) :
    hostThird (F := Ideal) o hs y (ix3 b h d) = y (ix2 b k) := by
  unfold hostThird
  exact (heads_apply _ b h d).trans (third_apply o hs y b (Cert.Ntm.hd h d) k hk)

/-- The scalar one, broadcast, is one everywhere. -/
theorem one_apply (j : S256x384.Idx) :
    broadcastInDim S256x384 ![] bcast_S_S256x384 (constant (F := Ideal) S_ .f32 0x3F800000#32) j = 1 :=
  (broadcastInDim_apply _ bcast_S_S256x384 (constant (F := Ideal) S_ .f32 0x3F800000#32) j ix0 (fun a => a.elim0)).trans
    Ideal.ofBits_one_f32

theorem hostSigm_apply (o : ℕ) (hs : S256x1152.Slices ![0, o] S256x384) (y : S256x1152.Idx → EReal)
    (b : Fin 256) (h : Fin 6) (d : Fin 64) (k : Fin 1152) (hk : k.val = o + (64 * h.val + d.val)) :
    hostSigm (F := Ideal) o hs y (ix3 b h d) = Cert.Ntm.sigm (y (ix2 b k)) := by
  unfold hostSigm
  refine (heads_apply _ b h d).trans ?_
  show Ideal.div
      (broadcastInDim S256x384 ![] bcast_S_S256x384 (constant (F := Ideal) S_ .f32 0x3F800000#32) (ix2 b (Cert.Ntm.hd h d)))
      (broadcastInDim S256x384 ![] bcast_S_S256x384 (constant (F := Ideal) S_ .f32 0x3F800000#32) (ix2 b (Cert.Ntm.hd h d))
        + Ideal.exp (-(extractStridedSlice S256x384 ![0, o] y hs (ix2 b (Cert.Ntm.hd h d))))) = _
  rw [one_apply, third_apply o hs y b (Cert.Ntm.hd h d) k hk]
  rfl

/-- The host's sum over the last of three axes, at coordinates. -/
theorem hostSum_last {a b c : ℕ} (x : (⟨3, ![a, b, c]⟩ : Shape).Idx → EReal) (init : EReal)
    (h' : (⟨3, ![a, b, c]⟩ : Shape).ReducesTo [2] ⟨2, ![a, b]⟩) (h : (⟨3, ![a, b, c]⟩ : Shape).Reduces [2] ⟨2, ![a, b]⟩)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun ax => Fin.ext (by
      match ax with | ⟨0, _⟩ => rfl | ⟨1, _⟩ => rfl | ⟨2, _⟩ => rfl))))

theorem hostKeyN_apply (y : S256x1152.Idx → EReal) (b : Fin 256) (h : Fin 6) (d : Fin 64) :
    hostKeyN (F := Ideal) y (ix3 b h d)
      = y (ix2 b ⟨64 * h.val + d.val, by have := h.isLt; have := d.isLt; omega⟩)
        * Ideal.rsqrt (0 + ∑ d' : Fin 64,
            y (ix2 b ⟨64 * h.val + d'.val, by have := h.isLt; have := d'.isLt; omega⟩)
              * y (ix2 b ⟨64 * h.val + d'.val, by have := h.isLt; have := d'.isLt; omega⟩)) := by
  have key : ∀ d' : Fin 64, hostThird (F := Ideal) 0 slices_S256x1152_S256x384_0_0 y (ix3 b h d')
      = y (ix2 b ⟨64 * h.val + d'.val, by have := h.isLt; have := d'.isLt; omega⟩) := fun d' =>
    hostThird_apply 0 _ y b h d' _ (by show 64 * h.val + d'.val = 0 + (64 * h.val + d'.val); omega)
  unfold hostKeyN
  rw [mulf_apply, key d]
  refine congrArg (y _ * ·) ?_
  -- the reciprocal root, constant along each key
  refine (broadcastInDim_apply _ bcast_S256x6x1_S256x6x64_0_1_2 _ (ix3 b h d) (ix3 b h (0 : Fin 1)) (fun a => by
    match a with
    | ⟨0, _⟩ => rfl
    | ⟨1, _⟩ => rfl
    | ⟨2, _⟩ => rfl)).trans ?_
  show Ideal.rsqrt _ = Ideal.rsqrt _
  refine congrArg Ideal.rsqrt ?_
  refine (broadcastInDim_apply _ bcast_S256x6_S256x6x1_0_1 _ (ix3 b h (0 : Fin 1)) (ix2 b h) (fun a => by
    match a with
    | ⟨0, _⟩ => rfl
    | ⟨1, _⟩ => rfl)).trans ?_
  -- the sum of squares
  refine (hostSum_last _ _ reducesTo_S256x6x64_S256x6_d2 (by decide) b h).trans ?_
  show Ideal.ofBits .f32 0x00000000#32 + _ = _
  rw [Ideal.ofBits_zero_f32]
  refine congrArg (0 + ·) (Finset.sum_congr rfl fun d' _ => ?_)
  rw [mulf_apply, key d']

/-! ## The memory-update region's first three operands -/

variable (m : (ℓ : Loc nD τ sig) → Buf (Elt Ideal) ℓ) (c : Dev nD)

theorem v29_eq :
    (V3 (F := Ideal) m c main_v29 : S256x6x64.Idx → EReal)
      = hostKeyN (F := Ideal) (W2 (F := Ideal) m c (Proc.devRef .tc main_v5) : S256x1152.Idx → EReal) := by
  show StableHlo.after hostOps1 (W2 m c) (Proc.devRef .tc main_v29) = _
  after_results_simp
  rfl

theorem v16_eq :
    (V3 (F := Ideal) m c main_v16 : S256x6x64.Idx → EReal)
      = hostSigm (F := Ideal) 384 slices_S256x1152_S256x384_0_384
          (W2 (F := Ideal) m c (Proc.devRef .tc main_v5) : S256x1152.Idx → EReal) := by
  show StableHlo.after hostOps1 (W2 m c) (Proc.devRef .tc main_v16) = _
  after_results_simp
  rfl

theorem v23_eq :
    (V3 (F := Ideal) m c main_v23 : S256x6x64.Idx → EReal)
      = hostSigm (F := Ideal) 768 slices_S256x1152_S256x384_0_768
          (W2 (F := Ideal) m c (Proc.devRef .tc main_v5) : S256x1152.Idx → EReal) := by
  show StableHlo.after hostOps1 (W2 m c) (Proc.devRef .tc main_v23) = _
  after_results_simp
  rfl

/-- The normalised keys, the projection's output named `Y`. -/
theorem v29_apply_of (Y : S256x1152.Idx → EReal)
    (hY : (W2 (F := Ideal) m c (Proc.devRef .tc main_v5) : S256x1152.Idx → EReal) = Y)
    (b : Fin 256) (h : Fin 6) (d : Fin 64) :
    (V3 (F := Ideal) m c main_v29 : S256x6x64.Idx → EReal) (ix3 b h d)
      = Y (ix2 b ⟨64 * h.val + d.val, by have := h.isLt; have := d.isLt; omega⟩)
        * Ideal.rsqrt (0 + ∑ d' : Fin 64,
            Y (ix2 b ⟨64 * h.val + d'.val, by have := h.isLt; have := d'.isLt; omega⟩)
              * Y (ix2 b ⟨64 * h.val + d'.val, by have := h.isLt; have := d'.isLt; omega⟩)) := by
  rw [v29_eq, hY]
  exact hostKeyN_apply Y b h d

/-- The normalised keys. -/
theorem v29_apply (b : Fin 256) (h : Fin 6) (d : Fin 64) :
    (V3 (F := Ideal) m c main_v29 : S256x6x64.Idx → EReal) (ix3 b h d)
      = Cert.Ntm.c2 (W2 (F := Ideal) m c (Proc.devRef .tc main_v5) : S256x1152.Idx → EReal) b
            ⟨64 * h.val + d.val, by have := h.isLt; have := d.isLt; omega⟩
        * Ideal.rsqrt (0 + ∑ d' : Fin 64,
            Cert.Ntm.c2 (W2 (F := Ideal) m c (Proc.devRef .tc main_v5) : S256x1152.Idx → EReal) b
                ⟨64 * h.val + d'.val, by have := h.isLt; have := d'.isLt; omega⟩
              * Cert.Ntm.c2 (W2 (F := Ideal) m c (Proc.devRef .tc main_v5) : S256x1152.Idx → EReal) b
                ⟨64 * h.val + d'.val, by have := h.isLt; have := d'.isLt; omega⟩) :=
  v29_apply_of m c _ rfl b h d

/-- The erase vectors, the projection's output named `Y`. -/
theorem v16_apply_of (Y : S256x1152.Idx → EReal)
    (hY : (W2 (F := Ideal) m c (Proc.devRef .tc main_v5) : S256x1152.Idx → EReal) = Y)
    (b : Fin 256) (h : Fin 6) (d : Fin 64) :
    (V3 (F := Ideal) m c main_v16 : S256x6x64.Idx → EReal) (ix3 b h d)
      = Cert.Ntm.sigm (Y (ix2 b ⟨384 + (64 * h.val + d.val), by have := h.isLt; have := d.isLt; omega⟩)) := by
  rw [v16_eq, hY]
  exact hostSigm_apply 384 _ Y b h d _ rfl

/-- The erase vectors. -/
theorem v16_apply (b : Fin 256) (h : Fin 6) (d : Fin 64) :
    (V3 (F := Ideal) m c main_v16 : S256x6x64.Idx → EReal) (ix3 b h d)
      = Cert.Ntm.sigm ((W2 (F := Ideal) m c (Proc.devRef .tc main_v5) : S256x1152.Idx → EReal)
          (ix2 b ⟨384 + (64 * h.val + d.val), by have := h.isLt; have := d.isLt; omega⟩)) :=
  v16_apply_of m c _ rfl b h d

/-- The add vectors, the projection's output named `Y`. -/
theorem v23_apply_of (Y : S256x1152.Idx → EReal)
    (hY : (W2 (F := Ideal) m c (Proc.devRef .tc main_v5) : S256x1152.Idx → EReal) = Y)
    (b : Fin 256) (h : Fin 6) (d : Fin 64) :
    (V3 (F := Ideal) m c main_v23 : S256x6x64.Idx → EReal) (ix3 b h d)
      = Cert.Ntm.sigm (Y (ix2 b ⟨768 + (64 * h.val + d.val), by have := h.isLt; have := d.isLt; omega⟩)) := by
  rw [v23_eq, hY]
  exact hostSigm_apply 768 _ Y b h d _ rfl

/-- The add vectors. -/
theorem v23_apply (b : Fin 256) (h : Fin 6) (d : Fin 64) :
    (V3 (F := Ideal) m c main_v23 : S256x6x64.Idx → EReal) (ix3 b h d)
      = Cert.Ntm.sigm ((W2 (F := Ideal) m c (Proc.devRef .tc main_v5) : S256x1152.Idx → EReal)
          (ix2 b ⟨768 + (64 * h.val + d.val), by have := h.isLt; have := d.isLt; omega⟩)) :=
  v23_apply_of m c _ rfl b h d

end Cert.KernelIdeal.Hand

end
-- ==== Proof.KI.Host1b.lean ====
/-
  The packed view of the memory argument.

  The memory-update region reads the memory argument [256, 2048, 64] through a reshape to [256, 1024, 128]: packed row p,
  lane l of batch row b is slot 2p + l / 64, entry l % 64, both being position 128 p + l of the batch row. No operation
  before that region writes the argument, so the view is of the launch contents.
-/
import proofs.«132960_j32220844655352_2_alg».proof.Proof.KI.Fold
import proofs.«132960_j32220844655352_2_alg».proof.Proof.Spec
import Idealize.ShloMosaic.Lib.Pipeline.Value
import Idealize.ShloMosaic.Lib.ValueIdx
import proofs.«132960_j32220844655352_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

/-- The slot-by-slot memory viewed in packed rows. -/
theorem pack_apply {α : Type} (M : S256x2048x64.Idx → α) (b : Fin 256) (p : Fin 1024) (l : Fin 128) :
    shapeCast S256x1024x128 M shapeCasts_S256x2048x64_S256x1024x128 (ix3 b p l)
      = M (ix3 b (Cert.Ntm.slotOf p l) (Cert.Ntm.lane64 l)) :=
  shapeCast_apply M _ _ _ (by
    rw [Shape.rowMajor_val_three, Shape.rowMajor_val_three]
    show (b.val * 2048 + (2 * p.val + l.val / 64)) * 64 + l.val % 64 = (b.val * 1024 + p.val) * 128 + l.val
    omega)

variable (m : (ℓ : Loc nD τ sig) → Buf (Elt Ideal) ℓ) (c : Dev nD)

/-- The projection region and the operations before it leave the memory argument as launched. -/
theorem W2_arg1 :
    W2 (F := Ideal) m c (Proc.devRef .tc main_arg1) = m ((c : Thread nD τ).loc main_arg1) := by
  rw [W2_of_ne m c main_arg1 (by decide)]
  exact StableHlo.after_of_writes_sub hostOps0 _ hostOps0_writes (by decide)

theorem v30_eq :
    (V3 (F := Ideal) m c main_v30 : S256x1024x128.Idx → EReal)
      = shapeCast S256x1024x128 (m ((c : Thread nD τ).loc main_arg1) : S256x2048x64.Idx → EReal)
          shapeCasts_S256x2048x64_S256x1024x128 := by
  show StableHlo.after hostOps1 (W2 m c) (Proc.devRef .tc main_v30) = _
  after_results_simp
  rw [W2_arg1]
  rfl

theorem v30_apply (b : Fin 256) (p : Fin 1024) (l : Fin 128) :
    (V3 (F := Ideal) m c main_v30 : S256x1024x128.Idx → EReal) (ix3 b p l)
      = (m ((c : Thread nD τ).loc main_arg1) : S256x2048x64.Idx → EReal)
          (ix3 b (Cert.Ntm.slotOf p l) (Cert.Ntm.lane64 l)) := by
  rw [v30_eq]
  exact pack_apply _ b p l

end Cert.KernelIdeal.Hand

end
-- ==== Proof.KI.Host2.lean ====
/-
  The last host stretch read at an index.

  The memory-update region leaves the new memory in the packed layout [256, 1024, 128] (two slots of 64 entries side by
  side in each packed row) and the new weights as two arrays [256, 6, 1024], one for the even slots and one for the odd
  slots. The host then views the packed memory as [256, 2048, 64] — slot n entry d is packed row n / 2, lane
  64 (n % 2) + d, because both are position 64 n + d of the batch row — and interleaves the two weight arrays: each gets a
  trailing unit axis, the two are joined along it, and the pair axis is merged into the slot axis, so slot n reads the
  even array at n / 2 when n is even and the odd array at n / 2 when n is odd.
-/
import proofs.«132960_j32220844655352_2_alg».proof.Proof.KI.Fold
import proofs.«132960_j32220844655352_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

/-! ## The two layout facts, over arbitrary arrays -/

/-- The packed memory viewed slot by slot. -/
theorem unpack_apply {α : Type} (N : S256x1024x128.Idx → α) (b : Fin 256) (n : Fin 2048) (d : Fin 64) :
    shapeCast S256x2048x64 N shapeCasts_S256x1024x128_S256x2048x64 (ix3 b n d)
      = N (ix3 b (Cert.Ntm.packRow n) (Cert.Ntm.packLane n d)) :=
  shapeCast_apply N _ _ _ (by
    rw [Shape.rowMajor_val_three, Shape.rowMajor_val_three]
    show (b.val * 1024 + n.val / 2) * 128 + (64 * (n.val % 2) + d.val) = (b.val * 2048 + n.val) * 64 + d.val
    omega)

/-- Two weight arrays interleaved along the slot axis. -/
theorem interleave_apply {α : Type} (L H : S256x6x1024.Idx → α) (b : Fin 256) (h : Fin 6) (n : Fin 2048) :
    shapeCast S256x6x2048
        (concatenate S256x6x1024x2 3
          [⟨S256x6x1024x1, broadcastInDim S256x6x1024x1 ![0, 1, 2] bcast_S256x6x1024_S256x6x1024x1_0_1_2 L⟩,
           ⟨S256x6x1024x1, broadcastInDim S256x6x1024x1 ![0, 1, 2] bcast_S256x6x1024_S256x6x1024x1_0_1_2 H⟩]
          concatenates_S256x6x1024x1_S256x6x1024x1_S256x6x1024x2_d3)
        shapeCasts_S256x6x1024x2_S256x6x2048 (ix3 b h n)
      = if n.val % 2 = 0 then L (ix3 b h (Cert.Ntm.packRow n)) else H (ix3 b h (Cert.Ntm.packRow n)) := by
  have hu : n.val % 2 < 2 := Nat.mod_lt _ (by decide)
  -- the merged slot axis: slot n is pair n / 2, member n % 2
  refine (shapeCast_apply _ shapeCasts_S256x6x1024x2_S256x6x2048 (ix3 b h n)
    (ix4 b h (Cert.Ntm.packRow n) (⟨n.val % 2, hu⟩ : Fin 2)) (by
      rw [Shape.rowMajor_val_four, Shape.rowMajor_val_three]
      show ((b.val * 6 + h.val) * 1024 + n.val / 2) * 2 + n.val % 2 = (b.val * 6 + h.val) * 2048 + n.val
      omega)).trans ?_
  -- a trailing unit axis read at its only position
  have hb : ∀ X : S256x6x1024.Idx → α,
      broadcastInDim S256x6x1024x1 ![0, 1, 2] bcast_S256x6x1024_S256x6x1024x1_0_1_2 X
        (ix4 b h (Cert.Ntm.packRow n) (0 : Fin 1)) = X (ix3 b h (Cert.Ntm.packRow n)) := fun X =>
    broadcastInDim_apply _ _ X _ _ (fun a => by
      match a with
      | ⟨0, _⟩ => rfl
      | ⟨1, _⟩ => rfl
      | ⟨2, _⟩ => rfl)
  by_cases h0 : n.val % 2 = 0
  · rw [if_pos h0]
    refine (concatenate_pair_apply_left (t := S256x6x1024x2) (s₁ := S256x6x1024x1) (s₂ := S256x6x1024x1) (3 : Fin 4) _ _ _ _ rfl
      (ix4 b h (Cert.Ntm.packRow n) (0 : Fin 1)) (fun a => by
        match a with
        | ⟨0, _⟩ => rfl
        | ⟨1, _⟩ => rfl
        | ⟨2, _⟩ => rfl
        | ⟨3, _⟩ => exact h0.symm)).trans (hb L)
  · rw [if_neg h0]
    refine (concatenate_pair_apply_right (t := S256x6x1024x2) (s₁ := S256x6x1024x1) (s₂ := S256x6x1024x1) (3 : Fin 4) _ _ _ _ rfl rfl
      (ix4 b h (Cert.Ntm.packRow n) (0 : Fin 1)) (fun a ha => by
        match a, ha with
        | ⟨0, _⟩, _ => rfl
        | ⟨1, _⟩, _ => rfl
        | ⟨2, _⟩, _ => rfl
        | ⟨3, _⟩, ha => exact absurd rfl ha) (by
        show 0 + 1 = n.val % 2
        omega)).trans (hb H)

/-! ## The program's last two results -/

variable (m : (ℓ : Loc nD τ sig) → Buf (Elt Ideal) ℓ) (c : Dev nD)

/-- The returned memory is the region's packed memory, viewed slot by slot. -/
theorem v32_eq :
    (W5 (F := Ideal) m c (Proc.devRef .tc main_v32) : S256x2048x64.Idx → EReal)
      = shapeCast S256x2048x64 (W4 (F := Ideal) m c (Proc.devRef .tc main_v31_0) : S256x1024x128.Idx → EReal)
          shapeCasts_S256x1024x128_S256x2048x64 := by
  show StableHlo.after hostOps2 _ (Proc.devRef .tc main_v32) = _
  after_results
  rfl

theorem v32_apply (b : Fin 256) (n : Fin 2048) (d : Fin 64) :
    (W5 (F := Ideal) m c (Proc.devRef .tc main_v32) : S256x2048x64.Idx → EReal) (ix3 b n d)
      = (W4 (F := Ideal) m c (Proc.devRef .tc main_v31_0) : S256x1024x128.Idx → EReal)
          (ix3 b (Cert.Ntm.packRow n) (Cert.Ntm.packLane n d)) := by
  rw [v32_eq]
  exact unpack_apply _ b n d

/-- The returned weights are the region's two weight arrays interleaved. -/
theorem v36_eq :
    (W5 (F := Ideal) m c (Proc.devRef .tc main_v36) : S256x6x2048.Idx → EReal)
      = shapeCast S256x6x2048
          (concatenate S256x6x1024x2 3
            [⟨S256x6x1024x1, broadcastInDim S256x6x1024x1 ![0, 1, 2] bcast_S256x6x1024_S256x6x1024x1_0_1_2
                (W4 (F := Ideal) m c (Proc.devRef .tc main_v31_1) : S256x6x1024.Idx → EReal)⟩,
             ⟨S256x6x1024x1, broadcastInDim S256x6x1024x1 ![0, 1, 2] bcast_S256x6x1024_S256x6x1024x1_0_1_2
                (W4 (F := Ideal) m c (Proc.devRef .tc main_v31_2) : S256x6x1024.Idx → EReal)⟩]
            concatenates_S256x6x1024x1_S256x6x1024x1_S256x6x1024x2_d3)
          shapeCasts_S256x6x1024x2_S256x6x2048 := by
  show StableHlo.after hostOps2 _ (Proc.devRef .tc main_v36) = _
  after_results
  rfl

theorem v36_apply (b : Fin 256) (h : Fin 6) (n : Fin 2048) :
    (W5 (F := Ideal) m c (Proc.devRef .tc main_v36) : S256x6x2048.Idx → EReal) (ix3 b h n)
      = if n.val % 2 = 0
          then (W4 (F := Ideal) m c (Proc.devRef .tc main_v31_1) : S256x6x1024.Idx → EReal) (ix3 b h (Cert.Ntm.packRow n))
          else (W4 (F := Ideal) m c (Proc.devRef .tc main_v31_2) : S256x6x1024.Idx → EReal) (ix3 b h (Cert.Ntm.packRow n)) := by
  rw [v36_eq]
  exact interleave_apply _ _ b h n

end Cert.KernelIdeal.Hand

end
-- ==== Proof.KI.Blocks1.lean ====
/-
  The memory-update region's blocks. Every one of its seven windows cuts its array into 64 blocks of four batch rows:
  block t is batch rows 4t … 4t+3, whole along the other two axes. So batch row bb of a point's block is batch row
  4t + bb of the array, for each of the four inputs (normalised key, erase vector, add vector, packed memory).
-/
import proofs.«132960_j32220844655352_2_alg».proof.Proof.KI.Defs1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The block indices of the seven windows at grid point `t`: the point along the batch axis, zero along the others. -/
theorem idx1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0)
    ∧ (win1_5.index t (0 : Fin 3) = t.val ∧ win1_5.index t (1 : Fin 3) = 0 ∧ win1_5.index t (2 : Fin 3) = 0)
    ∧ (win1_6.index t (0 : Fin 3) = t.val ∧ win1_6.index t (1 : Fin 3) = 0 ∧ win1_6.index t (2 : Fin 3) = 0) :=
  (by decide +kernel : ∀ t : Fin grid1.N, _)

theorem lt_N1 (t : Fin cfg1.N) : t.val < 64 := lt_of_lt_of_eq t.isLt N_1

/-- Batch row `bb` of block `t`, as a batch row of the 256. -/
def row1 (t : Fin cfg1.N) (bb : Fin 4) : Fin 256 := ⟨t.val * 4 + bb.val, by have := lt_N1 t; have := bb.isLt; omega⟩

theorem row1_val (t : Fin cfg1.N) (bb : Fin 4) : (row1 t bb).val = t.val * 4 + bb.val := rfl

/-- The block holding batch row `b`, and the row's place in it. -/
def pt1 (b : Fin 256) : Fin cfg1.N := ⟨b.val / 4, lt_of_lt_of_eq (by have := b.isLt; omega : b.val / 4 < 64) N_1.symm⟩
def sub1 (b : Fin 256) : Fin 4 := ⟨b.val % 4, Nat.mod_lt _ (by decide)⟩
theorem row1_pt1 (b : Fin 256) : row1 (pt1 b) (sub1 b) = b := Fin.ext (by
  show b.val / 4 * 4 + b.val % 4 = b.val; omega)

variable (V : (c : Dev nD) → (b : Ref sig .tc) → Buf (Elt Ideal) ((c : Thread nD τ).loc b))

/-- The key's block at point `t`. -/
theorem blk1_0 (c : Dev nD) (t : Fin cfg1.N) (bb : Fin 4) (h : Fin 6) (d : Fin 64) :
    (iblk1 V c 0 t : S4x6x64.Idx → EReal) (ix3 bb h d) = (V c main_v29 : S256x6x64.Idx → EReal) (ix3 (row1 t bb) h d) := by
  obtain ⟨⟨e0, e1, e2⟩, -⟩ := idx1 t
  unfold iblk1
  rw [View.read_apply]
  show (V c main_v29 : S256x6x64.Idx → EReal) _ = _
  refine congrArg (V c main_v29 : S256x6x64.Idx → EReal) (funext fun a => Fin.ext ?_)
  match a with
  | ⟨0, _⟩ => show win1_0.index t (0 : Fin 3) * 4 + 1 * bb.val = t.val * 4 + bb.val; rw [e0]; omega
  | ⟨1, _⟩ => show win1_0.index t (1 : Fin 3) * 6 + 1 * h.val = h.val; rw [e1]; omega
  | ⟨2, _⟩ => show win1_0.index t (2 : Fin 3) * 64 + 1 * d.val = d.val; rw [e2]; omega

/-- The erase vector's block at point `t`. -/
theorem blk1_1 (c : Dev nD) (t : Fin cfg1.N) (bb : Fin 4) (h : Fin 6) (d : Fin 64) :
    (iblk1 V c 1 t : S4x6x64.Idx → EReal) (ix3 bb h d) = (V c main_v16 : S256x6x64.Idx → EReal) (ix3 (row1 t bb) h d) := by
  obtain ⟨-, ⟨e0, e1, e2⟩, -⟩ := idx1 t
  unfold iblk1
  rw [View.read_apply]
  show (V c main_v16 : S256x6x64.Idx → EReal) _ = _
  refine congrArg (V c main_v16 : S256x6x64.Idx → EReal) (funext fun a => Fin.ext ?_)
  match a with
  | ⟨0, _⟩ => show win1_1.index t (0 : Fin 3) * 4 + 1 * bb.val = t.val * 4 + bb.val; rw [e0]; omega
  | ⟨1, _⟩ => show win1_1.index t (1 : Fin 3) * 6 + 1 * h.val = h.val; rw [e1]; omega
  | ⟨2, _⟩ => show win1_1.index t (2 : Fin 3) * 64 + 1 * d.val = d.val; rw [e2]; omega

/-- The add vector's block at point `t`. -/
theorem blk1_2 (c : Dev nD) (t : Fin cfg1.N) (bb : Fin 4) (h : Fin 6) (d : Fin 64) :
    (iblk1 V c 2 t : S4x6x64.Idx → EReal) (ix3 bb h d) = (V c main_v23 : S256x6x64.Idx → EReal) (ix3 (row1 t bb) h d) := by
  obtain ⟨-, -, ⟨e0, e1, e2⟩, -⟩ := idx1 t
  unfold iblk1
  rw [View.read_apply]
  show (V c main_v23 : S256x6x64.Idx → EReal) _ = _
  refine congrArg (V c main_v23 : S256x6x64.Idx → EReal) (funext fun a => Fin.ext ?_)
  match a with
  | ⟨0, _⟩ => show win1_2.index t (0 : Fin 3) * 4 + 1 * bb.val = t.val * 4 + bb.val; rw [e0]; omega
  | ⟨1, _⟩ => show win1_2.index t (1 : Fin 3) * 6 + 1 * h.val = h.val; rw [e1]; omega
  | ⟨2, _⟩ => show win1_2.index t (2 : Fin 3) * 64 + 1 * d.val = d.val; rw [e2]; omega

/-- The packed memory's block at point `t`. -/
theorem blk1_3 (c : Dev nD) (t : Fin cfg1.N) (bb : Fin 4) (p : Fin 1024) (l : Fin 128) :
    (iblk1 V c 3 t : S4x1024x128.Idx → EReal) (ix3 bb p l) = (V c main_v30 : S256x1024x128.Idx → EReal) (ix3 (row1 t bb) p l) := by
  obtain ⟨-, -, -, ⟨e0, e1, e2⟩, -⟩ := idx1 t
  unfold iblk1
  rw [View.read_apply]
  show (V c main_v30 : S256x1024x128.Idx → EReal) _ = _
  refine congrArg (V c main_v30 : S256x1024x128.Idx → EReal) (funext fun a => Fin.ext ?_)
  match a with
  | ⟨0, _⟩ => show win1_3.index t (0 : Fin 3) * 4 + 1 * bb.val = t.val * 4 + bb.val; rw [e0]; omega
  | ⟨1, _⟩ => show win1_3.index t (1 : Fin 3) * 1024 + 1 * p.val = p.val; rw [e1]; omega
  | ⟨2, _⟩ => show win1_3.index t (2 : Fin 3) * 128 + 1 * l.val = l.val; rw [e2]; omega

end Cert.KernelIdeal.Hand

end
-- ==== Proof.KI.Val1Rows.lean ====
/-
  One batch row of each array the memory-update region reads, as plain functions of the remaining two coordinates: the
  normalised key, the erase vector and the add vector (6 heads of 64 entries) and the packed memory (1024 packed rows
  of 128 lanes).
-/
import proofs.«132960_j32220844655352_2_alg».proof.Proof.KI.Fold
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

/-- A rank-3 index's coordinates are below the extents, written as the extents themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- An index is `ix3` of any three coordinates its own agree with. -/
theorem eq_ix3_of_vals {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (by
    match d with
    | ⟨0, _⟩ => exact h0
    | ⟨1, _⟩ => exact h1
    | ⟨2, _⟩ => exact h2)

variable (V : (c : Dev nD) → (b : Ref sig .tc) → Buf (Elt Ideal) ((c : Thread nD τ).loc b))

/-- Batch row `b` of the normalised key, -/
def KNr (c : Dev nD) (b : Fin 256) : Fin 6 → Fin 64 → EReal := fun h d => (V c main_v29 : S256x6x64.Idx → EReal) (ix3 b h d)
/-- of the erase vector, -/
def Er (c : Dev nD) (b : Fin 256) : Fin 6 → Fin 64 → EReal := fun h d => (V c main_v16 : S256x6x64.Idx → EReal) (ix3 b h d)
/-- of the add vector, -/
def Ar (c : Dev nD) (b : Fin 256) : Fin 6 → Fin 64 → EReal := fun h d => (V c main_v23 : S256x6x64.Idx → EReal) (ix3 b h d)
/-- and of the packed memory. -/
def MPr (c : Dev nD) (b : Fin 256) : Fin 1024 → Fin 128 → EReal := fun p l => (V c main_v30 : S256x1024x128.Idx → EReal) (ix3 b p l)

variable (m : (ℓ : Loc nD τ sig) → Buf (Elt Ideal) ℓ)

/-- The same rows of the arrays as the memory-update region finds them. -/
abbrev KNa (c : Dev nD) (b : Fin 256) : Fin 6 → Fin 64 → EReal := KNr (V3 (F := Ideal) m) c b
abbrev Ea (c : Dev nD) (b : Fin 256) : Fin 6 → Fin 64 → EReal := Er (V3 (F := Ideal) m) c b
abbrev Aa (c : Dev nD) (b : Fin 256) : Fin 6 → Fin 64 → EReal := Ar (V3 (F := Ideal) m) c b
abbrev MPa (c : Dev nD) (b : Fin 256) : Fin 1024 → Fin 128 → EReal := MPr (V3 (F := Ideal) m) c b

end Cert.KernelIdeal.Hand

end
-- ==== Proof.KI.Body1Masks.lean ====
/-
  The two lane masks of the packed layout, read lane by lane: the first is 1 on lanes 0..63 and 0 on lanes 64..127
  (a comparison of the lane number with 64, widened and converted), the second is one minus the first.
-/
import proofs.«132960_j32220844655352_2_alg».proof.Proof.KI.Defs1
import proofs.«132960_j32220844655352_2_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx

/-- The comparison "lane number below 64", widened to 32 bits and read as a signed integer: 1 below 64, else 0. -/
theorem lane_lt_word (l : Fin 128) :
    ((IntOp.cmpi .slt (BitVec.ofNat 32 l.val) 64#32).setWidth 32).toInt = if l.val < 64 then 1 else 0 := by
  revert l; decide

/-- The first mask at lane `l`. -/
theorem pay2_apply (u v : Fin 1) (l : Fin 128) : k1_pay2 (F := Ideal) (ix3 u v l) = Cert.Ntm.lo l := by
  unfold k1_pay2
  show FloatOps.sitofp (F := Ideal) .f32 ((IntOp.cmpi .slt (iota .tc S1x1x128 32 [2] iota_S1x1x128_d2_w32 (ix3 u v l)) 64#32).setWidth 32) = _
  rw [iota_single_apply]
  show (((((IntOp.cmpi .slt (BitVec.ofNat 32 l.val) 64#32).setWidth 32).toInt : ℝ)) : EReal) = _
  rw [lane_lt_word]
  unfold Cert.Ntm.lo
  split <;> simp

/-- The f32 word of 1.0 is the extended real 1. -/
theorem ofBits_one_f32 : Ideal.ofBits .f32 0x3F800000#32 = (1 : EReal) :=
  IdealRules.sign_bit.ideal_onePat .f32

/-- The second mask at lane `l`. -/
theorem pay3_apply (u v : Fin 1) (l : Fin 128) : k1_pay3 (F := Ideal) (ix3 u v l) = Cert.Ntm.hi l := by
  unfold k1_pay3
  show Ideal.ofBits .f32 0x3F800000#32 - k1_pay2 (F := Ideal) (ix3 u v l) = _
  rw [pay2_apply, ofBits_one_f32]
  rfl

end Cert.KernelIdeal.Hand

end
-- ==== Proof.LibLastAxis3.lean ====
/-
  Rank-3 arrays read at coordinates along their last axis: a row `[1, 1, c]` stretched over `[a, b, c]`, two arrays
  `[n, m, a]` and `[n, m, b]` laid side by side along the last axis, and the last axis maximised away (the fold of
  `max` over that axis's coordinates).  Generic extents; indices are built from coordinates.
-/
import Idealize.ShloMosaic.Lib.Pipeline.Value
import Idealize.ShloMosaic.Lib.ValueIdx
import Idealize.ShloMosaic.PureOps.Ideal.Laws

noncomputable section

namespace LastAxis3

open Idealize.ShloMosaic Idealize.ShloMosaic.ValueIdx

variable {α : Type}

/-- `[1, 1, c] → [a, b, c]`: every row of every slab is the one row. -/
theorem bcast_11c {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) :=
  broadcastTo_apply x h _ _ (fun ax => by
    have hk := k.isLt
    match ax with
    | ⟨0, _⟩ => show (0 : ℕ) = if 1 = 1 then 0 else i.val; exact (if_pos rfl).symm
    | ⟨1, _⟩ => show (0 : ℕ) = if 1 = 1 then 0 else j.val; exact (if_pos rfl).symm
    | ⟨2, _⟩ => show k.val = if c = 1 then 0 else k.val; split <;> omega)

/-- A position of the joined last axis that falls in the first array reads the first array. -/
theorem concat_left {n m a b c : ℕ} (x : (⟨3, ![n, m, a]⟩ : Shape).Idx → α) (y : (⟨3, ![n, m, b]⟩ : Shape).Idx → α)
    (h : Shape.Concatenates [(⟨3, ![n, m, a]⟩ : Shape), ⟨3, ![n, m, b]⟩] ⟨3, ![n, m, c]⟩ 2)
    (r : Fin n) (s : Fin m) (k : Fin c) (l : Fin a) (hl : k.val = l.val) :
    concatenate ⟨3, ![n, m, c]⟩ 2 [⟨⟨3, ![n, m, a]⟩, x⟩, ⟨⟨3, ![n, m, b]⟩, y⟩] h (ix3 r s k) = x (ix3 r s l) :=
  concatenate_pair_apply_left (t := ⟨3, ![n, m, c]⟩) (2 : Fin 3) x y h (ix3 r s k) rfl (ix3 r s l)
    (fun d => by match d with | ⟨0, _⟩ => rfl | ⟨1, _⟩ => rfl | ⟨2, _⟩ => exact hl.symm)

/-- Position `a + l` of the joined last axis reads position `l` of the second array. -/
theorem concat_right {n m a b c : ℕ} (x : (⟨3, ![n, m, a]⟩ : Shape).Idx → α) (y : (⟨3, ![n, m, b]⟩ : Shape).Idx → α)
    (h : Shape.Concatenates [(⟨3, ![n, m, a]⟩ : Shape), ⟨3, ![n, m, b]⟩] ⟨3, ![n, m, c]⟩ 2)
    (r : Fin n) (s : Fin m) (k : Fin c) (l : Fin b) (hl : k.val = a + l.val) :
    concatenate ⟨3, ![n, m, c]⟩ 2 [⟨⟨3, ![n, m, a]⟩, x⟩, ⟨⟨3, ![n, m, b]⟩, y⟩] h (ix3 r s k) = y (ix3 r s l) :=
  concatenate_pair_apply_right (t := ⟨3, ![n, m, c]⟩) (2 : Fin 3) x y h (ix3 r s k) rfl rfl (ix3 r s l)
    (fun d hd => by match d, hd with | ⟨0, _⟩, _ => rfl | ⟨1, _⟩, _ => rfl | ⟨2, _⟩, hd => exact absurd rfl hd)
    (by show l.val + a = k.val; omega)

/-- The last axis of three, maximised: the fold of `max` from the accumulator's value over that axis. -/
theorem max_last {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) := by
  rw [Ideal.multiReduction_maximumf_single]
  have e : (src ∘ h.lift (ix2 i j)) = fun k : Fin c => src (ix3 i j k) := funext fun k => congrArg src (funext fun ax => Fin.ext (by
    match ax with | ⟨0, _⟩ => rfl | ⟨1, _⟩ => rfl | ⟨2, _⟩ => rfl))
  exact congrArg (fun f => Finset.fold max (Ideal.ofBits φ acc) f (Finset.univ : Finset (Fin c))) e

end LastAxis3

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.KI.Body1Norm.lean ====
/-
  The packed memory scaled to unit norm, read at one lane.  Packed row `p` of batch row `bb` holds two memory slots
  side by side; the sum of squares of each is a sum over all 128 lanes of the squares times that half's mask, its
  reciprocal square root is spread back over the lanes of its own half by the same masks, and the row is multiplied
  by the result.
-/
import proofs.«132960_j32220844655352_2_alg».proof.Proof.KI.Body1Masks
import proofs.«132960_j32220844655352_2_alg».proof.Proof.LibLastAxis3
import proofs.«132960_j32220844655352_2_alg».proof.Proof.LibLayout

noncomputable section

namespace Cert.KernelIdeal.Hand

open Cert.KernelIdeal Cert.KernelIdeal.Gen
open Idealize.ShloMosaic Idealize.ShloMosaic.ValueIdx

/-- The memory block enters the arithmetic unchanged. -/
theorem pay1_eq (x3 : FVec Ideal S4x1024x128 .f32) : k1_pay1 (F := Ideal) x3 = x3 := shapeCast_self _ _

/-- The first mask spread over the block, at a lane. -/
theorem lo_bcast (bb : Fin 4) (p : Fin 1024) (l : Fin 128) :
    broadcastTo S4x1024x128 (k1_pay2 (F := Ideal)) broadcasts_S1x1x128_S4x1024x128 (ix3 bb p l) = Cert.Ntm.lo l :=
  (LastAxis3.bcast_11c _ _ bb p l).trans (pay2_apply 0 0 l)

/-- The second mask spread over the block, at a lane. -/
theorem hi_bcast (bb : Fin 4) (p : Fin 1024) (l : Fin 128) :
    broadcastTo S4x1024x128 (k1_pay3 (F := Ideal)) broadcasts_S1x1x128_S4x1024x128 (ix3 bb p l) = Cert.Ntm.hi l :=
  (LastAxis3.bcast_11c _ _ bb p l).trans (pay3_apply 0 0 l)

/-- The masked sum of squares of the first-half slot of a packed row. -/
theorem ssq_lo (x3 : FVec Ideal S4x1024x128 .f32) (hφ : FKind.Formats .f32) (hacc : (0x00000000#32 : BitVec 32) = 0x00000000#32)
    (bb : Fin 4) (p : Fin 1024) :
    multiReduction .add [2] S4x1024 (mulf (mulf x3 x3) (broadcastTo S4x1024x128 (k1_pay2 (F := Ideal)) broadcasts_S1x1x128_S4x1024x128))
        0x00000000#32 reduces_S4x1024x128_S4x1024 hφ hacc (ix2 bb p)
      = Cert.Ntm.Packed.ssl (fun p l => x3 (ix3 bb p l)) p := by
  refine (PushPull.Layout.sum_abc_2 _ 0x00000000#32 reduces_S4x1024x128_S4x1024 hφ hacc bb p).trans ?_
  unfold Cert.Ntm.Packed.ssl
  refine Finset.sum_congr rfl fun l _ => ?_
  show (x3 (ix3 bb p l) * x3 (ix3 bb p l)) * broadcastTo S4x1024x128 (k1_pay2 (F := Ideal)) broadcasts_S1x1x128_S4x1024x128 (ix3 bb p l) = _
  rw [lo_bcast]

/-- The masked sum of squares of the second-half slot. -/
theorem ssq_hi (x3 : FVec Ideal S4x1024x128 .f32) (hφ : FKind.Formats .f32) (hacc : (0x00000000#32 : BitVec 32) = 0x00000000#32)
    (bb : Fin 4) (p : Fin 1024) :
    multiReduction .add [2] S4x1024 (mulf (mulf x3 x3) (broadcastTo S4x1024x128 (k1_pay3 (F := Ideal)) broadcasts_S1x1x128_S4x1024x128))
        0x00000000#32 reduces_S4x1024x128_S4x1024 hφ hacc (ix2 bb p)
      = Cert.Ntm.Packed.ssh (fun p l => x3 (ix3 bb p l)) p := by
  refine (PushPull.Layout.sum_abc_2 _ 0x00000000#32 reduces_S4x1024x128_S4x1024 hφ hacc bb p).trans ?_
  unfold Cert.Ntm.Packed.ssh
  refine Finset.sum_congr rfl fun l _ => ?_
  show (x3 (ix3 bb p l) * x3 (ix3 bb p l)) * broadcastTo S4x1024x128 (k1_pay3 (F := Ideal)) broadcasts_S1x1x128_S4x1024x128 (ix3 bb p l) = _
  rw [hi_bcast]

/-- A reciprocal square root of a per-row quantity kept as a `[4, 1024, 1]` column and spread over the 128 lanes. -/
theorem rsqrt_col_bcast (v : FVec Ideal S4x1024 .f32) (bb : Fin 4) (p : Fin 1024) (l : Fin 128) :
    broadcastTo S4x1024x128 (rsqrt (shapeCast S4x1024x1 v shapeCasts_S4x1024_S4x1024x1)) broadcasts_S4x1024x1_S4x1024x128 (ix3 bb p l)
      = Ideal.rsqrt (v (ix2 bb p)) := by
  refine (PushPull.Layout.bcast_ab1 _ _ bb p l).trans ?_
  show Ideal.rsqrt (shapeCast S4x1024x1 v shapeCasts_S4x1024_S4x1024x1 (ix3 bb p (0 : Fin 1))) = _
  rw [PushPull.Layout.cast_ab_ab1]

/-- The normalised packed memory at row `p`, lane `l` of batch row `bb`. -/
theorem pay4_apply (x3 : FVec Ideal S4x1024x128 .f32) (bb : Fin 4) (p : Fin 1024) (l : Fin 128) :
    k1_pay4 (F := Ideal) x3 (ix3 bb p l) = Cert.Ntm.Packed.mnorm (fun p l => x3 (ix3 bb p l)) p l := by
  unfold k1_pay4
  simp only [pay1_eq, mulf_apply, addf_apply]
  rw [rsqrt_col_bcast, rsqrt_col_bcast, ssq_lo, ssq_hi, lo_bcast, hi_bcast]
  rfl

end Cert.KernelIdeal.Hand

end
-- ==== Proof.KI.Body1Scores.lean ====
/-
  The cosine scores of one head against the two slots of a packed memory row.  The normalised key (64 entries) is
  repeated in both halves of the 128 lanes; the batched product of the repeated key with the normalised packed memory
  masked to one half is, at head `h` and packed row `p`, the sum over the 128 lanes of key times masked memory: the
  score against the slot in that half.
-/
import proofs.«132960_j32220844655352_2_alg».proof.Proof.KI.Body1Norm

noncomputable section

namespace Cert.KernelIdeal.Hand

open Cert.KernelIdeal Cert.KernelIdeal.Gen
open Idealize.ShloMosaic Idealize.ShloMosaic.ValueIdx

/-! ## A `[4, 6, 64]` block repeated in both halves of the lanes -/

/-- Lane `l` of the repeated block reads entry `l mod 64`. -/
theorem dup_apply (x : FVec Ideal S4x6x64 .f32) (bb : Fin 4) (h : Fin 6) (l : Fin 128) :
    concatenate S4x6x128 2 [⟨S4x6x64, x⟩, ⟨S4x6x64, x⟩] concatenates_S4x6x64_S4x6x64_S4x6x128_d2 (ix3 bb h l)
      = x (ix3 bb h (Cert.Ntm.lane64 l)) := by
  by_cases hl : l.val < 64
  · refine LastAxis3.concat_left x x _ bb h l (Cert.Ntm.lane64 l) ?_
    show l.val = l.val % 64
    omega
  · refine LastAxis3.concat_right x x _ bb h l (Cert.Ntm.lane64 l) ?_
    show l.val = 64 + l.val % 64
    have := l.isLt
    omega

theorem pay5_apply (x0 : FVec Ideal S4x6x64 .f32) (bb : Fin 4) (h : Fin 6) (l : Fin 128) :
    k1_pay5 (F := Ideal) x0 (ix3 bb h l) = x0 (ix3 bb h (Cert.Ntm.lane64 l)) := by
  unfold k1_pay5
  rw [shapeCast_self]
  exact dup_apply x0 bb h l

theorem pay6_apply (x1 : FVec Ideal S4x6x64 .f32) (bb : Fin 4) (h : Fin 6) (l : Fin 128) :
    k1_pay6 (F := Ideal) x1 (ix3 bb h l) = x1 (ix3 bb h (Cert.Ntm.lane64 l)) := by
  unfold k1_pay6
  rw [shapeCast_self]
  exact dup_apply x1 bb h l

theorem pay7_apply (x2 : FVec Ideal S4x6x64 .f32) (bb : Fin 4) (h : Fin 6) (l : Fin 128) :
    k1_pay7 (F := Ideal) x2 (ix3 bb h l) = x2 (ix3 bb h (Cert.Ntm.lane64 l)) := by
  unfold k1_pay7
  rw [shapeCast_self]
  exact dup_apply x2 bb h l

/-! ## The batched product contracting the lanes: `[4, 6, 128] × [4, 1024, 128] → [4, 6, 1024]` -/

theorem dotA_lhs_0 (i : S4x6x1024.Idx) (q : dot_S4x6x128_S4x1024x128_S4x6x1024_2_2_1_1_0_0.contr.Idx) :
    (dot_S4x6x128_S4x1024x128_S4x6x1024_2_2_1_1_0_0.lhsIdx i q 0).val = (i 0).val := by
  unfold DotDims.lhsIdx
  rw [dif_pos (show (0 : Fin S4x6x128.rank) ∈ dot_S4x6x128_S4x1024x128_S4x6x1024_2_2_1_1_0_0.lhsBatch by decide)]
  rfl
theorem dotA_lhs_1 (i : S4x6x1024.Idx) (q : dot_S4x6x128_S4x1024x128_S4x6x1024_2_2_1_1_0_0.contr.Idx) :
    (dot_S4x6x128_S4x1024x128_S4x6x1024_2_2_1_1_0_0.lhsIdx i q 1).val = (i 1).val := by
  unfold DotDims.lhsIdx
  rw [dif_neg (show ¬(1 : Fin S4x6x128.rank) ∈ dot_S4x6x128_S4x1024x128_S4x6x1024_2_2_1_1_0_0.lhsBatch by decide),
    dif_pos (show (1 : Fin S4x6x128.rank) ∈ dot_S4x6x128_S4x1024x128_S4x6x1024_2_2_1_1_0_0.lhsNonContracting by decide)]
  rfl
theorem dotA_lhs_2 (i : S4x6x1024.Idx) (q : dot_S4x6x128_S4x1024x128_S4x6x1024_2_2_1_1_0_0.contr.Idx) :
    (dot_S4x6x128_S4x1024x128_S4x6x1024_2_2_1_1_0_0.lhsIdx i q 2).val = (q ⟨0, by decide⟩).val :=
  dot_S4x6x128_S4x1024x128_S4x6x1024_2_2_1_1_0_0.lhsIdx_val_of_single rfl i q
theorem dotA_rhs_0 (i : S4x6x1024.Idx) (q : dot_S4x6x128_S4x1024x128_S4x6x1024_2_2_1_1_0_0.contr.Idx) :
    (dot_S4x6x128_S4x1024x128_S4x6x1024_2_2_1_1_0_0.rhsIdx i q 0).val = (i 0).val := by
  unfold DotDims.rhsIdx
  rw [dif_pos (show (0 : Fin S4x1024x128.rank) ∈ dot_S4x6x128_S4x1024x128_S4x6x1024_2_2_1_1_0_0.rhsBatch by decide)]
  rfl
theorem dotA_rhs_1 (i : S4x6x1024.Idx) (q : dot_S4x6x128_S4x1024x128_S4x6x1024_2_2_1_1_0_0.contr.Idx) :
    (dot_S4x6x128_S4x1024x128_S4x6x1024_2_2_1_1_0_0.rhsIdx i q 1).val = (i 2).val := by
  unfold DotDims.rhsIdx
  rw [dif_neg (show ¬(1 : Fin S4x1024x128.rank) ∈ dot_S4x6x128_S4x1024x128_S4x6x1024_2_2_1_1_0_0.rhsBatch by decide),
    dif_pos (show (1 : Fin S4x1024x128.rank) ∈ dot_S4x6x128_S4x1024x128_S4x6x1024_2_2_1_1_0_0.rhsNonContracting by decide)]
  rfl
theorem dotA_rhs_2 (i : S4x6x1024.Idx) (q : dot_S4x6x128_S4x1024x128_S4x6x1024_2_2_1_1_0_0.contr.Idx) :
    (dot_S4x6x128_S4x1024x128_S4x6x1024_2_2_1_1_0_0.rhsIdx i q 2).val = (q ⟨0, by decide⟩).val :=
  dot_S4x6x128_S4x1024x128_S4x6x1024_2_2_1_1_0_0.rhsIdx_val_of_single rfl i q

/-- The product into a zero accumulator at `(bb, h, p)`: the sum over the lanes of the left operand's row `(bb, h)`
    times the right operand's row `(bb, p)`. -/
theorem dotA_apply (lhs : FVec Ideal S4x6x128 .f32) (rhs : FVec Ideal S4x1024x128 .f32) (bb : Fin 4) (h : Fin 6) (p : Fin 1024) :
    matmul dot_S4x6x128_S4x1024x128_S4x6x1024_2_2_1_1_0_0 none lhs rhs (constant S4x6x1024 .f32 0x00000000#32) (ix3 bb h p)
      = ∑ k : Fin 128, lhs (ix3 bb h k) * rhs (ix3 bb p k) := by
  simp only [matmul]
  rw [Ideal.matmul_constant_zero_apply,
    ← Equiv.sum_comp (ValueIdx.contrEquiv1 dot_S4x6x128_S4x1024x128_S4x6x1024_2_2_1_1_0_0 128 rfl rfl).symm]
  refine Finset.sum_congr rfl fun k _ => ?_
  have hk := ValueIdx.contrEquiv1_symm_val dot_S4x6x128_S4x1024x128_S4x6x1024_2_2_1_1_0_0 128 rfl rfl k
  have el : dot_S4x6x128_S4x1024x128_S4x6x1024_2_2_1_1_0_0.lhsIdx (ix3 bb h p)
      ((ValueIdx.contrEquiv1 dot_S4x6x128_S4x1024x128_S4x6x1024_2_2_1_1_0_0 128 rfl rfl).symm k) = ix3 bb h k :=
    funext fun a => Fin.ext (by
      match a with
      | ⟨0, _⟩ => exact dotA_lhs_0 _ _
      | ⟨1, _⟩ => exact dotA_lhs_1 _ _
      | ⟨2, _⟩ => exact (dotA_lhs_2 _ _).trans hk)
  have er : dot_S4x6x128_S4x1024x128_S4x6x1024_2_2_1_1_0_0.rhsIdx (ix3 bb h p)
      ((ValueIdx.contrEquiv1 dot_S4x6x128_S4x1024x128_S4x6x1024_2_2_1_1_0_0 128 rfl rfl).symm k) = ix3 bb p k :=
    funext fun a => Fin.ext (by
      match a with
      | ⟨0, _⟩ => exact dotA_rhs_0 _ _
      | ⟨1, _⟩ => exact dotA_rhs_1 _ _
      | ⟨2, _⟩ => exact (dotA_rhs_2 _ _).trans hk)
  rw [el, er]

/-! ## The two score arrays -/

/-- The scores against the first-half slots. -/
theorem pay9_apply (x0 : FVec Ideal S4x6x64 .f32) (x3 : FVec Ideal S4x1024x128 .f32) (bb : Fin 4) (h : Fin 6) (p : Fin 1024) :
    k1_pay9 (F := Ideal) x0 x3 (ix3 bb h p)
      = Cert.Ntm.Packed.slo (fun h d => x0 (ix3 bb h d)) (fun p l => x3 (ix3 bb p l)) h p := by
  unfold k1_pay9
  refine (dotA_apply _ _ bb h p).trans ?_
  unfold Cert.Ntm.Packed.slo
  refine Finset.sum_congr rfl fun l _ => ?_
  rw [pay5_apply, mulf_apply, pay4_apply, lo_bcast]

/-- The scores against the second-half slots. -/
theorem pay10_apply (x0 : FVec Ideal S4x6x64 .f32) (x3 : FVec Ideal S4x1024x128 .f32) (bb : Fin 4) (h : Fin 6) (p : Fin 1024) :
    k1_pay10 (F := Ideal) (k1_pay5 x0) (k1_pay8 x3) (ix3 bb h p)
      = Cert.Ntm.Packed.shi (fun h d => x0 (ix3 bb h d)) (fun p l => x3 (ix3 bb p l)) h p := by
  unfold k1_pay10
  refine (dotA_apply _ _ bb h p).trans ?_
  unfold Cert.Ntm.Packed.shi
  refine Finset.sum_congr rfl fun l _ => ?_
  unfold k1_pay8
  rw [pay5_apply, mulf_apply, pay4_apply, hi_bcast]

end Cert.KernelIdeal.Hand

end
-- ==== Proof.KI.Body1Soft.lean ====
/-
  The softmax over all 2048 slots of one head, on the packed layout.  The scores come as two arrays `[4, 6, 1024]`,
  one per half of the packed rows.  The shared maximum is the larger of the two row maxima, each exponential is taken
  of a score less that maximum, the shared denominator is the sum of the two row sums of exponentials, and each
  weight is an exponential times the reciprocal of the denominator.  Everything is stated for arbitrary score arrays
  that agree with the score functions of the specification.
-/
import proofs.«132960_j32220844655352_2_alg».proof.Proof.KI.Body1Masks
import proofs.«132960_j32220844655352_2_alg».proof.Proof.LibLastAxis3
import proofs.«132960_j32220844655352_2_alg».proof.Proof.LibLayout
import proofs.«132960_j32220844655352_2_alg».proof.Proof.LibMaxMid

noncomputable section

namespace Cert.KernelIdeal.Hand

open Cert.KernelIdeal Cert.KernelIdeal.Gen
open Idealize.ShloMosaic Idealize.ShloMosaic.ValueIdx

/-- The maximum of each row of a `[4, 6, 1024]` array, kept as a `[4, 6, 1]` column: the fold of `max` from -∞. -/
theorem rowmax (v : FVec Ideal S4x6x1024 .f32) (hφ : FKind.Formats .f32) (hacc : (0xFF800000#32 : BitVec 32) = 0xFF800000#32)
    (bb : Fin 4) (h : Fin 6) (u : Fin 1) :
    shapeCast S4x6x1 (multiReduction .maximumf [2] S4x6 v 0xFF800000#32 reduces_S4x6x1024_S4x6 hφ hacc) shapeCasts_S4x6_S4x6x1 (ix3 bb h u)
      = (Finset.univ : Finset (Fin 1024)).fold max ⊥ (fun p => v (ix3 bb h p)) := by
  rw [PushPull.Layout.cast_ab_ab1]
  refine (LastAxis3.max_last v 0xFF800000#32 reduces_S4x6x1024_S4x6 hφ hacc bb h).trans ?_
  rw [MaxMid.ofBits_neg_inf_f32]

/-- The sum of each row of a `[4, 6, 1024]` array, kept as a `[4, 6, 1]` column. -/
theorem rowsum (v : FVec Ideal S4x6x1024 .f32) (hφ : FKind.Formats .f32) (hacc : (0x00000000#32 : BitVec 32) = 0x00000000#32)
    (bb : Fin 4) (h : Fin 6) (u : Fin 1) :
    shapeCast S4x6x1 (multiReduction .add [2] S4x6 v 0x00000000#32 reduces_S4x6x1024_S4x6 hφ hacc) shapeCasts_S4x6_S4x6x1 (ix3 bb h u)
      = ∑ p : Fin 1024, v (ix3 bb h p) := by
  rw [PushPull.Layout.cast_ab_ab1]
  exact PushPull.Layout.sum_abc_2 v 0x00000000#32 reduces_S4x6x1024_S4x6 hφ hacc bb h

section Soft

variable (kn : Fin 6 → Fin 64 → EReal) (mp : Fin 1024 → Fin 128 → EReal)
variable (v34 : FVec Ideal S4x6x128 .f32) (v40 : FVec Ideal S4x1024x128 .f32) (v41 : FVec Ideal S4x6x1024 .f32) (bb : Fin 4)
variable (hS : ∀ h p, v41 (ix3 bb h p) = Cert.Ntm.Packed.slo kn mp h p)
variable (hT : ∀ h p, k1_pay10 (F := Ideal) v34 v40 (ix3 bb h p) = Cert.Ntm.Packed.shi kn mp h p)

include hS hT

/-- The shared maximum of head `h`. -/
theorem pay11_soft (h : Fin 6) (u : Fin 1) :
    k1_pay11 (F := Ideal) v34 v40 v41 (ix3 bb h u) = Cert.Ntm.Packed.smax kn mp h := by
  unfold k1_pay11
  rw [maximumf_apply, rowmax, rowmax]
  unfold Cert.Ntm.Packed.smax
  simp only [hS, hT]

/-- The exponentials of the first-half scores. -/
theorem pay12_soft (h : Fin 6) (p : Fin 1024) :
    k1_pay12 (F := Ideal) v34 v40 v41 (ix3 bb h p) = Cert.Ntm.Packed.elo kn mp h p := by
  unfold k1_pay12
  show Ideal.exp (v41 (ix3 bb h p) - broadcastTo S4x6x1024 (k1_pay11 (F := Ideal) v34 v40 v41) broadcasts_S4x6x1_S4x6x1024 (ix3 bb h p)) = _
  rw [PushPull.Layout.bcast_ab1, pay11_soft kn mp v34 v40 v41 bb hS hT, hS]
  rfl

/-- The exponentials of the second-half scores. -/
theorem pay13_soft (h : Fin 6) (p : Fin 1024) :
    k1_pay13 (F := Ideal) v34 v40 v41 (ix3 bb h p) = Cert.Ntm.Packed.ehi kn mp h p := by
  unfold k1_pay13
  show Ideal.exp (k1_pay10 (F := Ideal) v34 v40 (ix3 bb h p) - broadcastTo S4x6x1024 (k1_pay11 (F := Ideal) v34 v40 v41) broadcasts_S4x6x1_S4x6x1024 (ix3 bb h p)) = _
  rw [PushPull.Layout.bcast_ab1, pay11_soft kn mp v34 v40 v41 bb hS hT, hT]
  rfl

/-- The reciprocal of the shared denominator. -/
theorem pay14_soft (h : Fin 6) (u : Fin 1) :
    k1_pay14 (F := Ideal) v34 v40 v41 (ix3 bb h u) = Cert.Ntm.Packed.invden kn mp h := by
  unfold k1_pay14
  rw [divf_apply, addf_apply, rowsum, rowsum]
  show Ideal.div (Ideal.ofBits .f32 0x3F800000#32) _ = _
  rw [ofBits_one_f32]
  unfold Cert.Ntm.Packed.invden Cert.Ntm.Packed.den
  simp only [pay12_soft kn mp v34 v40 v41 bb hS hT, pay13_soft kn mp v34 v40 v41 bb hS hT]

/-- The weights of the first-half slots. -/
theorem pay15_soft (h : Fin 6) (p : Fin 1024) :
    k1_pay15 (F := Ideal) v34 v40 v41 (ix3 bb h p) = Cert.Ntm.Packed.wlo kn mp h p := by
  unfold k1_pay15
  rw [mulf_apply, PushPull.Layout.bcast_ab1, pay12_soft kn mp v34 v40 v41 bb hS hT, pay14_soft kn mp v34 v40 v41 bb hS hT]
  rfl

/-- The weights of the second-half slots. -/
theorem pay16_soft (h : Fin 6) (p : Fin 1024) :
    k1_pay16 (F := Ideal) v34 v40 v41 (ix3 bb h p) = Cert.Ntm.Packed.whi kn mp h p := by
  unfold k1_pay16
  rw [mulf_apply, PushPull.Layout.bcast_ab1, pay13_soft kn mp v34 v40 v41 bb hS hT, pay14_soft kn mp v34 v40 v41 bb hS hT]
  rfl

end Soft

end Cert.KernelIdeal.Hand

end
-- ==== Proof.KI.Body1Out.lean ====
/-
  The three results of the memory-update body, read at one entry of batch row `bb`.

  The new memory: each packed row loses `m · (m · mix e)` and gains `mix a`, where `mix f` at packed row `p`, lane `l`
  is the sum over the 6 heads of that head's weight for the lane's own slot times `f` at the lane's position in its
  half — two batched products contracting the head axis, one per half, recombined with the lane masks.
  The two weight arrays are the softmax weights of the even and of the odd slots.
-/
import proofs.«132960_j32220844655352_2_alg».proof.Proof.KI.Body1Scores
import proofs.«132960_j32220844655352_2_alg».proof.Proof.KI.Body1Soft

noncomputable section

namespace Cert.KernelIdeal.Hand

open Cert.KernelIdeal Cert.KernelIdeal.Gen
open Idealize.ShloMosaic Idealize.ShloMosaic.ValueIdx

/-! ## The batched product contracting the heads: `[4, 6, 1024] × [4, 6, 128] → [4, 1024, 128]` -/

theorem dotB_lhs_0 (i : S4x1024x128.Idx) (q : dot_S4x6x1024_S4x6x128_S4x1024x128_1_1_2_2_0_0.contr.Idx) :
    (dot_S4x6x1024_S4x6x128_S4x1024x128_1_1_2_2_0_0.lhsIdx i q 0).val = (i 0).val := by
  unfold DotDims.lhsIdx
  rw [dif_pos (show (0 : Fin S4x6x1024.rank) ∈ dot_S4x6x1024_S4x6x128_S4x1024x128_1_1_2_2_0_0.lhsBatch by decide)]
  rfl
theorem dotB_lhs_1 (i : S4x1024x128.Idx) (q : dot_S4x6x1024_S4x6x128_S4x1024x128_1_1_2_2_0_0.contr.Idx) :
    (dot_S4x6x1024_S4x6x128_S4x1024x128_1_1_2_2_0_0.lhsIdx i q 1).val = (q ⟨0, by decide⟩).val :=
  dot_S4x6x1024_S4x6x128_S4x1024x128_1_1_2_2_0_0.lhsIdx_val_of_single rfl i q
theorem dotB_lhs_2 (i : S4x1024x128.Idx) (q : dot_S4x6x1024_S4x6x128_S4x1024x128_1_1_2_2_0_0.contr.Idx) :
    (dot_S4x6x1024_S4x6x128_S4x1024x128_1_1_2_2_0_0.lhsIdx i q 2).val = (i 1).val := by
  unfold DotDims.lhsIdx
  rw [dif_neg (show ¬(2 : Fin S4x6x1024.rank) ∈ dot_S4x6x1024_S4x6x128_S4x1024x128_1_1_2_2_0_0.lhsBatch by decide),
    dif_pos (show (2 : Fin S4x6x1024.rank) ∈ dot_S4x6x1024_S4x6x128_S4x1024x128_1_1_2_2_0_0.lhsNonContracting by decide)]
  rfl
theorem dotB_rhs_0 (i : S4x1024x128.Idx) (q : dot_S4x6x1024_S4x6x128_S4x1024x128_1_1_2_2_0_0.contr.Idx) :
    (dot_S4x6x1024_S4x6x128_S4x1024x128_1_1_2_2_0_0.rhsIdx i q 0).val = (i 0).val := by
  unfold DotDims.rhsIdx
  rw [dif_pos (show (0 : Fin S4x6x128.rank) ∈ dot_S4x6x1024_S4x6x128_S4x1024x128_1_1_2_2_0_0.rhsBatch by decide)]
  rfl
theorem dotB_rhs_1 (i : S4x1024x128.Idx) (q : dot_S4x6x1024_S4x6x128_S4x1024x128_1_1_2_2_0_0.contr.Idx) :
    (dot_S4x6x1024_S4x6x128_S4x1024x128_1_1_2_2_0_0.rhsIdx i q 1).val = (q ⟨0, by decide⟩).val :=
  dot_S4x6x1024_S4x6x128_S4x1024x128_1_1_2_2_0_0.rhsIdx_val_of_single rfl i q
theorem dotB_rhs_2 (i : S4x1024x128.Idx) (q : dot_S4x6x1024_S4x6x128_S4x1024x128_1_1_2_2_0_0.contr.Idx) :
    (dot_S4x6x1024_S4x6x128_S4x1024x128_1_1_2_2_0_0.rhsIdx i q 2).val = (i 2).val := by
  unfold DotDims.rhsIdx
  rw [dif_neg (show ¬(2 : Fin S4x6x128.rank) ∈ dot_S4x6x1024_S4x6x128_S4x1024x128_1_1_2_2_0_0.rhsBatch by decide),
    dif_pos (show (2 : Fin S4x6x128.rank) ∈ dot_S4x6x1024_S4x6x128_S4x1024x128_1_1_2_2_0_0.rhsNonContracting by decide)]
  rfl

/-- The product into a zero accumulator at `(bb, p, l)`: the sum over the heads of the left operand at `(bb, h, p)`
    times the right operand at `(bb, h, l)`. -/
theorem dotB_apply (lhs : FVec Ideal S4x6x1024 .f32) (rhs : FVec Ideal S4x6x128 .f32) (bb : Fin 4) (p : Fin 1024) (l : Fin 128) :
    matmul dot_S4x6x1024_S4x6x128_S4x1024x128_1_1_2_2_0_0 none lhs rhs (constant S4x1024x128 .f32 0x00000000#32) (ix3 bb p l)
      = ∑ h : Fin 6, lhs (ix3 bb h p) * rhs (ix3 bb h l) := by
  simp only [matmul]
  rw [Ideal.matmul_constant_zero_apply,
    ← Equiv.sum_comp (ValueIdx.contrEquiv1 dot_S4x6x1024_S4x6x128_S4x1024x128_1_1_2_2_0_0 6 rfl rfl).symm]
  refine Finset.sum_congr rfl fun k _ => ?_
  have hk := ValueIdx.contrEquiv1_symm_val dot_S4x6x1024_S4x6x128_S4x1024x128_1_1_2_2_0_0 6 rfl rfl k
  have el : dot_S4x6x1024_S4x6x128_S4x1024x128_1_1_2_2_0_0.lhsIdx (ix3 bb p l)
      ((ValueIdx.contrEquiv1 dot_S4x6x1024_S4x6x128_S4x1024x128_1_1_2_2_0_0 6 rfl rfl).symm k) = ix3 bb k p :=
    funext fun a => Fin.ext (by
      match a with
      | ⟨0, _⟩ => exact dotB_lhs_0 _ _
      | ⟨1, _⟩ => exact (dotB_lhs_1 _ _).trans hk
      | ⟨2, _⟩ => exact dotB_lhs_2 _ _)
  have er : dot_S4x6x1024_S4x6x128_S4x1024x128_1_1_2_2_0_0.rhsIdx (ix3 bb p l)
      ((ValueIdx.contrEquiv1 dot_S4x6x1024_S4x6x128_S4x1024x128_1_1_2_2_0_0 6 rfl rfl).symm k) = ix3 bb k l :=
    funext fun a => Fin.ext (by
      match a with
      | ⟨0, _⟩ => exact dotB_rhs_0 _ _
      | ⟨1, _⟩ => exact (dotB_rhs_1 _ _).trans hk
      | ⟨2, _⟩ => exact dotB_rhs_2 _ _)
  rw [el, er]

/-! ## The new packed memory, for arbitrary operands that agree with the specification's functions -/

section Update

variable (kn e a : Fin 6 → Fin 64 → EReal) (mp : Fin 1024 → Fin 128 → EReal)
variable (v7 : FVec Ideal S4x1024x128 .f32) (v12 v14 : FVec Ideal S1x1x128 .f32) (v34 v35 v36 : FVec Ideal S4x6x128 .f32)
variable (v40 : FVec Ideal S4x1024x128 .f32) (v41 : FVec Ideal S4x6x1024 .f32) (bb : Fin 4)

theorem pay17_update
    (h7 : ∀ p l, v7 (ix3 bb p l) = mp p l)
    (hlo : ∀ p l, broadcastTo S4x1024x128 v12 broadcasts_S1x1x128_S4x1024x128 (ix3 bb p l) = Cert.Ntm.lo l)
    (hhi : ∀ p l, broadcastTo S4x1024x128 v14 broadcasts_S1x1x128_S4x1024x128 (ix3 bb p l) = Cert.Ntm.hi l)
    (h35 : ∀ h l, v35 (ix3 bb h l) = e h (Cert.Ntm.lane64 l))
    (h36 : ∀ h l, v36 (ix3 bb h l) = a h (Cert.Ntm.lane64 l))
    (hS : ∀ h p, v41 (ix3 bb h p) = Cert.Ntm.Packed.slo kn mp h p)
    (hT : ∀ h p, k1_pay10 (F := Ideal) v34 v40 (ix3 bb h p) = Cert.Ntm.Packed.shi kn mp h p)
    (p : Fin 1024) (l : Fin 128) :
    k1_pay17 (F := Ideal) v7 v12 v14 v34 v35 v36 v40 v41 (ix3 bb p l) = Cert.Ntm.Packed.nm kn e a mp p l := by
  unfold k1_pay17
  simp only [addf_apply, subf_apply, mulf_apply]
  rw [dotB_apply, dotB_apply, dotB_apply, dotB_apply, hlo, hhi, h7]
  simp only [pay15_soft kn mp v34 v40 v41 bb hS hT, pay16_soft kn mp v34 v40 v41 bb hS hT, h35, h36]
  rfl

end Update

/-! ## The body's three results -/

theorem zero3 : (![0, 0, 0] : Fin 3 → Nat) = fun _ => 0 := funext fun a => by fin_cases a <;> rfl

section Results

variable (x0 x1 x2 : FVec Ideal S4x6x64 .f32) (x3 : FVec Ideal S4x1024x128 .f32) (bb : Fin 4)

/-- The weights of the even slots. -/
theorem out1_5_apply (h : Fin 6) (p : Fin 1024) :
    out1_5 (F := Ideal) x0 x3 (ix3 bb h p)
      = Cert.Ntm.Packed.wlo (fun h d => x0 (ix3 bb h d)) (fun p l => x3 (ix3 bb p l)) h p := by
  unfold out1_5
  rw [View.canon_unit_zero zero3]
  simp only [View.ld_unit_zero (S := S4x6x64) zero3, View.ld_unit_zero (S := S4x1024x128) zero3]
  exact pay15_soft _ _ (k1_pay5 x0) (k1_pay8 x3) (k1_pay9 x0 x3) bb (fun h p => pay9_apply x0 x3 bb h p)
    (fun h p => pay10_apply x0 x3 bb h p) h p

/-- The weights of the odd slots. -/
theorem out1_6_apply (h : Fin 6) (p : Fin 1024) :
    out1_6 (F := Ideal) x0 x3 (ix3 bb h p)
      = Cert.Ntm.Packed.whi (fun h d => x0 (ix3 bb h d)) (fun p l => x3 (ix3 bb p l)) h p := by
  unfold out1_6
  rw [View.canon_unit_zero zero3]
  simp only [View.ld_unit_zero (S := S4x6x64) zero3, View.ld_unit_zero (S := S4x1024x128) zero3]
  exact pay16_soft _ _ (k1_pay5 x0) (k1_pay8 x3) (k1_pay9 x0 x3) bb (fun h p => pay9_apply x0 x3 bb h p)
    (fun h p => pay10_apply x0 x3 bb h p) h p

/-- The new packed memory. -/
theorem out1_4_apply (p : Fin 1024) (l : Fin 128) :
    out1_4 (F := Ideal) x0 x1 x2 x3 (ix3 bb p l)
      = Cert.Ntm.Packed.nm (fun h d => x0 (ix3 bb h d)) (fun h d => x1 (ix3 bb h d)) (fun h d => x2 (ix3 bb h d))
          (fun p l => x3 (ix3 bb p l)) p l := by
  unfold out1_4
  rw [View.canon_unit_zero zero3]
  simp only [View.ld_unit_zero (S := S4x6x64) zero3, View.ld_unit_zero (S := S4x1024x128) zero3]
  exact pay17_update _ _ _ _ (k1_pay1 x3) k1_pay2 k1_pay3 (k1_pay5 x0) (k1_pay6 x1) (k1_pay7 x2) (k1_pay8 x3) (k1_pay9 x0 x3) bb
    (fun p l => by rw [pay1_eq]) (fun p l => lo_bcast bb p l) (fun p l => hi_bcast bb p l)
    (fun h l => pay6_apply x1 bb h l) (fun h l => pay7_apply x2 bb h l)
    (fun h p => pay9_apply x0 x3 bb h p) (fun h p => pay10_apply x0 x3 bb h p) p l

end Results

end Cert.KernelIdeal.Hand

end
-- ==== Proof.KI.Val1m.lean ====
/-
  The new packed memory the memory-update region writes, entry by entry. The array is cut into 64 blocks of four batch
  rows; point t writes block t, and batch row bb of what it writes is the packed update computed from batch row bb of
  the four input blocks at t — batch row 4t + bb of the key, the erase vector, the add vector and the packed memory.
  The blocks tile the array, so after the region entry (b, p, l) is the updated lane l of packed row p of batch row b.
-/
import proofs.«132960_j32220844655352_2_alg».proof.Proof.KI.Fold
import proofs.«132960_j32220844655352_2_alg».proof.Proof.KI.Blocks1
import proofs.«132960_j32220844655352_2_alg».proof.Proof.KI.Val1Rows
import proofs.«132960_j32220844655352_2_alg».proof.Proof.KI.Body1Out
import proofs.«132960_j32220844655352_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The packed update depends on its four rows only through their entries. -/
theorem nm_congr {kn kn' e e' a a' : Fin 6 → Fin 64 → EReal} {mp mp' : Fin 1024 → Fin 128 → EReal}
    (hk : ∀ h d, kn h d = kn' h d) (he : ∀ h d, e h d = e' h d) (ha : ∀ h d, a h d = a' h d)
    (hm : ∀ p l, mp p l = mp' p l) (p : Fin 1024) (l : Fin 128) :
    Cert.Ntm.Packed.nm kn e a mp p l = Cert.Ntm.Packed.nm kn' e' a' mp' p l := by
  obtain rfl : kn = kn' := funext fun h => funext fun d => hk h d
  obtain rfl : e = e' := funext fun h => funext fun d => he h d
  obtain rfl : a = a' := funext fun h => funext fun d => ha h d
  obtain rfl : mp = mp' := funext fun p => funext fun l => hm p l
  rfl

variable (V : (c : Dev nD) → (b : Ref sig .tc) → Buf (Elt Ideal) ((c : Thread nD τ).loc b))

/-- The whole array the window's write-backs make: entry (b, p, l) is the updated lane `l` of packed row `p` of batch
    row `b`. -/
def G4 (c : Dev nD) : S256x1024x128.Idx → EReal := fun i =>
  Cert.Ntm.Packed.nm (KNr V c ⟨(i 0).val, idx3_lt0 i⟩) (Er V c ⟨(i 0).val, idx3_lt0 i⟩) (Ar V c ⟨(i 0).val, idx3_lt0 i⟩)
    (MPr V c ⟨(i 0).val, idx3_lt0 i⟩) ⟨(i 1).val, idx3_lt1 i⟩ ⟨(i 2).val, idx3_lt2 i⟩

theorem G4_of_coords (c : Dev nD) (i : S256x1024x128.Idx) (b : Fin 256) (p : Fin 1024) (l : Fin 128)
    (h0 : (i 0).val = b.val) (h1 : (i 1).val = p.val) (h2 : (i 2).val = l.val) :
    G4 V c i = Cert.Ntm.Packed.nm (KNr V c b) (Er V c b) (Ar V c b) (MPr V c b) p l := by
  obtain rfl : i = ix3 b p l := eq_ix3_of_vals i b p l h0 h1 h2
  rfl

/-- What point `t` writes back is block `t` of the whole-array function. -/
theorem flushed1_4 (c : Dev nD) (t : Fin cfg1.N) :
    (dat1 V c).flushed 4 t = ((cfg1.win 4).blk t).view.read (Elt Ideal) (G4 V c) := by
  obtain ⟨-, -, -, -, ⟨e0, e1, e2⟩, -⟩ := idx1 t
  show (cfg1.win 4).cut (grid1.coords t) ((dat1 V c).after 4 t) = _
  rw [after1_4]
  funext y
  have hy0 : (y 0).val < 4 := (y 0).isLt
  have hy1 : (y 1).val < 1024 := (y 1).isLt
  have hy2 : (y 2).val < 128 := (y 2).isLt
  rw [View.read_apply]
  have hx : (cfg1.win 4).xinj (grid1.coords t) y = ix3 ⟨(y 0).val, hy0⟩ ⟨(y 1).val, hy1⟩ ⟨(y 2).val, hy2⟩ :=
    funext fun a => Fin.ext (by match a with | ⟨0, _⟩ => rfl | ⟨1, _⟩ => rfl | ⟨2, _⟩ => rfl)
  show out1_4 (iblk1 V c 0 t) (iblk1 V c 1 t) (iblk1 V c 2 t) (iblk1 V c 3 t) ((cfg1.win 4).xinj (grid1.coords t) y)
    = G4 V c (((cfg1.win 4).blk t).view.emb y)
  rw [hx]
  refine ((out1_4_apply (iblk1 V c 0 t) (iblk1 V c 1 t) (iblk1 V c 2 t) (iblk1 V c 3 t)
      ⟨(y 0).val, hy0⟩ ⟨(y 1).val, hy1⟩ ⟨(y 2).val, hy2⟩).trans ?_).trans
    (G4_of_coords V c (((cfg1.win 4).blk t).view.emb y) (row1 t ⟨(y 0).val, hy0⟩) ⟨(y 1).val, hy1⟩ ⟨(y 2).val, hy2⟩ ?_ ?_ ?_).symm
  · exact nm_congr (fun h d => blk1_0 V c t ⟨(y 0).val, hy0⟩ h d) (fun h d => blk1_1 V c t ⟨(y 0).val, hy0⟩ h d)
      (fun h d => blk1_2 V c t ⟨(y 0).val, hy0⟩ h d) (fun p l => blk1_3 V c t ⟨(y 0).val, hy0⟩ p l) _ _
  · show win1_4.index t (0 : Fin 3) * 4 + 1 * (y 0).val = t.val * 4 + (y 0).val; rw [e0]; omega
  · show win1_4.index t (1 : Fin 3) * 1024 + 1 * (y 1).val = (y 1).val; rw [e1]; omega
  · show win1_4.index t (2 : Fin 3) * 128 + 1 * (y 2).val = (y 2).val; rw [e2]; omega

/-- An index of the array is in point `t`'s block iff each coordinate is in the block's range on its axis. -/
theorem mem_blk1_4 (t : Fin cfg1.N) (i : S256x1024x128.Idx) :
    i ∈ ((cfg1.win 4).blk t).view.set ↔ ∀ a : Fin 3, win1_4.index t a * S4x1024x128.size a ≤ (i a).val
      ∧ (i a).val < win1_4.index t a * S4x1024x128.size a + S4x1024x128.size a := by
  show i ∈ ((View.whole main_v31_0).slice (win1_4.rect t)).set ↔ _
  rw [View.set_slice_whole, Rect.mem_set_unit]
  exact Iff.rfl

/-- Every entry of the array is in the block of its batch row. -/
theorem cover1_4 (i : S256x1024x128.Idx) :
    ∃ t : Fin cfg1.N, (cfg1.win 4).flush t = true ∧ i ∈ ((cfg1.win 4).blk t).view.set := by
  have hi0 : (i 0).val < 256 := (i 0).isLt
  have hi1 : (i 1).val < 1024 := (i 1).isLt
  have hi2 : (i 2).val < 128 := (i 2).isLt
  have hN : (i 0).val / 4 < cfg1.N := lt_of_lt_of_eq (by omega : (i 0).val / 4 < 64) N_1.symm
  obtain ⟨-, -, -, -, ⟨e0, e1, e2⟩, -⟩ := idx1 ⟨(i 0).val / 4, hN⟩
  have e0' : win1_4.index ⟨(i 0).val / 4, hN⟩ (0 : Fin 3) = (i 0).val / 4 := e0
  refine ⟨⟨(i 0).val / 4, hN⟩, flush1_4 _, ?_⟩
  rw [mem_blk1_4]
  intro a
  match a with
  | ⟨0, _⟩ =>
    show win1_4.index ⟨(i 0).val / 4, hN⟩ (0 : Fin 3) * 4 ≤ (i 0).val
      ∧ (i 0).val < win1_4.index ⟨(i 0).val / 4, hN⟩ (0 : Fin 3) * 4 + 4
    rw [e0']; omega
  | ⟨1, _⟩ =>
    show win1_4.index ⟨(i 0).val / 4, hN⟩ (1 : Fin 3) * 1024 ≤ (i 1).val
      ∧ (i 1).val < win1_4.index ⟨(i 0).val / 4, hN⟩ (1 : Fin 3) * 1024 + 1024
    rw [e1]; omega
  | ⟨2, _⟩ =>
    show win1_4.index ⟨(i 0).val / 4, hN⟩ (2 : Fin 3) * 128 ≤ (i 2).val
      ∧ (i 2).val < win1_4.index ⟨(i 0).val / 4, hN⟩ (2 : Fin 3) * 128 + 128
    rw [e2]; omega

/-- The array after the region. -/
theorem final1_4 (c : Dev nD) : (dat1 V c).arrAt 4 cfg1.N = G4 V c :=
  (dat1 V c).arrAt_eq_of_cover 4 (G4 V c) (fun t _ => flushed1_4 V c t) cover1_4

/-! ## At the region's exit -/

variable (m : (ℓ : Loc nD τ sig) → Buf (Elt Ideal) ℓ)

theorem v31_0_eq (c : Dev nD) : W4 (F := Ideal) m c (Proc.devRef .tc main_v31_0) = G4 (V3 (F := Ideal) m) c :=
  (W4_arr m c 4).trans (final1_4 (V3 m) c)

/-- After the memory-update region, entry (b, p, l) of the new packed memory. -/
theorem v31_0_apply (c : Dev nD) (b : Fin 256) (p : Fin 1024) (l : Fin 128) :
    (W4 (F := Ideal) m c (Proc.devRef .tc main_v31_0) : S256x1024x128.Idx → EReal) (ix3 b p l)
      = Cert.Ntm.Packed.nm (KNa m c b) (Ea m c b) (Aa m c b) (MPa m c b) p l :=
  (congrFun (v31_0_eq m c) (ix3 b p l)).trans (G4_of_coords (V3 m) c (ix3 b p l) b p l rfl rfl rfl)

end Cert.KernelIdeal.Hand

end
-- ==== Proof.Ref.KeyNorm.lean ====
/-
  The reference's key scaled to unit norm, read at an index.

  The norm of head h of the key is the square root of 0 + ∑ d', k h d' · k h d' (a sum over the last axis from the zero
  word), kept as a unit last axis and broadcast back over the 64 entries; the key is divided by it entry by entry.
-/
import proofs.«132960_j32220844655352_2_alg».proof.Proof.Gen.ReferenceIdeal.Read
import proofs.«132960_j32220844655352_2_alg».proof.Proof.Ref.Gates

noncomputable section

namespace Cert.RefValue

open Cert.ReferenceIdeal Cert.ReferenceIdeal.Gen Cert.ReferenceIdeal.Read Idealize.ShloMosaic Idealize.ShloMosaic.ValueIdx Cert.Ntm

variable (x0 : (⟨S256x128, .f32⟩ : BufTy).Contents (Elt Ideal)) (x2 : (⟨S256x6x2048, .f32⟩ : BufTy).Contents (Elt Ideal)) (x3 : (⟨S12416x384, .f32⟩ : BufTy).Contents (Elt Ideal)) (x4 : (⟨S384, .f32⟩ : BufTy).Contents (Elt Ideal))

/-- Entry (b, h, d) of the normalised key. -/
theorem ref_kn_apply (b : Fin 256) (h : Fin 6) (d : Fin 64) :
    Cert.ReferenceIdeal.Read.val_main_v9 (F := Ideal) x0 x2 x3 x4 (ix3 b h d) = Plain.kn (K x0 x2 x3 x4 b) h d := by
  rw [val_main_v9_apply, val_main_v8_apply, val_main_v7_apply, val_main_call0_v2_apply, val_main_call0_v1_apply,
    val_main_call0_cst_apply, ref_k_apply]
  have e : ∀ k : Fin 64, idx_main_call0_v1 (idx_main_call0_v2 (idx_main_v8 (ix3 b h d))) k = ix3 b h k := fun k =>
    funext fun a => Fin.ext (by match a with | ⟨0, _⟩ => rfl | ⟨1, _⟩ => rfl | ⟨2, _⟩ => rfl)
  have es : (∑ k : Fin 64, val_main_call0_v0 (F := Ideal) x0 x2 x3 x4 (idx_main_call0_v1 (idx_main_call0_v2 (idx_main_v8 (ix3 b h d))) k))
      = ∑ k : Fin 64, K x0 x2 x3 x4 b h k * K x0 x2 x3 x4 b h k :=
    Finset.sum_congr rfl fun k _ => by rw [e k, val_main_call0_v0_apply, ref_k_apply]; rfl
  rw [es]
  simp only [Ideal.hostDivf_def, Ideal.hostUnary_sqrt_def, Ideal.ofBits_def, Ideal.ofBits_zero_f32]
  rfl

end Cert.RefValue

end
-- ==== Proof.Ref.MemNorm.lean ====
/-
  The reference's memory scaled to unit norm, read at an index.

  The norm of slot n is the square root of 0 + ∑ d', mem n d' · mem n d', kept as a unit last axis and broadcast back
  over the 64 entries; the memory is divided by it entry by entry.
-/
import proofs.«132960_j32220844655352_2_alg».proof.Proof.Gen.ReferenceIdeal.Read
import proofs.«132960_j32220844655352_2_alg».proof.Proof.Ref.Defs

noncomputable section

namespace Cert.RefValue

open Cert.ReferenceIdeal Cert.ReferenceIdeal.Gen Cert.ReferenceIdeal.Read Idealize.ShloMosaic Idealize.ShloMosaic.ValueIdx Cert.Ntm

variable (x1 : (⟨S256x2048x64, .f32⟩ : BufTy).Contents (Elt Ideal))

/-- Entry (b, n, d) of the normalised memory. -/
theorem ref_mn_apply (b : Fin 256) (n : Fin 2048) (d : Fin 64) :
    Cert.ReferenceIdeal.Read.val_main_v12 (F := Ideal) x1 (ix3 b n d) = Plain.mn (MEM x1 b) n d := by
  rw [val_main_v12_apply, val_main_v11_apply, val_main_v10_apply, val_main_call1_v2_apply, val_main_call1_v1_apply,
    val_main_call1_cst_apply]
  have e : ∀ k : Fin 64, idx_main_call1_v1 (idx_main_call1_v2 (idx_main_v11 (ix3 b n d))) k = ix3 b n k := fun k =>
    funext fun a => Fin.ext (by match a with | ⟨0, _⟩ => rfl | ⟨1, _⟩ => rfl | ⟨2, _⟩ => rfl)
  have es : (∑ k : Fin 64, val_main_call1_v0 (F := Ideal) x1 (idx_main_call1_v1 (idx_main_call1_v2 (idx_main_v11 (ix3 b n d))) k))
      = ∑ k : Fin 64, MEM x1 b n k * MEM x1 b n k :=
    Finset.sum_congr rfl fun k _ => by rw [e k, val_main_call1_v0_apply]; rfl
  rw [es]
  simp only [Ideal.hostDivf_def, Ideal.hostUnary_sqrt_def, Ideal.ofBits_def, Ideal.ofBits_zero_f32]
  rfl

end Cert.RefValue

end
-- ==== Proof.Ref.Weights.lean ====
/-
  The reference's new weights, read at an index.

  The cosine score of head h against slot n is ∑ d, kn h d · mn n d; the weights are the softmax of the scores over the
  2048 slots: the largest score is a fold of max from -∞ over the slots (joined once more with -∞), the exponentials of
  the differences are summed from the zero word, and each exponential is divided by that sum.
-/
import proofs.«132960_j32220844655352_2_alg».proof.Proof.Gen.ReferenceIdeal.Read
import proofs.«132960_j32220844655352_2_alg».proof.Proof.Ref.KeyNorm
import proofs.«132960_j32220844655352_2_alg».proof.Proof.Ref.MemNorm
import proofs.«132960_j32220844655352_2_alg».proof.Proof.LibMaxMid

noncomputable section

namespace Cert.RefValue

open Cert.ReferenceIdeal Cert.ReferenceIdeal.Gen Cert.ReferenceIdeal.Read Idealize.ShloMosaic Idealize.ShloMosaic.ValueIdx Cert.Ntm

variable (x0 : (⟨S256x128, .f32⟩ : BufTy).Contents (Elt Ideal)) (x1 : (⟨S256x2048x64, .f32⟩ : BufTy).Contents (Elt Ideal)) (x2 : (⟨S256x6x2048, .f32⟩ : BufTy).Contents (Elt Ideal)) (x3 : (⟨S12416x384, .f32⟩ : BufTy).Contents (Elt Ideal)) (x4 : (⟨S384, .f32⟩ : BufTy).Contents (Elt Ideal))

/-- The score of head `h` against slot `n`. -/
theorem ref_s_apply (b : Fin 256) (h : Fin 6) (n : Fin 2048) :
    Cert.ReferenceIdeal.Read.val_main_v13 (F := Ideal) x0 x1 x2 x3 x4 (ix3 b h n) = Plain.s (K x0 x2 x3 x4 b) (MEM x1 b) h n := by
  rw [val_main_v13_apply]
  unfold Plain.s
  refine Finset.sum_congr rfl fun k _ => ?_
  have el : lidx_main_v13 (ix3 b h n) k = ix3 b h k :=
    funext fun a => Fin.ext (by match a with | ⟨0, _⟩ => rfl | ⟨1, _⟩ => rfl | ⟨2, _⟩ => rfl)
  have er : ridx_main_v13 (ix3 b h n) k = ix3 b n k :=
    funext fun a => Fin.ext (by match a with | ⟨0, _⟩ => rfl | ⟨1, _⟩ => rfl | ⟨2, _⟩ => rfl)
  rw [el, er, ref_kn_apply, ref_mn_apply]

/-- The reduce with maximum over the slots, from -∞: a fold of max from ⊥ over the scores of head `h`. -/
theorem ref_fold_apply (b : Fin 256) (h : Fin 6) :
    Cert.ReferenceIdeal.Read.val_main_v14 (F := Ideal) x0 x1 x2 x3 x4 (ix2 b h)
      = (Finset.univ : Finset (Fin 2048)).fold max ⊥ (fun n => Plain.s (K x0 x2 x3 x4 b) (MEM x1 b) h n) := by
  have hR : S256x6x2048.Reduces [2] S256x6 := by decide
  unfold Cert.ReferenceIdeal.Read.val_main_v14
  refine (Host.reduce_eq_fold_single (α := Ideal .f32) (FloatOps.maximumf (F := Ideal) (φ := .f32)) (val_main_v13 (F := Ideal) x0 x1 x2 x3 x4)
    (val_main_cst (F := Ideal)) reducesTo_S256x6x2048_S256x6_d2 hR h_S_ (ix2 b h)).trans ?_
  rw [show val_main_cst (F := Ideal) (Shape.Idx.first h_S_) = (⊥ : EReal) from MaxMid.ofBits_neg_inf_f32]
  have hf : (val_main_v13 (F := Ideal) x0 x1 x2 x3 x4 ∘ hR.lift (ix2 b h)) = fun n : Fin 2048 => Plain.s (K x0 x2 x3 x4 b) (MEM x1 b) h n :=
    funext fun n => (congrArg (val_main_v13 (F := Ideal) x0 x1 x2 x3 x4)
      (show hR.lift (ix2 b h) n = ix3 b h n from funext fun a => Fin.ext (by
        match a with | ⟨0, _⟩ => rfl | ⟨1, _⟩ => rfl | ⟨2, _⟩ => rfl))).trans (ref_s_apply x0 x1 x2 x3 x4 b h n)
  exact congrArg (fun f => Finset.fold max (⊥ : EReal) f (Finset.univ : Finset (Fin 2048))) hf

/-- The largest score of head `h`. -/
theorem ref_smax_apply (b : Fin 256) (h : Fin 6) :
    Cert.ReferenceIdeal.Read.val_main_v16 (F := Ideal) x0 x1 x2 x3 x4 (ix2 b h) = Plain.smax (K x0 x2 x3 x4 b) (MEM x1 b) h := by
  rw [val_main_v16_apply, val_main_v15_apply, val_main_cst_0_apply, ref_fold_apply]
  simp only [Ideal.maximumf_def, Ideal.ofBits_def, MaxMid.ofBits_neg_inf_f32]
  rfl

/-- The exponential of a score less the largest. -/
theorem ref_ex_apply (b : Fin 256) (h : Fin 6) (n : Fin 2048) :
    Cert.ReferenceIdeal.Read.val_main_v20 (F := Ideal) x0 x1 x2 x3 x4 (ix3 b h n) = Plain.ex (K x0 x2 x3 x4 b) (MEM x1 b) h n := by
  rw [val_main_v20_apply, val_main_v19_apply, val_main_v18_apply, val_main_v17_apply,
    show idx_main_v17 (idx_main_v18 (ix3 b h n)) = ix2 b h from
      funext fun a => Fin.ext (by match a with | ⟨0, _⟩ => rfl | ⟨1, _⟩ => rfl),
    ref_s_apply, ref_smax_apply]
  simp only [Ideal.hostUnary_exp_def, Ideal.subf_def]
  rfl

/-- The softmax denominator of head `h`. -/
theorem ref_den_apply (b : Fin 256) (h : Fin 6) :
    Cert.ReferenceIdeal.Read.val_main_v21 (F := Ideal) x0 x1 x2 x3 x4 (ix2 b h) = Plain.den (K x0 x2 x3 x4 b) (MEM x1 b) h := by
  rw [val_main_v21_apply, val_main_cst_1_apply]
  have es : (∑ k : Fin 2048, val_main_v20 (F := Ideal) x0 x1 x2 x3 x4 (idx_main_v21 (ix2 b h) k))
      = ∑ n : Fin 2048, Plain.ex (K x0 x2 x3 x4 b) (MEM x1 b) h n :=
    Finset.sum_congr rfl fun k _ => by
      rw [show idx_main_v21 (ix2 b h) k = ix3 b h k from
        funext fun a => Fin.ext (by match a with | ⟨0, _⟩ => rfl | ⟨1, _⟩ => rfl | ⟨2, _⟩ => rfl), ref_ex_apply]
  rw [es]
  simp only [Ideal.ofBits_def, Ideal.ofBits_zero_f32]
  rfl

/-- The new weight of head `h` on slot `n`. -/
theorem ref_w_apply (b : Fin 256) (h : Fin 6) (n : Fin 2048) :
    Cert.ReferenceIdeal.Read.val_main_v24 (F := Ideal) x0 x1 x2 x3 x4 (ix3 b h n) = Plain.wn (K x0 x2 x3 x4 b) (MEM x1 b) h n := by
  rw [val_main_v24_apply, val_main_v23_apply, val_main_v22_apply,
    show idx_main_v22 (idx_main_v23 (ix3 b h n)) = ix2 b h from
      funext fun a => Fin.ext (by match a with | ⟨0, _⟩ => rfl | ⟨1, _⟩ => rfl),
    ref_ex_apply, ref_den_apply]
  simp only [Ideal.hostDivf_def]
  rfl

end Cert.RefValue

end
-- ==== Proof.Ref.Memory.lean ====
/-
  The reference's new memory, read at an index.

  The erase and add terms are sums over the 6 heads of a new weight times the head's erase (add) entry; the new memory is
  mem - mem · (mem · erase) + add, entry by entry.
-/
import proofs.«132960_j32220844655352_2_alg».proof.Proof.Gen.ReferenceIdeal.Read
import proofs.«132960_j32220844655352_2_alg».proof.Proof.Ref.Weights

noncomputable section

namespace Cert.RefValue

open Cert.ReferenceIdeal Cert.ReferenceIdeal.Gen Cert.ReferenceIdeal.Read Idealize.ShloMosaic Idealize.ShloMosaic.ValueIdx Cert.Ntm

variable (x0 : (⟨S256x128, .f32⟩ : BufTy).Contents (Elt Ideal)) (x1 : (⟨S256x2048x64, .f32⟩ : BufTy).Contents (Elt Ideal)) (x2 : (⟨S256x6x2048, .f32⟩ : BufTy).Contents (Elt Ideal)) (x3 : (⟨S12416x384, .f32⟩ : BufTy).Contents (Elt Ideal)) (x4 : (⟨S384, .f32⟩ : BufTy).Contents (Elt Ideal))

/-- The erase term of slot `n`, entry `d`: the head sum of the new weights against the erase vector. -/
theorem ref_erase_apply (x5 : (⟨S12416x384, .f32⟩ : BufTy).Contents (Elt Ideal)) (x6 : (⟨S384, .f32⟩ : BufTy).Contents (Elt Ideal)) (b : Fin 256) (n : Fin 2048) (d : Fin 64) :
    Cert.ReferenceIdeal.Read.val_main_v47 (F := Ideal) x0 x1 x2 x3 x4 x5 x6 (ix3 b n d)
      = Plain.mix (K x0 x2 x3 x4 b) (MEM x1 b) (E x0 x2 x5 x6 b) n d := by
  rw [val_main_v47_apply]
  unfold Plain.mix
  refine Finset.sum_congr rfl fun k _ => ?_
  have el : lidx_main_v47 (ix3 b n d) k = ix3 b k n :=
    funext fun a => Fin.ext (by match a with | ⟨0, _⟩ => rfl | ⟨1, _⟩ => rfl | ⟨2, _⟩ => rfl)
  have er : ridx_main_v47 (ix3 b n d) k = ix3 b k d :=
    funext fun a => Fin.ext (by match a with | ⟨0, _⟩ => rfl | ⟨1, _⟩ => rfl | ⟨2, _⟩ => rfl)
  rw [el, er, ref_w_apply, ref_e_apply]

/-- The add term of slot `n`, entry `d`: the head sum of the new weights against the add vector. -/
theorem ref_add_apply (x7 : (⟨S12416x384, .f32⟩ : BufTy).Contents (Elt Ideal)) (x8 : (⟨S384, .f32⟩ : BufTy).Contents (Elt Ideal)) (b : Fin 256) (n : Fin 2048) (d : Fin 64) :
    Cert.ReferenceIdeal.Read.val_main_v48 (F := Ideal) x0 x1 x2 x3 x4 x7 x8 (ix3 b n d)
      = Plain.mix (K x0 x2 x3 x4 b) (MEM x1 b) (A x0 x2 x7 x8 b) n d := by
  rw [val_main_v48_apply]
  unfold Plain.mix
  refine Finset.sum_congr rfl fun k _ => ?_
  have el : lidx_main_v48 (ix3 b n d) k = ix3 b k n :=
    funext fun a => Fin.ext (by match a with | ⟨0, _⟩ => rfl | ⟨1, _⟩ => rfl | ⟨2, _⟩ => rfl)
  have er : ridx_main_v48 (ix3 b n d) k = ix3 b k d :=
    funext fun a => Fin.ext (by match a with | ⟨0, _⟩ => rfl | ⟨1, _⟩ => rfl | ⟨2, _⟩ => rfl)
  rw [el, er, ref_w_apply, ref_a_apply]

/-- The new memory of batch row `b`, slot `n`, entry `d`. -/
theorem ref_m_apply (x5 : (⟨S12416x384, .f32⟩ : BufTy).Contents (Elt Ideal)) (x6 : (⟨S384, .f32⟩ : BufTy).Contents (Elt Ideal)) (x7 : (⟨S12416x384, .f32⟩ : BufTy).Contents (Elt Ideal)) (x8 : (⟨S384, .f32⟩ : BufTy).Contents (Elt Ideal))
    (b : Fin 256) (n : Fin 2048) (d : Fin 64) :
    Cert.ReferenceIdeal.Read.val_main_v52 (F := Ideal) x0 x1 x2 x3 x4 x5 x6 x7 x8 (ix3 b n d)
      = Plain.nm (K x0 x2 x3 x4 b) (E x0 x2 x5 x6 b) (A x0 x2 x7 x8 b) (MEM x1 b) n d := by
  rw [val_main_v52_apply, val_main_v51_apply, val_main_v50_apply, val_main_v49_apply, ref_erase_apply, ref_add_apply]
  simp only [Ideal.addf_def, Ideal.subf_def, Ideal.mulf_def]
  rfl

end Cert.RefValue

end
-- ==== Proof.KI.Final.lean ====
/-
  The kernel's returned memory, as a whole array, is the reference's term of the same arguments.

  Entry (b, n, d) of the returned memory is entry (n / 2, 64 (n % 2) + d) of the update region's packed new memory of
  batch row b; that is the packed update of the row's normalised key, erase vector, add vector and packed memory, which
  are the reference's key scaled by a reciprocal square root, its erase and add vectors, and its memory in the packed
  layout; and the packed update read back at a slot is the reference's new memory there, because under the
  precondition every entry is a real number and no key row and no memory slot is the zero vector.
-/
import proofs.«132960_j32220844655352_2_alg».proof.Proof.KI.Fold
import proofs.«132960_j32220844655352_2_alg».proof.Proof.Gen.ReferenceIdeal.Read
import proofs.«132960_j32220844655352_2_alg».proof.Proof.Gen.Pre_finite_inputs
import proofs.«132960_j32220844655352_2_alg».proof.Proof.Glue
import proofs.«132960_j32220844655352_2_alg».proof.Proof.PreGood
import proofs.«132960_j32220844655352_2_alg».proof.Proof.KI.Val0
import proofs.«132960_j32220844655352_2_alg».proof.Proof.KI.Host0
import proofs.«132960_j32220844655352_2_alg».proof.Proof.KI.Host1a
import proofs.«132960_j32220844655352_2_alg».proof.Proof.KI.Host1b
import proofs.«132960_j32220844655352_2_alg».proof.Proof.KI.Host2
import proofs.«132960_j32220844655352_2_alg».proof.Proof.KI.Val1m
import proofs.«132960_j32220844655352_2_alg».proof.Proof.Ref.Memory

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The returned memory entry by entry, in the reference's plain formulas of the launch arrays. -/
theorem kernel_mem_plain
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = fun _ => 1#1)
    (b : Fin 256) (n : Fin 2048) (d : Fin 64) :
    (W5 (F := Ideal) m c (Proc.devRef .tc main_v32) : S256x2048x64.Idx → EReal) (ix3 b n d)
      = Cert.Ntm.Plain.nm
          (Cert.RefValue.K (m ((c.tc : Thread nD τ).loc main_arg0)) (m ((c.tc : Thread nD τ).loc main_arg2)) (m ((c.tc : Thread nD τ).loc main_arg3)) (m ((c.tc : Thread nD τ).loc main_arg4)) b)
          (Cert.RefValue.E (m ((c.tc : Thread nD τ).loc main_arg0)) (m ((c.tc : Thread nD τ).loc main_arg2)) (m ((c.tc : Thread nD τ).loc main_arg5)) (m ((c.tc : Thread nD τ).loc main_arg6)) b)
          (Cert.RefValue.A (m ((c.tc : Thread nD τ).loc main_arg0)) (m ((c.tc : Thread nD τ).loc main_arg2)) (m ((c.tc : Thread nD τ).loc main_arg7)) (m ((c.tc : Thread nD τ).loc main_arg8)) b)
          (Cert.RefValue.MEM (m ((c.tc : Thread nD τ).loc main_arg1)) b) n d := by
  have D := Cert.PreFacts.decode _ _ _ _ _ _ _ _ _ hpre
  have hN0 : ∀ (b : Fin 256) (p : Fin 1024) (l : Fin 128),
      (W4 (F := Ideal) m c (Proc.devRef .tc main_v31_0) : S256x1024x128.Idx → EReal) (ix3 b p l)
        = Cert.Ntm.Packed.nm (fun h d => (V3 (F := Ideal) m c main_v29 : S256x6x64.Idx → EReal) (ix3 b h d))
            (fun h d => (V3 (F := Ideal) m c main_v16 : S256x6x64.Idx → EReal) (ix3 b h d))
            (fun h d => (V3 (F := Ideal) m c main_v23 : S256x6x64.Idx → EReal) (ix3 b h d))
            (fun p l => (V3 (F := Ideal) m c main_v30 : S256x1024x128.Idx → EReal) (ix3 b p l)) p l := fun b p l => by
    have h := v31_0_apply m c b p l
    unfold KNa Ea Aa MPa KNr Er Ar MPr at h
    exact h
  exact Cert.Glue.memory_core
    (x0 := m ((c.tc : Thread nD τ).loc main_arg0)) (x1 := m ((c.tc : Thread nD τ).loc main_arg1))
    (x2 := m ((c.tc : Thread nD τ).loc main_arg2)) (x3 := m ((c.tc : Thread nD τ).loc main_arg3))
    (x5 := m ((c.tc : Thread nD τ).loc main_arg5)) (x7 := m ((c.tc : Thread nD τ).loc main_arg7))
    (x4 := m ((c.tc : Thread nD τ).loc main_arg4)) (x6 := m ((c.tc : Thread nD τ).loc main_arg6))
    (x8 := m ((c.tc : Thread nD τ).loc main_arg8))
    (A1 := V1 (F := Ideal) m c main_v1) (A2 := V1 (F := Ideal) m c main_v2) (A4 := V1 (F := Ideal) m c main_v4)
    (Y := W2 (F := Ideal) m c (Proc.devRef .tc main_v5))
    (h1 := v1_apply m c) (h2 := v2_apply m c) (h4 := v4_apply m c) (hY := v5_apply m c)
    (KN := V3 (F := Ideal) m c main_v29) (EV := V3 (F := Ideal) m c main_v16) (AV := V3 (F := Ideal) m c main_v23)
    (MP := V3 (F := Ideal) m c main_v30)
    (hKN := v29_apply_of m c _ rfl) (hEV := v16_apply_of m c _ rfl) (hAV := v23_apply_of m c _ rfl)
    (hMP := v30_apply m c)
    (hG := fun b => Cert.PreFacts.good D b)
    (N0 := W4 (F := Ideal) m c (Proc.devRef .tc main_v31_0)) (R := W5 (F := Ideal) m c (Proc.devRef .tc main_v32))
    (hN0 := hN0) (hR := v32_apply m c) b n d

/-- The kernel's returned memory is the reference's new memory of the same arguments. -/
theorem kernel_mem
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = fun _ => 1#1) :
    (W5 (F := Ideal) m c (Proc.devRef .tc main_v32) : S256x2048x64.Idx → EReal)
      = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨b, n, d, rfl⟩ : ∃ (b : Fin 256) (n : Fin 2048) (d : Fin 64), i = ix3 b n d := ⟨i 0, i 1, i 2, eq_ix3 i⟩
  exact (kernel_mem_plain m c hpre b n d).trans (Cert.RefValue.ref_m_apply _ _ _ _ _ _ _ _ _ b n d).symm

end Cert.KernelIdeal.Hand

end
-- ==== Proof.KI.Val1w.lean ====
/-
  The two weight arrays the memory-update region writes, entry by entry. Each is cut into 64 blocks of four batch rows;
  point t writes block t, and batch row bb of what it writes is the packed update's new weights computed from batch
  row bb of the key's and the packed memory's blocks at t — batch row 4t + bb of those arrays. The blocks tile the
  array, so after the region entry (b, h, p) is the new weight of head h at packed row p of batch row b.
-/
import proofs.«132960_j32220844655352_2_alg».proof.Proof.KI.Fold
import proofs.«132960_j32220844655352_2_alg».proof.Proof.KI.Blocks1
import proofs.«132960_j32220844655352_2_alg».proof.Proof.KI.Val1Rows
import proofs.«132960_j32220844655352_2_alg».proof.Proof.KI.Body1Out
import proofs.«132960_j32220844655352_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## Window 5: the weights of the even slots -/

/-- The whole array the window's write-backs make: entry (b, h, p) is the new weight of head `h` at packed row `p`
    (slot 2p) of batch row `b`. -/
def G5 (c : Dev nD) : S256x6x1024.Idx → EReal := fun i =>
  Cert.Ntm.Packed.wlo (KNr V c ⟨(i 0).val, idx3_lt0 i⟩) (MPr V c ⟨(i 0).val, idx3_lt0 i⟩) ⟨(i 1).val, idx3_lt1 i⟩ ⟨(i 2).val, idx3_lt2 i⟩

theorem G5_of_coords (c : Dev nD) (i : S256x6x1024.Idx) (b : Fin 256) (h : Fin 6) (p : Fin 1024)
    (h0 : (i 0).val = b.val) (h1 : (i 1).val = h.val) (h2 : (i 2).val = p.val) :
    G5 V c i = Cert.Ntm.Packed.wlo (KNr V c b) (MPr V c b) h p := by
  obtain rfl : i = ix3 b h p := eq_ix3_of_vals i b h p h0 h1 h2
  rfl

/-- What point `t` writes back is block `t` of the whole-array function: batch row `bb` of the block is computed from
    batch row `bb` of the key's and the memory's blocks, which are batch row `4t + bb` of their arrays. -/
theorem flushed1_5 (c : Dev nD) (t : Fin cfg1.N) :
    (dat1 V c).flushed 5 t = ((cfg1.win 5).blk t).view.read (Elt Ideal) (G5 V c) := by
  obtain ⟨-, -, -, -, -, ⟨e0, e1, e2⟩, -⟩ := idx1 t
  show (cfg1.win 5).cut (grid1.coords t) ((dat1 V c).after 5 t) = _
  rw [after1_5]
  funext y
  have hy0 : (y 0).val < 4 := (y 0).isLt
  have hy1 : (y 1).val < 6 := (y 1).isLt
  have hy2 : (y 2).val < 1024 := (y 2).isLt
  rw [View.read_apply]
  have hx : (cfg1.win 5).xinj (grid1.coords t) y = ix3 ⟨(y 0).val, hy0⟩ ⟨(y 1).val, hy1⟩ ⟨(y 2).val, hy2⟩ :=
    funext fun a => Fin.ext (by match a with | ⟨0, _⟩ => rfl | ⟨1, _⟩ => rfl | ⟨2, _⟩ => rfl)
  show out1_5 (iblk1 V c 0 t) (iblk1 V c 3 t) ((cfg1.win 5).xinj (grid1.coords t) y)
    = G5 V c (((cfg1.win 5).blk t).view.emb y)
  rw [hx]
  refine ((out1_5_apply (iblk1 V c 0 t) (iblk1 V c 3 t) ⟨(y 0).val, hy0⟩ ⟨(y 1).val, hy1⟩ ⟨(y 2).val, hy2⟩).trans ?_).trans
    (G5_of_coords V c (((cfg1.win 5).blk t).view.emb y) (row1 t ⟨(y 0).val, hy0⟩) ⟨(y 1).val, hy1⟩ ⟨(y 2).val, hy2⟩ ?_ ?_ ?_).symm
  · exact congrArg₂ (fun kn mp => Cert.Ntm.Packed.wlo kn mp ⟨(y 1).val, hy1⟩ ⟨(y 2).val, hy2⟩)
      (funext fun h => funext fun d => blk1_0 V c t ⟨(y 0).val, hy0⟩ h d)
      (funext fun p => funext fun l => blk1_3 V c t ⟨(y 0).val, hy0⟩ p l)
  · show win1_5.index t (0 : Fin 3) * 4 + 1 * (y 0).val = t.val * 4 + (y 0).val; rw [e0]; omega
  · show win1_5.index t (1 : Fin 3) * 6 + 1 * (y 1).val = (y 1).val; rw [e1]; omega
  · show win1_5.index t (2 : Fin 3) * 1024 + 1 * (y 2).val = (y 2).val; rw [e2]; omega

/-- An index of the array is in point `t`'s block iff each coordinate is in the block's range on its axis. -/
theorem mem_blk1_5 (t : Fin cfg1.N) (i : S256x6x1024.Idx) :
    i ∈ ((cfg1.win 5).blk t).view.set ↔ ∀ a : Fin 3, win1_5.index t a * S4x6x1024.size a ≤ (i a).val
      ∧ (i a).val < win1_5.index t a * S4x6x1024.size a + S4x6x1024.size a := by
  show i ∈ ((View.whole main_v31_1).slice (win1_5.rect t)).set ↔ _
  rw [View.set_slice_whole, Rect.mem_set_unit]
  exact Iff.rfl

/-- Every entry of the array is in the block of its batch row. -/
theorem cover1_5 (i : S256x6x1024.Idx) :
    ∃ t : Fin cfg1.N, (cfg1.win 5).flush t = true ∧ i ∈ ((cfg1.win 5).blk t).view.set := by
  have hi0 : (i 0).val < 256 := (i 0).isLt
  have hi1 : (i 1).val < 6 := (i 1).isLt
  have hi2 : (i 2).val < 1024 := (i 2).isLt
  have hN : (i 0).val / 4 < cfg1.N := lt_of_lt_of_eq (by omega : (i 0).val / 4 < 64) N_1.symm
  obtain ⟨-, -, -, -, -, ⟨e0, e1, e2⟩, -⟩ := idx1 ⟨(i 0).val / 4, hN⟩
  have e0' : win1_5.index ⟨(i 0).val / 4, hN⟩ (0 : Fin 3) = (i 0).val / 4 := e0
  refine ⟨⟨(i 0).val / 4, hN⟩, flush1_5 _, ?_⟩
  rw [mem_blk1_5]
  intro a
  match a with
  | ⟨0, _⟩ =>
    show win1_5.index ⟨(i 0).val / 4, hN⟩ (0 : Fin 3) * 4 ≤ (i 0).val
      ∧ (i 0).val < win1_5.index ⟨(i 0).val / 4, hN⟩ (0 : Fin 3) * 4 + 4
    rw [e0']; omega
  | ⟨1, _⟩ =>
    show win1_5.index ⟨(i 0).val / 4, hN⟩ (1 : Fin 3) * 6 ≤ (i 1).val
      ∧ (i 1).val < win1_5.index ⟨(i 0).val / 4, hN⟩ (1 : Fin 3) * 6 + 6
    rw [e1]; omega
  | ⟨2, _⟩ =>
    show win1_5.index ⟨(i 0).val / 4, hN⟩ (2 : Fin 3) * 1024 ≤ (i 2).val
      ∧ (i 2).val < win1_5.index ⟨(i 0).val / 4, hN⟩ (2 : Fin 3) * 1024 + 1024
    rw [e2]; omega

/-- The array after the region. -/
theorem final1_5 (c : Dev nD) : (dat1 V c).arrAt 5 cfg1.N = G5 V c :=
  (dat1 V c).arrAt_eq_of_cover 5 (G5 V c) (fun t _ => flushed1_5 V c t) cover1_5

/-! ## Window 6: the weights of the odd slots -/

/-- The whole array the window's write-backs make: entry (b, h, p) is the new weight of head `h` at packed row `p`
    (slot 2p+1) of batch row `b`. -/
def G6 (c : Dev nD) : S256x6x1024.Idx → EReal := fun i =>
  Cert.Ntm.Packed.whi (KNr V c ⟨(i 0).val, idx3_lt0 i⟩) (MPr V c ⟨(i 0).val, idx3_lt0 i⟩) ⟨(i 1).val, idx3_lt1 i⟩ ⟨(i 2).val, idx3_lt2 i⟩

theorem G6_of_coords (c : Dev nD) (i : S256x6x1024.Idx) (b : Fin 256) (h : Fin 6) (p : Fin 1024)
    (h0 : (i 0).val = b.val) (h1 : (i 1).val = h.val) (h2 : (i 2).val = p.val) :
    G6 V c i = Cert.Ntm.Packed.whi (KNr V c b) (MPr V c b) h p := by
  obtain rfl : i = ix3 b h p := eq_ix3_of_vals i b h p h0 h1 h2
  rfl

/-- What point `t` writes back is block `t` of the whole-array function: batch row `bb` of the block is computed from
    batch row `bb` of the key's and the memory's blocks, which are batch row `4t + bb` of their arrays. -/
theorem flushed1_6 (c : Dev nD) (t : Fin cfg1.N) :
    (dat1 V c).flushed 6 t = ((cfg1.win 6).blk t).view.read (Elt Ideal) (G6 V c) := by
  obtain ⟨-, -, -, -, -, -, ⟨e0, e1, e2⟩⟩ := idx1 t
  show (cfg1.win 6).cut (grid1.coords t) ((dat1 V c).after 6 t) = _
  rw [after1_6]
  funext y
  have hy0 : (y 0).val < 4 := (y 0).isLt
  have hy1 : (y 1).val < 6 := (y 1).isLt
  have hy2 : (y 2).val < 1024 := (y 2).isLt
  rw [View.read_apply]
  have hx : (cfg1.win 6).xinj (grid1.coords t) y = ix3 ⟨(y 0).val, hy0⟩ ⟨(y 1).val, hy1⟩ ⟨(y 2).val, hy2⟩ :=
    funext fun a => Fin.ext (by match a with | ⟨0, _⟩ => rfl | ⟨1, _⟩ => rfl | ⟨2, _⟩ => rfl)
  show out1_6 (iblk1 V c 0 t) (iblk1 V c 3 t) ((cfg1.win 6).xinj (grid1.coords t) y)
    = G6 V c (((cfg1.win 6).blk t).view.emb y)
  rw [hx]
  refine ((out1_6_apply (iblk1 V c 0 t) (iblk1 V c 3 t) ⟨(y 0).val, hy0⟩ ⟨(y 1).val, hy1⟩ ⟨(y 2).val, hy2⟩).trans ?_).trans
    (G6_of_coords V c (((cfg1.win 6).blk t).view.emb y) (row1 t ⟨(y 0).val, hy0⟩) ⟨(y 1).val, hy1⟩ ⟨(y 2).val, hy2⟩ ?_ ?_ ?_).symm
  · exact congrArg₂ (fun kn mp => Cert.Ntm.Packed.whi kn mp ⟨(y 1).val, hy1⟩ ⟨(y 2).val, hy2⟩)
      (funext fun h => funext fun d => blk1_0 V c t ⟨(y 0).val, hy0⟩ h d)
      (funext fun p => funext fun l => blk1_3 V c t ⟨(y 0).val, hy0⟩ p l)
  · show win1_6.index t (0 : Fin 3) * 4 + 1 * (y 0).val = t.val * 4 + (y 0).val; rw [e0]; omega
  · show win1_6.index t (1 : Fin 3) * 6 + 1 * (y 1).val = (y 1).val; rw [e1]; omega
  · show win1_6.index t (2 : Fin 3) * 1024 + 1 * (y 2).val = (y 2).val; rw [e2]; omega

/-- An index of the array is in point `t`'s block iff each coordinate is in the block's range on its axis. -/
theorem mem_blk1_6 (t : Fin cfg1.N) (i : S256x6x1024.Idx) :
    i ∈ ((cfg1.win 6).blk t).view.set ↔ ∀ a : Fin 3, win1_6.index t a * S4x6x1024.size a ≤ (i a).val
      ∧ (i a).val < win1_6.index t a * S4x6x1024.size a + S4x6x1024.size a := by
  show i ∈ ((View.whole main_v31_2).slice (win1_6.rect t)).set ↔ _
  rw [View.set_slice_whole, Rect.mem_set_unit]
  exact Iff.rfl

/-- Every entry of the array is in the block of its batch row. -/
theorem cover1_6 (i : S256x6x1024.Idx) :
    ∃ t : Fin cfg1.N, (cfg1.win 6).flush t = true ∧ i ∈ ((cfg1.win 6).blk t).view.set := by
  have hi0 : (i 0).val < 256 := (i 0).isLt
  have hi1 : (i 1).val < 6 := (i 1).isLt
  have hi2 : (i 2).val < 1024 := (i 2).isLt
  have hN : (i 0).val / 4 < cfg1.N := lt_of_lt_of_eq (by omega : (i 0).val / 4 < 64) N_1.symm
  obtain ⟨-, -, -, -, -, -, ⟨e0, e1, e2⟩⟩ := idx1 ⟨(i 0).val / 4, hN⟩
  have e0' : win1_6.index ⟨(i 0).val / 4, hN⟩ (0 : Fin 3) = (i 0).val / 4 := e0
  refine ⟨⟨(i 0).val / 4, hN⟩, flush1_6 _, ?_⟩
  rw [mem_blk1_6]
  intro a
  match a with
  | ⟨0, _⟩ =>
    show win1_6.index ⟨(i 0).val / 4, hN⟩ (0 : Fin 3) * 4 ≤ (i 0).val
      ∧ (i 0).val < win1_6.index ⟨(i 0).val / 4, hN⟩ (0 : Fin 3) * 4 + 4
    rw [e0']; omega
  | ⟨1, _⟩ =>
    show win1_6.index ⟨(i 0).val / 4, hN⟩ (1 : Fin 3) * 6 ≤ (i 1).val
      ∧ (i 1).val < win1_6.index ⟨(i 0).val / 4, hN⟩ (1 : Fin 3) * 6 + 6
    rw [e1]; omega
  | ⟨2, _⟩ =>
    show win1_6.index ⟨(i 0).val / 4, hN⟩ (2 : Fin 3) * 1024 ≤ (i 2).val
      ∧ (i 2).val < win1_6.index ⟨(i 0).val / 4, hN⟩ (2 : Fin 3) * 1024 + 1024
    rw [e2]; omega

/-- The array after the region. -/
theorem final1_6 (c : Dev nD) : (dat1 V c).arrAt 6 cfg1.N = G6 V c :=
  (dat1 V c).arrAt_eq_of_cover 6 (G6 V c) (fun t _ => flushed1_6 V c t) cover1_6

/-! ## At the region's exit -/

variable (m : (ℓ : Loc nD τ sig) → Buf (Elt Ideal) ℓ)

theorem v31_1_eq (c : Dev nD) : W4 (F := Ideal) m c (Proc.devRef .tc main_v31_1) = G5 (V3 (F := Ideal) m) c :=
  (W4_arr m c 5).trans (final1_5 (V3 m) c)
theorem v31_2_eq (c : Dev nD) : W4 (F := Ideal) m c (Proc.devRef .tc main_v31_2) = G6 (V3 (F := Ideal) m) c :=
  (W4_arr m c 6).trans (final1_6 (V3 m) c)

/-- After the memory-update region, entry (b, h, p) of the even-slot weights. -/
theorem v31_1_apply (c : Dev nD) (b : Fin 256) (h : Fin 6) (p : Fin 1024) :
    (W4 (F := Ideal) m c (Proc.devRef .tc main_v31_1) : S256x6x1024.Idx → EReal) (ix3 b h p)
      = Cert.Ntm.Packed.wlo (KNa m c b) (MPa m c b) h p :=
  (congrFun (v31_1_eq m c) (ix3 b h p)).trans (G5_of_coords (V3 m) c (ix3 b h p) b h p rfl rfl rfl)
/-- After the memory-update region, entry (b, h, p) of the odd-slot weights. -/
theorem v31_2_apply (c : Dev nD) (b : Fin 256) (h : Fin 6) (p : Fin 1024) :
    (W4 (F := Ideal) m c (Proc.devRef .tc main_v31_2) : S256x6x1024.Idx → EReal) (ix3 b h p)
      = Cert.Ntm.Packed.whi (KNa m c b) (MPa m c b) h p :=
  (congrFun (v31_2_eq m c) (ix3 b h p)).trans (G6_of_coords (V3 m) c (ix3 b h p) b h p rfl rfl rfl)

end Cert.KernelIdeal.Hand

end
-- ==== Proof.KI.FinalW.lean ====
/-
  The returned weights are the reference's.

  Slot n of head h of batch row b is read off the even-slot array when n is even and off the odd-slot array when n is
  odd, at packed row n / 2. The memory-update region leaves in those arrays the packed softmax weights of the row's
  normalised key against its packed memory. The normalised key is the projection's first 384 columns scaled, head by
  head, by the reciprocal square root of their sum of squares, and the projection's output is the dense input row
  against the three weight matrices side by side plus the three biases end to end, so it is the reference's key
  normalised; the packed memory is the reference's memory in the packed layout. Under the precondition (real entries,
  positive sums of squares) the packed weights, read slot by slot, are the reference's softmax weights, which is what
  the reference's result is at that index.
-/
import proofs.«132960_j32220844655352_2_alg».proof.Proof.KI.Fold
import proofs.«132960_j32220844655352_2_alg».proof.Proof.KI.Host0
import proofs.«132960_j32220844655352_2_alg».proof.Proof.KI.Host1a
import proofs.«132960_j32220844655352_2_alg».proof.Proof.KI.Host1b
import proofs.«132960_j32220844655352_2_alg».proof.Proof.KI.Host2
import proofs.«132960_j32220844655352_2_alg».proof.Proof.KI.Val0
import proofs.«132960_j32220844655352_2_alg».proof.Proof.KI.Val1Rows
import proofs.«132960_j32220844655352_2_alg».proof.Proof.KI.Val1w
import proofs.«132960_j32220844655352_2_alg».proof.Proof.Glue
import proofs.«132960_j32220844655352_2_alg».proof.Proof.PreGood
import proofs.«132960_j32220844655352_2_alg».proof.Proof.Ref.Weights
import proofs.«132960_j32220844655352_2_alg».proof.Proof.Gen.ReferenceIdeal.Read
import proofs.«132960_j32220844655352_2_alg».proof.Proof.Gen.Pre_finite_inputs
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

theorem kernel_w
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = fun _ => 1#1) :
    (W5 (F := Ideal) m c (Proc.devRef .tc main_v36) : S256x6x2048.Idx → EReal)
      = Cert.ReferenceIdeal.Read.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨b, h, n, rfl⟩ : ∃ (b : Fin 256) (h : Fin 6) (n : Fin 2048), i = ix3 b h n := ⟨i 0, i 1, i 2, eq_ix3 i⟩
  have D := Cert.PreFacts.decode _ _ _ _ _ _ _ _ _ hpre
  refine (Cert.Glue.weights_core
    (x0 := (m ((c.tc : Thread nD τ).loc main_arg0) : S256x128.Idx → EReal)) (x1 := (m ((c.tc : Thread nD τ).loc main_arg1) : S256x2048x64.Idx → EReal)) (x2 := (m ((c.tc : Thread nD τ).loc main_arg2) : S256x6x2048.Idx → EReal))
    (x3 := (m ((c.tc : Thread nD τ).loc main_arg3) : S12416x384.Idx → EReal)) (x5 := (m ((c.tc : Thread nD τ).loc main_arg5) : S12416x384.Idx → EReal)) (x7 := (m ((c.tc : Thread nD τ).loc main_arg7) : S12416x384.Idx → EReal))
    (x4 := (m ((c.tc : Thread nD τ).loc main_arg4) : S384.Idx → EReal)) (x6 := (m ((c.tc : Thread nD τ).loc main_arg6) : S384.Idx → EReal)) (x8 := (m ((c.tc : Thread nD τ).loc main_arg8) : S384.Idx → EReal))
    (A1 := (V1 (F := Ideal) m c main_v1 : S256x12416.Idx → EReal))
    (A2 := (V1 (F := Ideal) m c main_v2 : S12416x1152.Idx → EReal))
    (A4 := (V1 (F := Ideal) m c main_v4 : S1x1152.Idx → EReal))
    (Y := (W2 (F := Ideal) m c (Proc.devRef .tc main_v5) : S256x1152.Idx → EReal))
    (h1 := v1_apply m c) (h2 := v2_apply m c) (h4 := v4_apply m c) (hY := v5_apply m c)
    (KN := (V3 (F := Ideal) m c main_v29 : S256x6x64.Idx → EReal))
    (MP := (V3 (F := Ideal) m c main_v30 : S256x1024x128.Idx → EReal))
    (hKN := v29_apply_of m c _ rfl) (hMP := v30_apply m c)
    (hG := fun b => Cert.PreFacts.good D b)
    (L := (W4 (F := Ideal) m c (Proc.devRef .tc main_v31_1) : S256x6x1024.Idx → EReal))
    (H := (W4 (F := Ideal) m c (Proc.devRef .tc main_v31_2) : S256x6x1024.Idx → EReal))
    (R := (W5 (F := Ideal) m c (Proc.devRef .tc main_v36) : S256x6x2048.Idx → EReal))
    (hL := v31_1_apply m c) (hH := v31_2_apply m c) (hR := v36_apply m c) b h n).trans ?_
  exact (Cert.RefValue.ref_w_apply _ _ _ _ _ b h n).symm

end Cert.KernelIdeal.Hand

end
-- ==== Proof.lean ====
/-
  The certificate of the memory update: the kernel's program (a projection matmul region and a fused
  normalise / cosine-score / softmax / erase-add region on a lane-packed memory, among host operations) against the plain
  reference, on the extended reals.

  The three frames: both forms of the kernel's program — on machine words and on the extended reals — run to the end and
  leave their arguments as launched (the run through the five items of the program, `Hand.frame`); the reference's run
  is its operations composed. The two forms differ in no operation, so the claim relating them is `True`.
  The value claim: the kernel's run ends with every buffer at the fold of the five items (`Hand.run_all`), whose two result arrays are, index by index,
  the reference's terms of the same arguments (`kernel_mem`, `kernel_w`) — under the precondition, which makes every
  input a real number and keeps every memory slot and every key row away from the zero vector, where the reference
  divides zero by zero.
-/
import proofs.«132960_j32220844655352_2_alg».proof.Defs
import proofs.«132960_j32220844655352_2_alg».proof.Proof.Gen.Kernel
import proofs.«132960_j32220844655352_2_alg».proof.Proof.Gen.KernelIdeal
import proofs.«132960_j32220844655352_2_alg».proof.Proof.Gen.ReferenceIdeal
import proofs.«132960_j32220844655352_2_alg».proof.Proof.Gen.ReferenceIdeal.Run
import proofs.«132960_j32220844655352_2_alg».proof.Proof.Gen.ReferenceIdeal.Read
import proofs.«132960_j32220844655352_2_alg».proof.Proof.Gen.Pre_finite_inputs
import proofs.«132960_j32220844655352_2_alg».proof.Proof.K.Run
import proofs.«132960_j32220844655352_2_alg».proof.Proof.KI.Run
import proofs.«132960_j32220844655352_2_alg».proof.Proof.KI.Final
import proofs.«132960_j32220844655352_2_alg».proof.Proof.KI.FinalW

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Hand.frame m ρ

theorem frame_kernelIdeal : @Cert.frame_KernelIdeal Cert.KernelIdeal.Gen.facts Cert.Pre_finite_inputs.Gen.facts :=
  fun m ρ _ => Cert.KernelIdeal.Hand.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

open Cert.KernelIdeal Cert.KernelIdeal.Gen Cert.KernelIdeal.Hand in
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => W5 (F := Ideal) m c (Proc.devRef .tc main_v32), fun c => W5 (F := Ideal) m c (Proc.devRef .tc main_v36), ?_, ?_⟩
  · exact (θ_run Cert.KernelIdeal.defs _ _).mono (fun r h c =>
      ⟨h c _ (mem_uc main_v32 (by decide)), h c _ (mem_uc main_v36 (by decide)),
       (h c _ (mem_uc main_arg0 (by decide))).trans (W5_main_arg0 m c),
       (h c _ (mem_uc main_arg1 (by decide))).trans (W5_main_arg1 m c),
       (h c _ (mem_uc main_arg2 (by decide))).trans (W5_main_arg2 m c),
       (h c _ (mem_uc main_arg3 (by decide))).trans (W5_main_arg3 m c),
       (h c _ (mem_uc main_arg4 (by decide))).trans (W5_main_arg4 m c),
       (h c _ (mem_uc main_arg5 (by decide))).trans (W5_main_arg5 m c),
       (h c _ (mem_uc main_arg6 (by decide))).trans (W5_main_arg6 m c),
       (h c _ (mem_uc main_arg7 (by decide))).trans (W5_main_arg7 m c),
       (h c _ (mem_uc main_arg8 (by decide))).trans (W5_main_arg8 m c)⟩) (run_all (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v52_eq, (hagree c).1, (hagree c).2.1, (hagree c).2.2.1, (hagree c).2.2.2.1,
        (hagree c).2.2.2.2.1, (hagree c).2.2.2.2.2.1, (hagree c).2.2.2.2.2.2.1, (hagree c).2.2.2.2.2.2.2.1,
        (hagree c).2.2.2.2.2.2.2.2]
      exact (kernel_mem m c (hpre c)).symm
    · rw [Cert.ReferenceIdeal.Read.val_main_v24_eq, (hagree c).1, (hagree c).2.1, (hagree c).2.2.1, (hagree c).2.2.2.1,
        (hagree c).2.2.2.2.1]
      exact (kernel_w m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
